-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v131)) (v1 : (c : Dev Cert.KernelIdeal.nD) → Buf (Elt Ideal) ((c.tc : Thread Cert.KernelIdeal.nD Cert.KernelIdeal.τ).loc Cert.KernelIdeal.main_v118_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v131) = v0 c
          ∧ r.2.mem ((c.tc : Thread Cert.KernelIdeal.nD Cert.KernelIdeal.τ).loc Cert.KernelIdeal.main_v118_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x8 : Shape := ⟨2, ![50000, 8]⟩
abbrev S600000x4 : Shape := ⟨2, ![600000, 4]⟩
abbrev S600000 : Shape := ⟨1, ![600000]⟩
abbrev S8x128 : Shape := ⟨2, ![8, 128]⟩
abbrev S128 : Shape := ⟨1, ![128]⟩
abbrev S4x128 : Shape := ⟨2, ![4, 128]⟩
abbrev S3x384x128 : Shape := ⟨3, ![3, 384, 128]⟩
abbrev S3x128 : Shape := ⟨2, ![3, 128]⟩
abbrev S3x256x128 : Shape := ⟨3, ![3, 256, 128]⟩
abbrev S_ : Shape := ⟨0, ![]⟩

class Facts : Prop where
  bcast_S_S50000x8 : S_.BroadcastsInDim S50000x8 (![] : Fin 0 → Fin S50000x8.rank)
  reducesTo_S50000x8_S_d0_1 : S50000x8.ReducesTo [0, 1] S_
  h_S_ : 0 < S_.numel
  bcast_S_S600000x4 : S_.BroadcastsInDim S600000x4 (![] : Fin 0 → Fin S600000x4.rank)
  reducesTo_S600000x4_S_d0_1 : S600000x4.ReducesTo [0, 1] S_
  bcast_S_S8x128 : S_.BroadcastsInDim S8x128 (![] : Fin 0 → Fin S8x128.rank)
  reducesTo_S8x128_S_d0_1 : S8x128.ReducesTo [0, 1] S_
  bcast_S_S128 : S_.BroadcastsInDim S128 (![] : Fin 0 → Fin S128.rank)
  reducesTo_S128_S_d0 : S128.ReducesTo [0] S_
  bcast_S_S4x128 : S_.BroadcastsInDim S4x128 (![] : Fin 0 → Fin S4x128.rank)
  reducesTo_S4x128_S_d0_1 : S4x128.ReducesTo [0, 1] S_
  bcast_S_S3x384x128 : S_.BroadcastsInDim S3x384x128 (![] : Fin 0 → Fin S3x384x128.rank)
  reducesTo_S3x384x128_S_d0_1_2 : S3x384x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part2 {F : FTy → Type} [FloatOps F] (main_arg9 : FVec F S3x128 .f32) (main_arg10 : FVec F S3x256x128 .f32) (main_arg11 : FVec F S3x128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x256x128 .f32 := Host.absf main_arg10
  let main_cst_14 : FVec F S_ .f32 := constant S_ .f32 0x7F800000#32
  let main_v40 : FVec F S3x256x128 .f32 := broadcastInDim S3x256x128 ![] bcast_S_S3x256x128 main_cst_14
  let main_v41 : IVec S3x256x128 1 := cmpf .olt main_v39 main_v40
  let main_c_15 : IVec S_ 1 := constantI S_ 1 1#1
  let main_v42 : IVec S_ 1 := (fun x v => Host.reduce IntOp.andi x v reducesTo_S3x256x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  main_v48

def fn_part1 {F : FTy → Type} [FloatOps F] (main_arg6 : FVec F S4x128 .f32) (main_arg7 : FVec F S128 .f32) (main_arg8 : FVec F S3x384x128 .f32) (main_arg9 : FVec F S3x128 .f32) (main_arg10 : FVec F S3x256x128 .f32) (main_arg11 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x384x128 .f32 := Host.absf main_arg8
  let main_cst_10 : FVec F S_ .f32 := constant S_ .f32 0x7F800000#32
  let main_v30 : FVec F S3x384x128 .f32 := broadcastInDim S3x384x128 ![] bcast_S_S3x384x128 main_cst_10
  let main_v31 : IVec S3x384x128 1 := cmpf .olt main_v29 main_v30
  let main_c_11 : IVec S_ 1 := constantI S_ 1 1#1
  let main_v32 : IVec S_ 1 := (fun x v => Host.reduce IntOp.andi x v reducesTo_S3x384x128_S_d0_1_2 h_S_) main_v31 main_c_11
  let main_v33 : IVec S_ 1 := andi main_v28 main_v32
  fn_part2 (F := F) main_arg9 main_arg10 main_arg11 main_v33

def fn {F : FTy → Type} [FloatOps F] (main_arg0 : FVec F S50000x8 .f32) (main_arg1 : FVec F S600000x4 .f32) (main_arg2 : IVec S600000 32) (main_arg3 : IVec S600000 32) (main_arg4 : FVec F S8x128 .f32) (main_arg5 : FVec F S128 .f32) (main_arg6 : FVec F S4x128 .f32) (main_arg7 : FVec F S128 .f32) (main_arg8 : FVec F S3x384x128 .f32) (main_arg9 : FVec F S3x128 .f32) (main_arg10 : FVec F S3x256x128 .f32) (main_arg11 : FVec F S3x128 .f32) : IVec S_ 1 :=
  let main_v0 : FVec F S50000x8 .f32 := Host.absf main_arg0
  let main_cst : FVec F S_ .f32 := constant S_ .f32 0x7F800000#32
  let main_v1 : FVec F S50000x8 .f32 := broadcastInDim S50000x8 ![] bcast_S_S50000x8 main_cst
  let main_v2 : IVec S50000x8 1 := cmpf .olt main_v0 main_v1
  let main_c : IVec S_ 1 := constantI S_ 1 1#1
  let main_v3 : IVec S_ 1 := (fun x v => Host.reduce IntOp.andi x v reducesTo_S50000x8_S_d0_1 h_S_) main_v2 main_c
  let main_v4 : FVec F S600000x4 .f32 := Host.absf main_arg1
  let main_cst_0 : FVec F S_ .f32 := constant S_ .f32 0x7F800000#32
  let main_v5 : FVec F S600000x4 .f32 := broadcastInDim S600000x4 ![] bcast_S_S600000x4 main_cst_0
  let main_v6 : IVec S600000x4 1 := cmpf .olt main_v4 main_v5
  let main_c_1 : IVec S_ 1 := constantI S_ 1 1#1
  let main_v7 : IVec S_ 1 := (fun x v => Host.reduce IntOp.andi x v reducesTo_S600000x4_S_d0_1 h_S_) main_v6 main_c_1
  let main_v8 : IVec S_ 1 := andi main_v3 main_v7
  let main_v9 : FVec F S8x128 .f32 := Host.absf main_arg4
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x8 : Shape := ⟨2, ![50000, 8]⟩
abbrev S600000x4 : Shape := ⟨2, ![600000, 4]⟩
abbrev S600000 : Shape := ⟨1, ![600000]⟩
abbrev S8x128 : Shape := ⟨2, ![8, 128]⟩
abbrev S128 : Shape := ⟨1, ![128]⟩
abbrev S4x128 : Shape := ⟨2, ![4, 128]⟩
abbrev S3x384x128 : Shape := ⟨3, ![3, 384, 128]⟩
abbrev S3x128 : Shape := ⟨2, ![3, 128]⟩
abbrev S3x256x128 : Shape := ⟨3, ![3, 256, 128]⟩
abbrev S50000x128 : Shape := ⟨2, ![50000, 128]⟩
abbrev S1x128 : Shape := ⟨2, ![1, 128]⟩
abbrev S600000x128 : Shape := ⟨2, ![600000, 128]⟩
abbrev S_ : Shape := ⟨0, ![]⟩
abbrev S600000x1 : Shape := ⟨2, ![600000, 1]⟩
abbrev S1x128x128 : Shape := ⟨3, ![1, 128, 128]⟩
abbrev S128x128 : Shape := ⟨2, ![128, 128]⟩
abbrev S8000x128 : Shape := ⟨2, ![8000, 128]⟩
abbrev S2000x128 : Shape := ⟨2, ![2000, 128]⟩

abbrev nBuf : Space → Nat
  | .hbm => 162
  | .vmem => 69
  | .smem => 0
  | _ => 0

abbrev hbmTy0_0 (i : Nat) : BufTy := match i % 128 with
  | 0 => ⟨S50000x8, .f32⟩
  | 1 => ⟨S600000x4, .f32⟩
  | 2 => ⟨S600000, .i32⟩
  | 3 => ⟨S600000, .i32⟩
  | 4 => ⟨S8x128, .f32⟩
  | 5 => ⟨S128, .f32⟩
  | 6 => ⟨S4x128, .f32⟩
  | 7 => ⟨S128, .f32⟩
  | 8 => ⟨S3x384x128, .f32⟩
  | 9 => ⟨S3x128, .f32⟩
  | 10 => ⟨S3x256x128, .f32⟩
  | 11 => ⟨S3x128, .f32⟩
  | 12 => ⟨S50000x128, .f32⟩
  | 13 => ⟨S1x128, .f32⟩
  | 14 => ⟨S50000x128, .f32⟩
  | 15 => ⟨S50000x128, .f32⟩
  | 16 => ⟨S600000x128, .f32⟩
  | 17 => ⟨S1x128, .f32⟩
  | 18 => ⟨S600000x128, .f32⟩
  | 19 => ⟨S600000x128, .f32⟩
  | 20 => ⟨S600000x128, .bf16⟩
  | 21 => ⟨S50000x128, .bf16⟩
  | 22 => ⟨S_, .i32⟩
  | 23 => ⟨S600000, .i32⟩
  | 24 => ⟨S600000, .i1⟩
  | 25 => ⟨S_, .i32⟩
  | 26 => ⟨S600000, .i32⟩
  | 27 => ⟨S600000, .i32⟩
  | 28 => ⟨S600000, .i32⟩
  | 29 => ⟨S600000x1, .i32⟩
  | 30 => ⟨S600000x128, .bf16⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x128, .bf16⟩
  | 40 => ⟨S1x128x128, .f32⟩
  | 41 => ⟨S128x128, .f32⟩
  | 42 => ⟨S128x128, .bf16⟩
  | 43 => ⟨S1x128x128, .f32⟩
  | 44 => ⟨S128x128, .f32⟩
  | 45 => ⟨S128x128, .bf16⟩
  | 46 => ⟨S1x128x128, .f32⟩
  | 47 => ⟨S128x128, .f32⟩
  | 48 => ⟨S128x128, .bf16⟩
  | 49 => ⟨S1x128, .f32⟩
  | 50 => ⟨S128, .f32⟩
  | 51 => ⟨S1x128, .f32⟩
  | 52 => ⟨S600000x128, .f32⟩
  | 53 => ⟨S600000x128, .bf16⟩
  | 54 => ⟨S_, .f32⟩
  | 55 => ⟨S50000x128, .f32⟩
  | 56 => ⟨S600000x1, .i32⟩
  | 57 => ⟨S50000x128, .f32⟩
  | 58 => ⟨S1x128x128, .f32⟩
  | 59 => ⟨S128x128, .f32⟩
  | 60 => ⟨S128x128, .bf16⟩
  | 61 => ⟨S1x128x128, .f32⟩
  | 62 => ⟨S128x128, .f32⟩
  | 63 => ⟨S128x128, .bf16⟩
  | 64 => ⟨S1x128, .f32⟩
  | 65 => ⟨S128, .f32⟩
  | 66 => ⟨S1x128, .f32⟩
  | 67 => ⟨S50000x128, .f32⟩
  | 68 => ⟨S50000x128, .bf16⟩
  | 69 => ⟨S_, .i32⟩
  | 70 => ⟨S600000, .i32⟩
  | 71 => ⟨S600000, .i1⟩
  | 72 => ⟨S_, .i32⟩
  | 73 => ⟨S600000, .i32⟩
  | 74 => ⟨S600000, .i32⟩
  | 75 => ⟨S600000, .i32⟩
  | 76 => ⟨S600000x1, .i32⟩
  | 77 => ⟨S600000x128, .bf16⟩
  | 78 => ⟨S_, .i32⟩
  | 79 => ⟨S600000, .i32⟩
  | 80 => ⟨S600000, .i1⟩
  | 81 => ⟨S_, .i32⟩
  | 82 => ⟨S600000, .i32⟩
  | 83 => ⟨S600000, .i32⟩
  | 84 => ⟨S600000, .i32⟩
  | 85 => ⟨S600000x1, .i32⟩
  | 86 => ⟨S600000x128, .bf16⟩
  | 87 => ⟨S1x128x128, .f32⟩
  | 88 => ⟨S128x128, .f32⟩
  | 89 => ⟨S128x128, .bf16⟩
  | 90 => ⟨S1x128x128, .f32⟩
  | 91 => ⟨S128x128, .f32⟩
  | 92 => ⟨S128x128, .bf16⟩
  | 93 => ⟨S1x128x128, .f32⟩
  | 94 => ⟨S128x128, .f32⟩
  | 95 => ⟨S128x128, .bf16⟩
  | 96 => ⟨S1x128, .f32⟩
  | 97 => ⟨S128, .f32⟩
  | 98 => ⟨S1x128, .f32⟩
  | 99 => ⟨S600000x128, .f32⟩
  | 100 => ⟨S600000x128, .bf16⟩
  | 101 => ⟨S_, .f32⟩
  | 102 => ⟨S50000x128, .f32⟩
  | 103 => ⟨S600000x1, .i32⟩
  | 104 => ⟨S50000x128, .f32⟩
  | 105 => ⟨S1x128x128, .f32⟩
  | 106 => ⟨S128x128, .f32⟩
  | 107 => ⟨S128x128, .bf16⟩
  | 108 => ⟨S1x128x128, .f32⟩
  | 109 => ⟨S128x128, .f32⟩
  | 110 => ⟨S128x128, .bf16⟩
  | 111 => ⟨S1x128, .f32⟩
  | 112 => ⟨S128, .f32⟩
  | 113 => ⟨S1x128, .f32⟩
  | 114 => ⟨S50000x128, .f32⟩
  | 115 => ⟨S50000x128, .bf16⟩
  | 116 => ⟨S_, .i32⟩
  | 117 => ⟨S600000, .i32⟩
  | 118 => ⟨S600000, .i1⟩
  | 119 => ⟨S_, .i32⟩
  | 120 => ⟨S600000, .i32⟩
  | 121 => ⟨S600000, .i32⟩
  | 122 => ⟨S600000, .i32⟩
  | 123 => ⟨S600000x1, .i32⟩
  | 124 => ⟨S600000x128, .bf16⟩
  | 125 => ⟨S_, .i32⟩
  | 126 => ⟨S600000, .i32⟩
  | 127 => ⟨S600000, .i1⟩
  | _ => ⟨S50000x8, .f32⟩

abbrev hbmTy0_1 (i : Nat) : BufTy := match i % 128 with
  | 0 => ⟨S_, .i32⟩
  | 1 => ⟨S600000, .i32⟩
  | 2 => ⟨S600000, .i32⟩
  | 3 => ⟨S600000, .i32⟩
  | 4 => ⟨S600000x1, .i32⟩
  | 5 => ⟨S600000x128, .bf16⟩
  | 6 => ⟨S1x128x128, .f32⟩
  | 7 => ⟨S128x128, .f32⟩
  | 8 => ⟨S128x128, .bf16⟩
  | 9 => ⟨S1x128x128, .f32⟩
  | 10 => ⟨S128x128, .f32⟩
  | 11 => ⟨S128x128, .bf16⟩
  | 12 => ⟨S1x128x128, .f32⟩
  | 13 => ⟨S128x128, .f32⟩
  | 14 => ⟨S128x128, .bf16⟩
  | 15 => ⟨S1x128, .f32⟩
  | 16 => ⟨S128, .f32⟩
  | 17 => ⟨S1x128, .f32⟩
  | 18 => ⟨S600000x128, .f32⟩
  | 19 => ⟨S600000x128, .bf16⟩
  | 20 => ⟨S_, .f32⟩
  | 21 => ⟨S50000x128, .f32⟩
  | 22 => ⟨S600000x1, .i32⟩
  | 23 => ⟨S50000x128, .f32⟩
  | 24 => ⟨S1x128x128, .f32⟩
  | 25 => ⟨S128x128, .f32⟩
  | 26 => ⟨S128x128, .bf16⟩
  | 27 => ⟨S1x128x128, .f32⟩
  | 28 => ⟨S128x128, .f32⟩
  | 29 => ⟨S128x128, .bf16⟩
  | 30 => ⟨S1x128, .f32⟩
  | 31 => ⟨S128, .f32⟩
  | 32 => ⟨S1x128, .f32⟩
  | 33 => ⟨S50000x128, .f32⟩
  | _ => ⟨S50000x8, .f32⟩

abbrev hbmTy (i : Nat) : BufTy := match i / 128 with
  | 0 => hbmTy0_0 i
  | 1 => hbmTy0_1 i
  | _ => ⟨S50000x8, .f32⟩

abbrev bufTy : (tb : Table) → Fin (tcTables nBuf tb) → BufTy
  | .hbm, ⟨i, _⟩ => hbmTy i
  | .local _ .vmem, ⟨0, _⟩ => ⟨S8000x128, .bf16⟩
  | .local _ .vmem, ⟨1, _⟩ => ⟨S8000x128, .bf16⟩
  | .local _ .vmem, ⟨2, _⟩ => ⟨S8000x128, .bf16⟩
  | .local _ .vmem, ⟨3, _⟩ => ⟨S8000x128, .bf16⟩
  | .local _ .vmem, ⟨4, _⟩ => ⟨S8000x128, .bf16⟩
  | .local _ .vmem, ⟨5, _⟩ => ⟨S8000x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S8000x128, .f32⟩
  | .local _ .vmem, ⟨11, _⟩ => ⟨S8000x128, .f32⟩
  | .local _ .vmem, ⟨12, _⟩ => ⟨S8000x128, .bf16⟩
  | .local _ .vmem, ⟨13, _⟩ => ⟨S8000x128, .bf16⟩
  | .local _ .vmem, ⟨14, _⟩ => ⟨S2000x128, .bf16⟩
  | .local _ .vmem, ⟨15, _⟩ => ⟨S2000x128, .bf16⟩
  | .local _ .vmem, ⟨16, _⟩ => ⟨S2000x128, .f32⟩
  | .local _ .vmem, ⟨17, _⟩ => ⟨S2000x128, .f32⟩
  | .local _ .vmem, ⟨18, _⟩ => ⟨S128x128, .bf16⟩
  | .local _ .vmem, ⟨19, _⟩ => ⟨S128x128, .bf16⟩
  | .local _ .vmem, ⟨20, _⟩ => ⟨S1x128, .f32⟩
  | .local _ .vmem, ⟨21, _⟩ => ⟨S2000x128, .f32⟩
  | .local _ .vmem, ⟨22, _⟩ => ⟨S2000x128, .f32⟩
  | .local _ .vmem, ⟨23, _⟩ => ⟨S8000x128, .bf16⟩
  | .local _ .vmem, ⟨24, _⟩ => ⟨S8000x128, .bf16⟩
  | .local _ .vmem, ⟨25, _⟩ => ⟨S8000x128, .bf16⟩
  | .local _ .vmem, ⟨26, _⟩ => ⟨S8000x128, .bf16⟩
  | .local _ .vmem, ⟨27, _⟩ => ⟨S8000x128, .bf16⟩
  | .local _ .vmem, ⟨28, _⟩ => ⟨S8000x128, .bf16⟩
  | .local _ .vmem, ⟨29, _⟩ => ⟨S128x128, .bf16⟩
  | .local _ .vmem, ⟨30, _⟩ => ⟨S128x128, .bf16⟩
  | .local _ .vmem, ⟨31, _⟩ => ⟨S128x128, .bf16⟩
  | .local _ .vmem, ⟨32, _⟩ => ⟨S1x128, .f32⟩
  | .local _ .vmem, ⟨33, _⟩ => ⟨S8000x128, .f32⟩
  | .local _ .vmem, ⟨34, _⟩ => ⟨S8000x128, .f32⟩
  | .local _ .vmem, ⟨35, _⟩ => ⟨S8000x128, .bf16⟩
  | .local _ .vmem, ⟨36, _⟩ => ⟨S8000x128, .bf16⟩
  | .local _ .vmem, ⟨37, _⟩ => ⟨S2000x128, .bf16⟩
  | .local _ .vmem, ⟨38, _⟩ => ⟨S2000x128, .bf16⟩
  | .local _ .vmem, ⟨39, _⟩ => ⟨S2000x128, .f32⟩
  | .local _ .vmem, ⟨40, _⟩ => ⟨S2000x128, .f32⟩
  | .local _ .vmem, ⟨41, _⟩ => ⟨S128x128, .bf16⟩
  | .local _ .vmem, ⟨42, _⟩ => ⟨S128x128, .bf16⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S8000x128, .bf16⟩
  | .local _ .vmem, ⟨47, _⟩ => ⟨S8000x128, .bf16⟩
  | .local _ .vmem, ⟨48, _⟩ => ⟨S8000x128, .bf16⟩
  | .local _ .vmem, ⟨49, _⟩ => ⟨S8000x128, .bf16⟩
  | .local _ .vmem, ⟨50, _⟩ => ⟨S8000x128, .bf16⟩
  | .local _ .vmem, ⟨51, _⟩ => ⟨S8000x128, .bf16⟩
  | .local _ .vmem, ⟨52, _⟩ => ⟨S128x128, .bf16⟩
  | .local _ .vmem, ⟨53, _⟩ => ⟨S128x128, .bf16⟩
  | .local _ .vmem, ⟨54, _⟩ => ⟨S128x128, .bf16⟩
  | .local _ .vmem, ⟨55, _⟩ => ⟨S1x128, .f32⟩
  | .local _ .vmem, ⟨56, _⟩ => ⟨S8000x128, .f32⟩
  | .local _ .vmem, ⟨57, _⟩ => ⟨S8000x128, .f32⟩
  | .local _ .vmem, ⟨58, _⟩ => ⟨S8000x128, .bf16⟩
  | .local _ .vmem, ⟨59, _⟩ => ⟨S8000x128, .bf16⟩
  | .local _ .vmem, ⟨60, _⟩ => ⟨S2000x128, .bf16⟩
  | .local _ .vmem, ⟨61, _⟩ => ⟨S2000x128, .bf16⟩
  | .local _ .vmem, ⟨62, _⟩ => ⟨S2000x128, .f32⟩
  | .local _ .vmem, ⟨63, _⟩ => ⟨S2000x128, .f32⟩
  | .local _ .vmem, ⟨64, _⟩ => ⟨S128x128, .bf16⟩
  | .local _ .vmem, ⟨65, _⟩ => ⟨S128x128, .bf16⟩
  | .local _ .vmem, ⟨66, _⟩ => ⟨S1x128, .f32⟩
  | .local _ .vmem, ⟨67, _⟩ => ⟨S2000x128, .f32⟩
  | .local _ .vmem, ⟨68, _⟩ => ⟨S2000x128, .f32⟩
  | _, _ => ⟨S50000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_1 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_3 : Ref sig .tc := ⟨.hbm, 69, rfl⟩
abbrev main_v51 : Ref sig .tc := ⟨.hbm, 70, rfl⟩
abbrev main_v52 : Ref sig .tc := ⟨.hbm, 71, rfl⟩
abbrev main_c_4 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_5 : Ref sig .tc := ⟨.hbm, 78, rfl⟩
abbrev main_v58 : Ref sig .tc := ⟨.hbm, 79, rfl⟩
abbrev main_v59 : Ref sig .tc := ⟨.hbm, 80, rfl⟩
abbrev main_c_6 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77_0 : Ref sig .tc := ⟨.hbm, 99, rfl⟩
abbrev main_v77_1 : Ref sig .tc := ⟨.hbm, 100, rfl⟩
abbrev main_cst_7 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_c_8 : Ref sig .tc := ⟨.hbm, 116, rfl⟩
abbrev main_v92 : Ref sig .tc := ⟨.hbm, 117, rfl⟩
abbrev main_v93 : Ref sig .tc := ⟨.hbm, 118, rfl⟩
abbrev main_c_9 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_c_10 : Ref sig .tc := ⟨.hbm, 125, rfl⟩
abbrev main_v99 : Ref sig .tc := ⟨.hbm, 126, rfl⟩
abbrev main_v100 : Ref sig .tc := ⟨.hbm, 127, rfl⟩
abbrev main_c_11 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118_0 : Ref sig .tc := ⟨.hbm, 146, rfl⟩
abbrev main_v118_1 : Ref sig .tc := ⟨.hbm, 147, rfl⟩
abbrev main_cst_12 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc2_stg8_0 : Ref sig .tc := ⟨.vmem, 35, rfl⟩
abbrev cc2_stg8_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg5_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_stg2_1 : Ref sig .tc := ⟨.vmem, 51, rfl⟩
abbrev cc4_stg3_0 : Ref sig .tc := ⟨.vmem, 52, rfl⟩
abbrev cc4_stg4_0 : Ref sig .tc := ⟨.vmem, 53, rfl⟩
abbrev cc4_stg5_0 : Ref sig .tc := ⟨.vmem, 54, rfl⟩
abbrev cc4_stg6_0 : Ref sig .tc := ⟨.vmem, 55, rfl⟩
abbrev cc4_stg7_0 : Ref sig .tc := ⟨.vmem, 56, rfl⟩
abbrev cc4_stg7_1 : Ref sig .tc := ⟨.vmem, 57, rfl⟩
abbrev cc4_stg8_0 : Ref sig .tc := ⟨.vmem, 58, rfl⟩
abbrev cc4_stg8_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg3_0 : Ref sig .tc := ⟨.vmem, 65, rfl⟩
abbrev cc5_stg4_0 : Ref sig .tc := ⟨.vmem, 66, rfl⟩
abbrev cc5_stg5_0 : Ref sig .tc := ⟨.vmem, 67, rfl⟩
abbrev cc5_stg5_1 : Ref sig .tc := ⟨.vmem, 68, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34
abbrev cc2_sem8_0 : DmaSem sig := 35
abbrev cc2_sem8_1 : DmaSem sig := 36
abbrev cc3_sem0_0 : DmaSem sig := 37
abbrev cc3_sem0_1 : DmaSem sig := 38
abbrev cc3_sem1_0 : DmaSem sig := 39
abbrev cc3_sem1_1 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem5_1 : DmaSem sig := 45
abbrev cc4_sem0_0 : DmaSem sig := 46
abbrev cc4_sem0_1 : DmaSem sig := 47
abbrev cc4_sem1_0 : DmaSem sig := 48
abbrev cc4_sem1_1 : DmaSem sig := 49
abbrev cc4_sem2_0 : DmaSem sig := 50
abbrev cc4_sem2_1 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem7_0 : DmaSem sig := 56
abbrev cc4_sem7_1 : DmaSem sig := 57
abbrev cc4_sem8_0 : DmaSem sig := 58
abbrev cc4_sem8_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem3_0 : DmaSem sig := 65
abbrev cc5_sem4_0 : DmaSem sig := 66
abbrev cc5_sem5_0 : DmaSem sig := 67
abbrev cc5_sem5_1 : DmaSem sig := 68

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![75], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S8000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8000x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![75], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x128 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S8000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S8000x128 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  slices_S3x384x128_S1x128x128_0_0_0 : S3x384x128.Slices ![0, 0, 0] S1x128x128
  shapeCasts_S1x128x128_S128x128 : S1x128x128.ShapeCasts S128x128
  slices_S3x384x128_S1x128x128_0_128_0 : S3x384x128.Slices ![0, 128, 0] S1x128x128
  slices_S3x384x128_S1x128x128_0_256_0 : S3x384x128.Slices ![0, 256, 0] S1x128x128
  slices_S3x128_S1x128_0_0 : S3x128.Slices ![0, 0] S1x128
  shapeCasts_S1x128_S128 : S1x128.ShapeCasts S128
  shapeCasts_S128_S1x128 : S128.ShapeCasts S1x128
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  packedbf16_S8000x128_S8000x128_0_0 : (Rect.unit (s := S8000x128) ![0, 0] S8000x128.size inb_S8000x128_S8000x128_0_0).PackedRows (EltTy.packing .bf16)
  bcast_S_S50000x128 : S_.BroadcastsInDim S50000x128 (![] : Fin 0 → Fin S50000x128.rank)
  slices_S3x256x128_S1x128x128_0_0_0 : S3x256x128.Slices ![0, 0, 0] S1x128x128
  slices_S3x256x128_S1x128x128_0_128_0 : S3x256x128.Slices ![0, 128, 0] S1x128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  slices_S3x384x128_S1x128x128_1_0_0 : S3x384x128.Slices ![1, 0, 0] S1x128x128
  slices_S3x384x128_S1x128x128_1_128_0 : S3x384x128.Slices ![1, 128, 0] S1x128x128
  slices_S3x384x128_S1x128x128_1_256_0 : S3x384x128.Slices ![1, 256, 0] S1x128x128
  slices_S3x128_S1x128_1_0 : S3x128.Slices ![1, 0] S1x128
  slices_S3x256x128_S1x128x128_1_0_0 : S3x256x128.Slices ![1, 0, 0] S1x128x128
  slices_S3x256x128_S1x128x128_1_128_0 : S3x256x128.Slices ![1, 128, 0] S1x128x128
  slices_S3x384x128_S1x128x128_2_0_0 : S3x384x128.Slices ![2, 0, 0] S1x128x128
  slices_S3x384x128_S1x128x128_2_128_0 : S3x384x128.Slices ![2, 128, 0] S1x128x128
  slices_S3x384x128_S1x128x128_2_256_0 : S3x384x128.Slices ![2, 256, 0] S1x128x128
  slices_S3x128_S1x128_2_0 : S3x128.Slices ![2, 0] S1x128
  slices_S3x256x128_S1x128x128_2_0_0 : S3x256x128.Slices ![2, 0, 0] S1x128x128
  slices_S3x256x128_S1x128x128_2_128_0 : S3x256x128.Slices ![2, 128, 0] S1x128x128
  dot_S50000x8_S8x128_S50000x128_1_0_0_1_n_n_wf : DotDims.WF S50000x8 S8x128 S50000x128 [1] [0] [0] [1] [] []
  dot_S600000x4_S4x128_S600000x128_1_0_0_1_n_n_wf : DotDims.WF S600000x4 S4x128 S600000x128 [1] [0] [0] [1] [] []
  gather_S50000x128_S600000x1_S600000x128_1_0_n_n_0_1_1128_wf : GatherDims.WF S50000x128 S600000x1 S600000x128 [1] [0] [] [0] [] 1 ![1, 128]
  dot_S8000x128_S128x128_S8000x128_1_0_0_1_n_n_wf : DotDims.WF S8000x128 S128x128 S8000x128 [1] [0] [0] [1] [] []
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .bf16 = 32 ∨ (Rect.block (s := S600000x128) S8000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S600000x128.size a
  hwx0_1 : ∀ i : grid0.Coords, EltTy.bits .bf16 = 32 ∨ (Rect.block (s := S600000x128) S8000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S600000x128.size a
  hwx0_2 : ∀ i : grid0.Coords, EltTy.bits .bf16 = 32 ∨ (Rect.block (s := S600000x128) S8000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x128.size a ≤ S600000x128.size a
  hwx0_7 : ∀ i : grid0.Coords, EltTy.bits .f32 = 32 ∨ (Rect.block (s := S600000x128) S8000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8000x128.size a ≤ S600000x128.size a
  hwx0_8 : ∀ i : grid0.Coords, EltTy.bits .bf16 = 32 ∨ (Rect.block (s := S600000x128) S8000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S600000x128.size a
  hwx2_0 : ∀ i : grid2.Coords, EltTy.bits .bf16 = 32 ∨ (Rect.block (s := S600000x128) S8000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S600000x128.size a
  hwx2_1 : ∀ i : grid2.Coords, EltTy.bits .bf16 = 32 ∨ (Rect.block (s := S600000x128) S8000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S600000x128.size a
  hwx2_2 : ∀ i : grid2.Coords, EltTy.bits .bf16 = 32 ∨ (Rect.block (s := S600000x128) S8000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .bf16 = 32 ∨ (Rect.block (s := S128x128) S128x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8000x128.size a ≤ S600000x128.size a
  hwx2_7 : ∀ i : grid2.Coords, EltTy.bits .f32 = 32 ∨ (Rect.block (s := S600000x128) S8000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8000x128.size a ≤ S600000x128.size a
  hwx2_8 : ∀ i : grid2.Coords, EltTy.bits .bf16 = 32 ∨ (Rect.block (s := S600000x128) S8000x128.size (cc2_transform_8 i) (hinb2_8 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .bf16 = 32 ∨ (Rect.block (s := S128x128) S128x128.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S600000x128.size a
  hwx4_0 : ∀ i : grid4.Coords, EltTy.bits .bf16 = 32 ∨ (Rect.block (s := S600000x128) S8000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S600000x128.size a
  hwx4_1 : ∀ i : grid4.Coords, EltTy.bits .bf16 = 32 ∨ (Rect.block (s := S600000x128) S8000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x128.size a ≤ S600000x128.size a
  hwx4_2 : ∀ i : grid4.Coords, EltTy.bits .bf16 = 32 ∨ (Rect.block (s := S600000x128) S8000x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .bf16 = 32 ∨ (Rect.block (s := S128x128) S128x128.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .bf16 = 32 ∨ (Rect.block (s := S128x128) S128x128.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8000x128.size a ≤ S600000x128.size a
  hwx4_7 : ∀ i : grid4.Coords, EltTy.bits .f32 = 32 ∨ (Rect.block (s := S600000x128) S8000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8000x128.size a ≤ S600000x128.size a
  hwx4_8 : ∀ i : grid4.Coords, EltTy.bits .bf16 = 32 ∨ (Rect.block (s := S600000x128) S8000x128.size (cc4_transform_8 i) (hinb4_8 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .bf16 = 32 ∨ (Rect.block (s := S50000x128) S2000x128.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .bf16 = 32 ∨ (Rect.block (s := S128x128) S128x128.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)

variable [Facts₀]

def dot_S50000x8_S8x128_S50000x128_1_0_0_1_n_n : DotDims S50000x8 S8x128 S50000x128 where
  lhsContracting := [1]
  rhsContracting := [0]
  lhsNonContracting := [0]
  rhsNonContracting := [1]
  lhsBatch := []
  rhsBatch := []
  wf := dot_S50000x8_S8x128_S50000x128_1_0_0_1_n_n_wf
def dot_S600000x4_S4x128_S600000x128_1_0_0_1_n_n : DotDims S600000x4 S4x128 S600000x128 where
  lhsContracting := [1]
  rhsContracting := [0]
  lhsNonContracting := [0]
  rhsNonContracting := [1]
  lhsBatch := []
  rhsBatch := []
  wf := dot_S600000x4_S4x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v16) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S8000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36_0) S8000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v36_1) S8000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36_1) S8000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v67) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v73) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v76) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v77_0) S8000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v77_1) S8000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v50) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v89) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v90) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v98) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77_1) S8000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v108) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v114) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v117) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v118_0) S8000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v118_1) S8000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v91) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v124) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v127) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v130) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x8 : Shape := ⟨2, ![50000, 8]⟩
abbrev S600000x4 : Shape := ⟨2, ![600000, 4]⟩
abbrev S600000 : Shape := ⟨1, ![600000]⟩
abbrev S8x128 : Shape := ⟨2, ![8, 128]⟩
abbrev S128 : Shape := ⟨1, ![128]⟩
abbrev S4x128 : Shape := ⟨2, ![4, 128]⟩
abbrev S3x384x128 : Shape := ⟨3, ![3, 384, 128]⟩
abbrev S3x128 : Shape := ⟨2, ![3, 128]⟩
abbrev S3x256x128 : Shape := ⟨3, ![3, 256, 128]⟩
abbrev S50000x128 : Shape := ⟨2, ![50000, 128]⟩
abbrev S1x128 : Shape := ⟨2, ![1, 128]⟩
abbrev S600000x128 : Shape := ⟨2, ![600000, 128]⟩
abbrev S_ : Shape := ⟨0, ![]⟩
abbrev S600000x1 : Shape := ⟨2, ![600000, 1]⟩
abbrev S600000x384 : Shape := ⟨2, ![600000, 384]⟩
abbrev S1x384x128 : Shape := ⟨3, ![1, 384, 128]⟩
abbrev S384x128 : Shape := ⟨2, ![384, 128]⟩
abbrev S50000x256 : Shape := ⟨2, ![50000, 256]⟩
abbrev S1x256x128 : Shape := ⟨3, ![1, 256, 128]⟩
abbrev S256x128 : Shape := ⟨2, ![256, 128]⟩

abbrev nBuf : Space → Nat
  | .hbm => 158
  | .vmem => 0
  | .smem => 0
  | _ => 0

abbrev hbmTy0_0 (i : Nat) : BufTy := match i % 128 with
  | 0 => ⟨S50000x8, .f32⟩
  | 1 => ⟨S600000x4, .f32⟩
  | 2 => ⟨S600000, .i32⟩
  | 3 => ⟨S600000, .i32⟩
  | 4 => ⟨S8x128, .f32⟩
  | 5 => ⟨S128, .f32⟩
  | 6 => ⟨S4x128, .f32⟩
  | 7 => ⟨S128, .f32⟩
  | 8 => ⟨S3x384x128, .f32⟩
  | 9 => ⟨S3x128, .f32⟩
  | 10 => ⟨S3x256x128, .f32⟩
  | 11 => ⟨S3x128, .f32⟩
  | 12 => ⟨S50000x128, .f32⟩
  | 13 => ⟨S1x128, .f32⟩
  | 14 => ⟨S50000x128, .f32⟩
  | 15 => ⟨S50000x128, .f32⟩
  | 16 => ⟨S600000x128, .f32⟩
  | 17 => ⟨S1x128, .f32⟩
  | 18 => ⟨S600000x128, .f32⟩
  | 19 => ⟨S600000x128, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000x128, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000x128, .f32⟩
  | 38 => ⟨S600000x384, .f32⟩
  | 39 => ⟨S1x384x128, .f32⟩
  | 40 => ⟨S384x128, .f32⟩
  | 41 => ⟨S600000x128, .f32⟩
  | 42 => ⟨S1x128, .f32⟩
  | 43 => ⟨S128, .f32⟩
  | 44 => ⟨S1x128, .f32⟩
  | 45 => ⟨S600000x128, .f32⟩
  | 46 => ⟨S600000x128, .f32⟩
  | 47 => ⟨S_, .f32⟩
  | 48 => ⟨S600000x128, .f32⟩
  | 49 => ⟨S600000x128, .f32⟩
  | 50 => ⟨S_, .f32⟩
  | 51 => ⟨S50000x128, .f32⟩
  | 52 => ⟨S600000x1, .i32⟩
  | 53 => ⟨S50000x128, .f32⟩
  | 54 => ⟨S50000x256, .f32⟩
  | 55 => ⟨S1x256x128, .f32⟩
  | 56 => ⟨S256x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .i32⟩
  | 67 => ⟨S600000, .i32⟩
  | 68 => ⟨S600000, .i1⟩
  | 69 => ⟨S_, .i32⟩
  | 70 => ⟨S600000, .i32⟩
  | 71 => ⟨S600000, .i32⟩
  | 72 => ⟨S600000, .i32⟩
  | 73 => ⟨S600000x1, .i32⟩
  | 74 => ⟨S600000x128, .f32⟩
  | 75 => ⟨S_, .i32⟩
  | 76 => ⟨S600000, .i32⟩
  | 77 => ⟨S600000, .i1⟩
  | 78 => ⟨S_, .i32⟩
  | 79 => ⟨S600000, .i32⟩
  | 80 => ⟨S600000, .i32⟩
  | 81 => ⟨S600000, .i32⟩
  | 82 => ⟨S600000x1, .i32⟩
  | 83 => ⟨S600000x128, .f32⟩
  | 84 => ⟨S600000x384, .f32⟩
  | 85 => ⟨S1x384x128, .f32⟩
  | 86 => ⟨S384x128, .f32⟩
  | 87 => ⟨S600000x128, .f32⟩
  | 88 => ⟨S1x128, .f32⟩
  | 89 => ⟨S128, .f32⟩
  | 90 => ⟨S1x128, .f32⟩
  | 91 => ⟨S600000x128, .f32⟩
  | 92 => ⟨S600000x128, .f32⟩
  | 93 => ⟨S_, .f32⟩
  | 94 => ⟨S600000x128, .f32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S50000x256, .f32⟩
  | 101 => ⟨S1x256x128, .f32⟩
  | 102 => ⟨S256x128, .f32⟩
  | 103 => ⟨S50000x128, .f32⟩
  | 104 => ⟨S1x128, .f32⟩
  | 105 => ⟨S128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S_, .i32⟩
  | 113 => ⟨S600000, .i32⟩
  | 114 => ⟨S600000, .i1⟩
  | 115 => ⟨S_, .i32⟩
  | 116 => ⟨S600000, .i32⟩
  | 117 => ⟨S600000, .i32⟩
  | 118 => ⟨S600000, .i32⟩
  | 119 => ⟨S600000x1, .i32⟩
  | 120 => ⟨S600000x128, .f32⟩
  | 121 => ⟨S_, .i32⟩
  | 122 => ⟨S600000, .i32⟩
  | 123 => ⟨S600000, .i1⟩
  | 124 => ⟨S_, .i32⟩
  | 125 => ⟨S600000, .i32⟩
  | 126 => ⟨S600000, .i32⟩
  | 127 => ⟨S600000, .i32⟩
  | _ => ⟨S50000x8, .f32⟩

abbrev hbmTy0_1 (i : Nat) : BufTy := match i % 128 with
  | 0 => ⟨S600000x1, .i32⟩
  | 1 => ⟨S600000x128, .f32⟩
  | 2 => ⟨S600000x384, .f32⟩
  | 3 => ⟨S1x384x128, .f32⟩
  | 4 => ⟨S384x128, .f32⟩
  | 5 => ⟨S600000x128, .f32⟩
  | 6 => ⟨S1x128, .f32⟩
  | 7 => ⟨S128, .f32⟩
  | 8 => ⟨S1x128, .f32⟩
  | 9 => ⟨S600000x128, .f32⟩
  | 10 => ⟨S600000x128, .f32⟩
  | 11 => ⟨S_, .f32⟩
  | 12 => ⟨S600000x128, .f32⟩
  | 13 => ⟨S600000x128, .f32⟩
  | 14 => ⟨S_, .f32⟩
  | 15 => ⟨S50000x128, .f32⟩
  | 16 => ⟨S600000x1, .i32⟩
  | 17 => ⟨S50000x128, .f32⟩
  | 18 => ⟨S50000x256, .f32⟩
  | 19 => ⟨S1x256x128, .f32⟩
  | 20 => ⟨S256x128, .f32⟩
  | 21 => ⟨S50000x128, .f32⟩
  | 22 => ⟨S1x128, .f32⟩
  | 23 => ⟨S128, .f32⟩
  | 24 => ⟨S1x128, .f32⟩
  | 25 => ⟨S50000x128, .f32⟩
  | 26 => ⟨S50000x128, .f32⟩
  | 27 => ⟨S_, .f32⟩
  | 28 => ⟨S50000x128, .f32⟩
  | 29 => ⟨S50000x128, .f32⟩
  | _ => ⟨S50000x8, .f32⟩

abbrev hbmTy (i : Nat) : BufTy := match i / 128 with
  | 0 => hbmTy0_0 i
  | 1 => hbmTy0_1 i
  | _ => ⟨S50000x8, .f32⟩

abbrev bufTy : (tb : Table) → Fin (tcTables nBuf tb) → BufTy
  | .hbm, ⟨i, _⟩ => hbmTy i
  | _, _ => ⟨S50000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_cst : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_cst : Ref sig .tc := ⟨.hbm, 63, rfl⟩
abbrev main_call1_v0 : Ref sig .tc := ⟨.hbm, 64, rfl⟩
abbrev main_v44 : Ref sig .tc := ⟨.hbm, 65, rfl⟩
abbrev main_c_3 : Ref sig .tc := ⟨.hbm, 66, rfl⟩
abbrev main_v45 : Ref sig .tc := ⟨.hbm, 67, rfl⟩
abbrev main_v46 : Ref sig .tc := ⟨.hbm, 68, rfl⟩
abbrev main_c_4 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_5 : Ref sig .tc := ⟨.hbm, 75, rfl⟩
abbrev main_v52 : Ref sig .tc := ⟨.hbm, 76, rfl⟩
abbrev main_v53 : Ref sig .tc := ⟨.hbm, 77, rfl⟩
abbrev main_c_6 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call2_cst : Ref sig .tc := ⟨.hbm, 93, rfl⟩
abbrev main_call2_v0 : Ref sig .tc := ⟨.hbm, 94, rfl⟩
abbrev main_v68 : Ref sig .tc := ⟨.hbm, 95, rfl⟩
abbrev main_cst_7 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_call3_cst : Ref sig .tc := ⟨.hbm, 109, rfl⟩
abbrev main_call3_v0 : Ref sig .tc := ⟨.hbm, 110, rfl⟩
abbrev main_v81 : Ref sig .tc := ⟨.hbm, 111, rfl⟩
abbrev main_c_8 : Ref sig .tc := ⟨.hbm, 112, rfl⟩
abbrev main_v82 : Ref sig .tc := ⟨.hbm, 113, rfl⟩
abbrev main_v83 : Ref sig .tc := ⟨.hbm, 114, rfl⟩
abbrev main_c_9 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_c_10 : Ref sig .tc := ⟨.hbm, 121, rfl⟩
abbrev main_v89 : Ref sig .tc := ⟨.hbm, 122, rfl⟩
abbrev main_v90 : Ref sig .tc := ⟨.hbm, 123, rfl⟩
abbrev main_c_11 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_call4_cst : Ref sig .tc := ⟨.hbm, 139, rfl⟩
abbrev main_call4_v0 : Ref sig .tc := ⟨.hbm, 140, rfl⟩
abbrev main_v105 : Ref sig .tc := ⟨.hbm, 141, rfl⟩
abbrev main_cst_12 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_call5_cst : Ref sig .tc := ⟨.hbm, 155, rfl⟩
abbrev main_call5_v0 : Ref sig .tc := ⟨.hbm, 156, rfl⟩
abbrev main_v118 : Ref sig .tc := ⟨.hbm, 157, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x128_S600000x384_d1 : Shape.Concatenates [S600000x128, S600000x128, S600000x128] S600000x384 1
  slices_S3x384x128_S1x384x128_0_0_0 : S3x384x128.Slices ![0, 0, 0] S1x384x128
  shapeCasts_S1x384x128_S384x128 : S1x384x128.ShapeCasts S384x128
  slices_S3x128_S1x128_0_0 : S3x128.Slices ![0, 0] S1x128
  shapeCasts_S1x128_S128 : S1x128.ShapeCasts S128
  bcast_S_S600000x128 : S_.BroadcastsInDim S600000x128 (![] : Fin 0 → Fin S600000x128.rank)
  bcast_S_S50000x128 : S_.BroadcastsInDim S50000x128 (![] : Fin 0 → Fin S50000x128.rank)
  concatenates_S50000x128_S50000x128_S50000x256_d1 : Shape.Concatenates [S50000x128, S50000x128] S50000x256 1
  slices_S3x256x128_S1x256x128_0_0_0 : S3x256x128.Slices ![0, 0, 0] S1x256x128
  shapeCasts_S1x256x128_S256x128 : S1x256x128.ShapeCasts S256x128
  slices_S3x384x128_S1x384x128_1_0_0 : S3x384x128.Slices ![1, 0, 0] S1x384x128
  slices_S3x128_S1x128_1_0 : S3x128.Slices ![1, 0] S1x128
  slices_S3x256x128_S1x256x128_1_0_0 : S3x256x128.Slices ![1, 0, 0] S1x256x128
  slices_S3x384x128_S1x384x128_2_0_0 : S3x384x128.Slices ![2, 0, 0] S1x384x128
  slices_S3x128_S1x128_2_0 : S3x128.Slices ![2, 0] S1x128
  slices_S3x256x128_S1x256x128_2_0_0 : S3x256x128.Slices ![2, 0, 0] S1x256x128
  dot_S50000x8_S8x128_S50000x128_1_0_0_1_n_n_wf : DotDims.WF S50000x8 S8x128 S50000x128 [1] [0] [0] [1] [] []
  dot_S600000x4_S4x128_S600000x128_1_0_0_1_n_n_wf : DotDims.WF S600000x4 S4x128 S600000x128 [1] [0] [0] [1] [] []
  gather_S50000x128_S600000x1_S600000x128_1_0_n_n_0_1_1128_wf : GatherDims.WF S50000x128 S600000x1 S600000x128 [1] [0] [] [0] [] 1 ![1, 128]
  dot_S600000x384_S384x128_S600000x128_1_0_0_1_n_n_wf : DotDims.WF S600000x384 S384x128 S600000x128 [1] [0] [0] [1] [] []
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []

variable [Facts₀]

def dot_S50000x8_S8x128_S50000x128_1_0_0_1_n_n : DotDims S50000x8 S8x128 S50000x128 where
  lhsContracting := [1]
  rhsContracting := [0]
  lhsNonContracting := [0]
  rhsNonContracting := [1]
  lhsBatch := []
  rhsBatch := []
  wf := dot_S50000x8_S8x128_S50000x128_1_0_0_1_n_n_wf
def dot_S600000x4_S4x128_S600000x128_1_0_0_1_n_n : DotDims S600000x4 S4x128 S600000x128 where
  lhsContracting := [1]
  rhsContracting := [0]
  lhsNonContracting := [0]
  rhsNonContracting := [1]
  lhsBatch := []
  rhsBatch := []
  wf := dot_S600000x4_S4x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefRun.lean ====
/-
  The run of the reference network, read back stage by stage.

  The program is a straight line of 146 operations. It is cut into thirteen consecutive part lists: the two
  encoders (E), and for each of the three layers the two gathers of the node states at the sources and at the
  destinations (G), the edge update (M), the sum of the messages at the destinations (S) and the node update (P).
  The contents after a concatenation of lists are the contents after the second list from the contents after the
  first, so the whole line is read one part at a time.

  Each part reads few buffers written before it: G reads the node states; M the two gathered arrays and the edge
  states; S the new edge states; P the node states and the summed messages; every part may read the arguments. For
  each part and each buffer a later part reads, one lemma says: from contents that hold the arguments and, at the
  buffers the part reads, the stage functions of the arguments, the part leaves that buffer at its stage function of
  the arguments. A part's composed term is the nest of the stage definitions of exactly its own operations, so the
  two sides agree once those definitions are opened and the stages read are taken as arbitrary arrays. A part is cut
  where an array is joined from several, so that the joined arrays are whole buffers of the contents the part starts
  from. A buffer that a later part reads again, and every argument, is written by no part in between, and keeps its
  contents through them.
-/
import proofs.«122216_j7713761264053_2_alg».proof.Proof.RefStages
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The contents after two lists of operations run in order are the second list's after the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A property of every element of two lists holds of every element of their concatenation. -/
theorem forall_mem_append {α : Type} {p : α → Prop} {l₁ l₂ : List α} (h₁ : ∀ a ∈ l₁, p a) (h₂ : ∀ a ∈ l₂, p a) :
    ∀ a ∈ l₁ ++ l₂, p a :=
  fun a h => (List.mem_append.1 h).elim (h₁ a) (h₂ a)

/-- An operation that writes the one buffer y, listed in W, writes only buffers of W. -/
theorem writes_sub_of_mem {Val : EltTy → Type} {W : List (Ref sig .tc)} {op : HloOp τ sig Val} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- An operation of three operands leaves at its result buffer its function of the three operands' contents, each
    read at its own buffer. -/
theorem nary3_result' {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- One pass over a list of operations: each operation's result at its own buffer is its function of its operands'
    contents, and at any other buffer what was there. -/
macro "chunk_simp" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))
/-- The two encoders: the node states (main_v3) and the edge states (main_v7). -/
abbrev opsE : List (HloOp τ sig (Elt F)) :=
  [ binary main_arg0 main_arg4 main_v0 ((fun l r => Host.dotGeneral dot_S50000x8_S8x128_S50000x128_1_0_0_1_n_n none l r) : (⟨S50000x8, .f32⟩ : BufTy).Contents (Elt F) → (⟨S8x128, .f32⟩ : BufTy).Contents (Elt F) → (⟨S50000x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S50000x128 ![0, 1] bcast_S1x128_S50000x128_0_1 : (⟨S1x128, .f32⟩ : BufTy).Contents (Elt F) → (⟨S50000x128, .f32⟩ : BufTy).Contents (Elt F)),
    binary main_v0 main_v2 main_v3 (addf : (⟨S50000x128, .f32⟩ : BufTy).Contents (Elt F) → (⟨S50000x128, .f32⟩ : BufTy).Contents (Elt F) → (⟨S50000x128, .f32⟩ : BufTy).Contents (Elt F)),
    binary main_arg1 main_arg6 main_v4 ((fun l r => Host.dotGeneral dot_S600000x4_S4x128_S600000x128_1_0_0_1_n_n none l r) : (⟨S600000x4, .f32⟩ : BufTy).Contents (Elt F) → (⟨S4x128, .f32⟩ : BufTy).Contents (Elt F) → (⟨S600000x128, .f32⟩ : BufTy).Contents (Elt F)),
    unary main_arg7 main_v5 (broadcastInDim S1x128 ![1] bcast_S128_S1x128_1 : (⟨S128, .f32⟩ : BufTy).Contents (Elt F) → (⟨S1x128, .f32⟩ : BufTy).Contents (Elt F)),
    unary main_v5 main_v6 (broadcastInDim S600000x128 ![0, 1] bcast_S1x128_S600000x128_0_1 : (⟨S1x128, .f32⟩ : BufTy).Contents (Elt F) → (⟨S600000x128, .f32⟩ : BufTy).Contents (Elt F)),
    binary main_v4 main_v6 main_v7 (addf : (⟨S600000x128, .f32⟩ : BufTy).Contents (Elt F) → (⟨S600000x128, .f32⟩ : BufTy).Contents (Elt F) → (⟨S600000x128, .f32⟩ : BufTy).Contents (Elt F)) ]

/-- The buffers these operations write. -/
abbrev wE : List (Ref sig .tc) := [main_v0, main_v1, main_v2, main_v3, main_v4, main_v5, main_v6, main_v7]

/-- They touch buffers of the one core only. -/
theorem subE : (opsE : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub ..⟩

/-- Each determines its results. -/
theorem freshE : (opsE : List (HloOp τ sig (Elt F))).Forall fun op => op.fresh = ∅ :=
  ⟨rfl, rfl, rfl, rfl, rfl, rfl, rfl, rfl⟩

/-- Each writes one of the listed buffers. -/
theorem writesE : (opsE : List (HloOp τ sig (Elt F))).Forall fun op =>
    op.writes ⊆ (wE.map (Proc.devRef (τ := τ) .tc)).toFinset :=
  ⟨writes_sub_of_mem main_v0 rfl (by decide),
   writes_sub_of_mem main_v1 rfl (by decide),
   writes_sub_of_mem main_v2 rfl (by decide),
   writes_sub_of_mem main_v3 rfl (by decide),
   writes_sub_of_mem main_v4 rfl (by decide),
   writes_sub_of_mem main_v5 rfl (by decide),
   writes_sub_of_mem main_v6 rfl (by decide),
   writes_sub_of_mem main_v7 rfl (by decide)⟩

/-- Layer 0: the node states gathered at the sources and at the destinations. -/
abbrev opsG0 : List (HloOp τ sig (Elt F)) :=
  [ nullary main_c (constantI S_ 32 0#32),
    unary main_c main_v8 (broadcastInDim S600000 ![] bcast_S_S600000 : (⟨S_, .i32⟩ : BufTy).Contents (Elt F) → (⟨S600000, .i32⟩ : BufTy).Contents (Elt F)),
    binary main_arg2 main_v8 main_v9 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v10 (broadcastInDim S600000 ![] bcast_S_S600000 : (⟨S_, .i32⟩ : BufTy).Contents (Elt F) → (⟨S600000, .i32⟩ : BufTy).Contents (Elt F)),
    binary main_arg2 main_v10 main_v11 (addi : (⟨S600000, .i32⟩ : BufTy).Contents (Elt F) → (⟨S600000, .i32⟩ : BufTy).Contents (Elt F) → (⟨S600000, .i32⟩ : BufTy).Contents (Elt F)),
    ternary main_v9 main_v11 main_arg2 main_v12 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v12 main_v13 (broadcastInDim S600000x1 ![0] bcast_S600000_S600000x1_0 : (⟨S600000, .i32⟩ : BufTy).Contents (Elt F) → (⟨S600000x1, .i32⟩ : BufTy).Contents (Elt F)),
    binary main_v3 main_v13 main_v14 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_1 (constantI S_ 32 0#32),
    unary main_c_1 main_v15 (broadcastInDim S600000 ![] bcast_S_S600000 : (⟨S_, .i32⟩ : BufTy).Contents (Elt F) → (⟨S600000, .i32⟩ : BufTy).Contents (Elt F)),
    binary main_arg3 main_v15 main_v16 (cmpi .slt : (⟨S600000, .i32⟩ : BufTy).Contents (Elt F) → (⟨S600000, .i32⟩ : BufTy).Contents (Elt F) → (⟨S600000, .i1⟩ : BufTy).Contents (Elt F)),
    nullary main_c_2 (constantI S_ 32 50000#32),
    unary main_c_2 main_v17 (broadcastInDim S600000 ![] bcast_S_S600000 : (⟨S_, .i32⟩ : BufTy).Contents (Elt F) → (⟨S600000, .i32⟩ : BufTy).Contents (Elt F)),
    binary main_arg3 main_v17 main_v18 (addi : (⟨S600000, .i32⟩ : BufTy).Contents (Elt F) → (⟨S600000, .i32⟩ : BufTy).Contents (Elt F) → (⟨S600000, .i32⟩ : BufTy).Contents (Elt F)),
    ternary main_v16 main_v18 main_arg3 main_v19 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v19 main_v20 (broadcastInDim S600000x1 ![0] bcast_S600000_S600000x1_0 : (⟨S600000, .i32⟩ : BufTy).Contents (Elt F) → (⟨S600000x1, .i32⟩ : BufTy).Contents (Elt F)),
    binary main_v3 main_v20 main_v21 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The buffers these operations write. -/
abbrev wG0 : List (Ref sig .tc) := [main_c, main_v8, main_v9, main_c_0, main_v10, main_v11, main_v12, main_v13, main_v14, main_c_1, main_v15, main_v16, main_c_2, main_v17, main_v18, main_v19, main_v20, main_v21]

/-- They touch buffers of the one core only. -/
theorem subG0 : (opsG0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Each determines its results. -/
theorem freshG0 : (opsG0 : List (HloOp τ sig (Elt F))).Forall fun op => op.fresh = ∅ :=
  ⟨rfl, rfl, rfl, rfl, rfl, rfl, rfl, rfl, rfl, rfl, rfl, rfl, rfl, rfl, rfl, rfl, rfl, rfl⟩

/-- Each writes one of the listed buffers. -/
theorem writesG0 : (opsG0 : List (HloOp τ sig (Elt F))).Forall fun op =>
    op.writes ⊆ (wG0.map (Proc.devRef (τ := τ) .tc)).toFinset :=
  ⟨writes_sub_of_mem main_c rfl (by decide),
   writes_sub_of_mem main_v8 rfl (by decide),
   writes_sub_of_mem main_v9 rfl (by decide),
   writes_sub_of_mem main_c_0 rfl (by decide),
   writes_sub_of_mem main_v10 rfl (by decide),
   writes_sub_of_mem main_v11 rfl (by decide),
   writes_sub_of_mem main_v12 rfl (by decide),
   writes_sub_of_mem main_v13 rfl (by decide),
   writes_sub_of_mem main_v14 rfl (by decide),
   writes_sub_of_mem main_c_1 rfl (by decide),
   writes_sub_of_mem main_v15 rfl (by decide),
   writes_sub_of_mem main_v16 rfl (by decide),
   writes_sub_of_mem main_c_2 rfl (by decide),
   writes_sub_of_mem main_v17 rfl (by decide),
   writes_sub_of_mem main_v18 rfl (by decide),
   writes_sub_of_mem main_v19 rfl (by decide),
   writes_sub_of_mem main_v20 rfl (by decide),
   writes_sub_of_mem main_v21 rfl (by decide)⟩

/-- Layer 0: the edge update (the joined array, the product, the bias, the rectifier). -/
abbrev opsM0 : List (HloOp τ sig (Elt F)) :=
  [ nary ![main_v14, main_v21, main_v7] main_v22 (fun u => concatenate S600000x384 1 [⟨S600000x128, u 0⟩, ⟨S600000x128, u 1⟩, ⟨S600000x128, u 2⟩] concatenates_S600000x128_S600000x128_S600000x128_S600000x384_d1),
    unary main_arg8 main_v23 ((extractStridedSlice S1x384x128 ![0, 0, 0] · slices_S3x384x128_S1x384x128_0_0_0) : (⟨S3x384x128, .f32⟩ : BufTy).Contents (Elt F) → (⟨S1x384x128, .f32⟩ : BufTy).Contents (Elt F)),
    reshape main_v23 main_v24 rfl shapeCasts_S1x384x128_S384x128,
    binary main_v22 main_v24 main_v25 ((fun l r => Host.dotGeneral dot_S600000x384_S384x128_S600000x128_1_0_0_1_n_n none l r) : (⟨S600000x384, .f32⟩ : BufTy).Contents (Elt F) → (⟨S384x128, .f32⟩ : BufTy).Contents (Elt F) → (⟨S600000x128, .f32⟩ : BufTy).Contents (Elt F)),
    unary main_arg9 main_v26 ((extractStridedSlice S1x128 ![0, 0] · slices_S3x128_S1x128_0_0) : (⟨S3x128, .f32⟩ : BufTy).Contents (Elt F) → (⟨S1x128, .f32⟩ : BufTy).Contents (Elt F)),
    reshape main_v26 main_v27 rfl shapeCasts_S1x128_S128,
    unary main_v27 main_v28 (broadcastInDim S1x128 ![1] bcast_S128_S1x128_1 : (⟨S128, .f32⟩ : BufTy).Contents (Elt F) → (⟨S1x128, .f32⟩ : BufTy).Contents (Elt F)),
    unary main_v28 main_v29 (broadcastInDim S600000x128 ![0, 1] bcast_S1x128_S600000x128_0_1 : (⟨S1x128, .f32⟩ : BufTy).Contents (Elt F) → (⟨S600000x128, .f32⟩ : BufTy).Contents (Elt F)),
    binary main_v25 main_v29 main_v30 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S600000x128, .f32⟩) main_call0_v0) (broadcastInDim S600000x128 ![] bcast_S_S600000x128),
    TRef.binary (TRef.of (T := ⟨S600000x128, .f32⟩) main_v30) (TRef.of (T := ⟨S600000x128, .f32⟩) main_call0_v0) (TRef.of (T := ⟨S600000x128, .f32⟩) main_v31) maximumf ]

/-- The buffers these operations write. -/
abbrev wM0 : List (Ref sig .tc) := [main_v22, main_v23, main_v24, main_v25, main_v26, main_v27, main_v28, main_v29, main_v30, main_call0_cst, main_call0_v0, main_v31]

/-- They touch buffers of the one core only. -/
theorem subM0 : (opsM0 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Each determines its results. -/
theorem freshM0 : (opsM0 : List (HloOp τ sig (Elt F))).Forall fun op => op.fresh = ∅ :=
  ⟨rfl, rfl, rfl, rfl, rfl, rfl, rfl, rfl, rfl, rfl, rfl, rfl⟩

/-- Each writes one of the listed buffers. -/
theorem writesM0 : (opsM0 : List (HloOp τ sig (Elt F))).Forall fun op =>
    op.writes ⊆ (wM0.map (Proc.devRef (τ := τ) .tc)).toFinset :=
  ⟨writes_sub_of_mem main_v22 rfl (by decide),
   writes_sub_of_mem main_v23 rfl (by decide),
   writes_sub_of_mem main_v24 rfl (by decide),
   writes_sub_of_mem main_v25 rfl (by decide),
   writes_sub_of_mem main_v26 rfl (by decide),
   writes_sub_of_mem main_v27 rfl (by decide),
   writes_sub_of_mem main_v28 rfl (by decide),
   writes_sub_of_mem main_v29 rfl (by decide),
   writes_sub_of_mem main_v30 rfl (by decide),
   writes_sub_of_mem main_call0_cst rfl (by decide),
   writes_sub_of_mem main_call0_v0 rfl (by decide),
   writes_sub_of_mem main_v31 rfl (by decide)⟩

/-- Layer 0: the messages summed at the destinations. -/
abbrev opsS0 : List (HloOp τ sig (Elt F)) :=
  [ nullary main_cst (constant S_ .f32 0x00000000#32),
    unary main_cst main_v32 (broadcastInDim S50000x128 ![] bcast_S_S50000x128 : (⟨S_, .f32⟩ : BufTy).Contents (Elt F) → (⟨S50000x128, .f32⟩ : BufTy).Contents (Elt F)),
    unary main_arg3 main_v33 (broadcastInDim S600000x1 ![0] bcast_S600000_S600000x1_0 : (⟨S600000, .i32⟩ : BufTy).Contents (Elt F) → (⟨S600000x1, .i32⟩ : BufTy).Contents (Elt F)),
    ternary main_v32 main_v33 main_v31 main_v34 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The buffers these operations write. -/
abbrev wS0 : List (Ref sig .tc) := [main_cst, main_v32, main_v33, main_v34]

/-- They touch buffers of the one core only. -/
theorem subS0 : (opsS0 : List (HloOp τ sig (Elt F))).Forall fun op => op.bufs ⊆ tcRefs τ sig :=
  ⟨nullary_bufs_sub .., unary_bufs_sub .., unary_bufs_sub .., ternary_bufs_sub ..⟩

/-- Each determines its results. -/
theorem freshS0 : (opsS0 : List (HloOp τ sig (Elt F))).Forall fun op => op.fresh = ∅ :=
  ⟨rfl, rfl, rfl, rfl⟩

/-- Each writes one of the listed buffers. -/
theorem writesS0 : (opsS0 : List (HloOp τ sig (Elt F))).Forall fun op =>
    op.writes ⊆ (wS0.map (Proc.devRef (τ := τ) .tc)).toFinset :=
  ⟨writes_sub_of_mem main_cst rfl (by decide),
   writes_sub_of_mem main_v32 rfl (by decide),
   writes_sub_of_mem main_v33 rfl (by decide),
   writes_sub_of_mem main_v34 rfl (by decide)⟩

/-- Layer 0: the node update (the joined array, the product, the bias, the rectifier). -/
abbrev opsP0 : List (HloOp τ sig (Elt F)) :=
  [ binary main_v3 main_v34 main_v35 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg10 main_v36 ((extractStridedSlice S1x256x128 ![0, 0, 0] · slices_S3x256x128_S1x256x128_0_0_0) : (⟨S3x256x128, .f32⟩ : BufTy).Contents (Elt F) → (⟨S1x256x128, .f32⟩ : BufTy).Contents (Elt F)),
    reshape main_v36 main_v37 rfl shapeCasts_S1x256x128_S256x128,
    binary main_v35 main_v37 main_v38 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_v40 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v38 main_v42 main_v43 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v43) (TRef.of (T := ⟨S50000x128, .f32⟩) main_call1_v0) (TRef.of (T := ⟨S50000x128, .f32⟩) main_v44) maximumf ]

/-- The buffers these operations write. -/
abbrev wP0 : List (Ref sig .tc) := [main_v35, main_v36, main_v37, main_v38, main_v39, main_v40, main_v41, main_v42, main_v43, main_call1_cst, main_call1_v0, main_v44]

/-- They touch buffers of the one core only. -/
theorem subP0 : (opsP0 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Each determines its results. -/
theorem freshP0 : (opsP0 : List (HloOp τ sig (Elt F))).Forall fun op => op.fresh = ∅ :=
  ⟨rfl, rfl, rfl, rfl, rfl, rfl, rfl, rfl, rfl, rfl, rfl, rfl⟩

/-- Each writes one of the listed buffers. -/
theorem writesP0 : (opsP0 : List (HloOp τ sig (Elt F))).Forall fun op =>
    op.writes ⊆ (wP0.map (Proc.devRef (τ := τ) .tc)).toFinset :=
  ⟨writes_sub_of_mem main_v35 rfl (by decide),
   writes_sub_of_mem main_v36 rfl (by decide),
   writes_sub_of_mem main_v37 rfl (by decide),
   writes_sub_of_mem main_v38 rfl (by decide),
   writes_sub_of_mem main_v39 rfl (by decide),
   writes_sub_of_mem main_v40 rfl (by decide),
   writes_sub_of_mem main_v41 rfl (by decide),
   writes_sub_of_mem main_v42 rfl (by decide),
   writes_sub_of_mem main_v43 rfl (by decide),
   writes_sub_of_mem main_call1_cst rfl (by decide),
   writes_sub_of_mem main_call1_v0 rfl (by decide),
   writes_sub_of_mem main_v44 rfl (by decide)⟩

/-- Layer 1: the node states gathered at the sources and at the destinations. -/
abbrev opsG1 : List (HloOp τ sig (Elt F)) :=
  [ nullary main_c_3 (constantI S_ 32 0#32),
    unary main_c_3 main_v45 (broadcastInDim S600000 ![] bcast_S_S600000 : (⟨S_, .i32⟩ : BufTy).Contents (Elt F) → (⟨S600000, .i32⟩ : BufTy).Contents (Elt F)),
    binary main_arg2 main_v45 main_v46 (cmpi .slt : (⟨S600000, .i32⟩ : BufTy).Contents (Elt F) → (⟨S600000, .i32⟩ : BufTy).Contents (Elt F) → (⟨S600000, .i1⟩ : BufTy).Contents (Elt F)),
    nullary main_c_4 (constantI S_ 32 50000#32),
    unary main_c_4 main_v47 (broadcastInDim S600000 ![] bcast_S_S600000 : (⟨S_, .i32⟩ : BufTy).Contents (Elt F) → (⟨S600000, .i32⟩ : BufTy).Contents (Elt F)),
    binary main_arg2 main_v47 main_v48 (addi : (⟨S600000, .i32⟩ : BufTy).Contents (Elt F) → (⟨S600000, .i32⟩ : BufTy).Contents (Elt F) → (⟨S600000, .i32⟩ : BufTy).Contents (Elt F)),
    ternary main_v46 main_v48 main_arg2 main_v49 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v49 main_v50 (broadcastInDim S600000x1 ![0] bcast_S600000_S600000x1_0 : (⟨S600000, .i32⟩ : BufTy).Contents (Elt F) → (⟨S600000x1, .i32⟩ : BufTy).Contents (Elt F)),
    binary main_v44 main_v50 main_v51 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_5 (constantI S_ 32 0#32),
    unary main_c_5 main_v52 (broadcastInDim S600000 ![] bcast_S_S600000 : (⟨S_, .i32⟩ : BufTy).Contents (Elt F) → (⟨S600000, .i32⟩ : BufTy).Contents (Elt F)),
    binary main_arg3 main_v52 main_v53 (cmpi .slt : (⟨S600000, .i32⟩ : BufTy).Contents (Elt F) → (⟨S600000, .i32⟩ : BufTy).Contents (Elt F) → (⟨S600000, .i1⟩ : BufTy).Contents (Elt F)),
    nullary main_c_6 (constantI S_ 32 50000#32),
    unary main_c_6 main_v54 (broadcastInDim S600000 ![] bcast_S_S600000 : (⟨S_, .i32⟩ : BufTy).Contents (Elt F) → (⟨S600000, .i32⟩ : BufTy).Contents (Elt F)),
    binary main_arg3 main_v54 main_v55 (addi : (⟨S600000, .i32⟩ : BufTy).Contents (Elt F) → (⟨S600000, .i32⟩ : BufTy).Contents (Elt F) → (⟨S600000, .i32⟩ : BufTy).Contents (Elt F)),
    ternary main_v53 main_v55 main_arg3 main_v56 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v56 main_v57 (broadcastInDim S600000x1 ![0] bcast_S600000_S600000x1_0 : (⟨S600000, .i32⟩ : BufTy).Contents (Elt F) → (⟨S600000x1, .i32⟩ : BufTy).Contents (Elt F)),
    binary main_v44 main_v57 main_v58 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The buffers these operations write. -/
abbrev wG1 : List (Ref sig .tc) := [main_c_3, main_v45, main_v46, main_c_4, main_v47, main_v48, main_v49, main_v50, main_v51, main_c_5, main_v52, main_v53, main_c_6, main_v54, main_v55, main_v56, main_v57, main_v58]

/-- They touch buffers of the one core only. -/
theorem subG1 : (opsG1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Each determines its results. -/
theorem freshG1 : (opsG1 : List (HloOp τ sig (Elt F))).Forall fun op => op.fresh = ∅ :=
  ⟨rfl, rfl, rfl, rfl, rfl, rfl, rfl, rfl, rfl, rfl, rfl, rfl, rfl, rfl, rfl, rfl, rfl, rfl⟩

/-- Each writes one of the listed buffers. -/
theorem writesG1 : (opsG1 : List (HloOp τ sig (Elt F))).Forall fun op =>
    op.writes ⊆ (wG1.map (Proc.devRef (τ := τ) .tc)).toFinset :=
  ⟨writes_sub_of_mem main_c_3 rfl (by decide),
   writes_sub_of_mem main_v45 rfl (by decide),
   writes_sub_of_mem main_v46 rfl (by decide),
   writes_sub_of_mem main_c_4 rfl (by decide),
   writes_sub_of_mem main_v47 rfl (by decide),
   writes_sub_of_mem main_v48 rfl (by decide),
   writes_sub_of_mem main_v49 rfl (by decide),
   writes_sub_of_mem main_v50 rfl (by decide),
   writes_sub_of_mem main_v51 rfl (by decide),
   writes_sub_of_mem main_c_5 rfl (by decide),
   writes_sub_of_mem main_v52 rfl (by decide),
   writes_sub_of_mem main_v53 rfl (by decide),
   writes_sub_of_mem main_c_6 rfl (by decide),
   writes_sub_of_mem main_v54 rfl (by decide),
   writes_sub_of_mem main_v55 rfl (by decide),
   writes_sub_of_mem main_v56 rfl (by decide),
   writes_sub_of_mem main_v57 rfl (by decide),
   writes_sub_of_mem main_v58 rfl (by decide)⟩

/-- Layer 1: the edge update (the joined array, the product, the bias, the rectifier). -/
abbrev opsM1 : List (HloOp τ sig (Elt F)) :=
  [ nary ![main_v51, main_v58, main_v31] main_v59 (fun u => concatenate S600000x384 1 [⟨S600000x128, u 0⟩, ⟨S600000x128, u 1⟩, ⟨S600000x128, u 2⟩] concatenates_S600000x128_S600000x128_S600000x128_S600000x384_d1),
    unary main_arg8 main_v60 ((extractStridedSlice S1x384x128 ![1, 0, 0] · slices_S3x384x128_S1x384x128_1_0_0) : (⟨S3x384x128, .f32⟩ : BufTy).Contents (Elt F) → (⟨S1x384x128, .f32⟩ : BufTy).Contents (Elt F)),
    reshape main_v60 main_v61 rfl shapeCasts_S1x384x128_S384x128,
    binary main_v59 main_v61 main_v62 ((fun l r => Host.dotGeneral dot_S600000x384_S384x128_S600000x128_1_0_0_1_n_n none l r) : (⟨S600000x384, .f32⟩ : BufTy).Contents (Elt F) → (⟨S384x128, .f32⟩ : BufTy).Contents (Elt F) → (⟨S600000x128, .f32⟩ : BufTy).Contents (Elt F)),
    unary main_arg9 main_v63 ((extractStridedSlice S1x128 ![1, 0] · slices_S3x128_S1x128_1_0) : (⟨S3x128, .f32⟩ : BufTy).Contents (Elt F) → (⟨S1x128, .f32⟩ : BufTy).Contents (Elt F)),
    reshape main_v63 main_v64 rfl shapeCasts_S1x128_S128,
    unary main_v64 main_v65 (broadcastInDim S1x128 ![1] bcast_S128_S1x128_1 : (⟨S128, .f32⟩ : BufTy).Contents (Elt F) → (⟨S1x128, .f32⟩ : BufTy).Contents (Elt F)),
    unary main_v65 main_v66 (broadcastInDim S600000x128 ![0, 1] bcast_S1x128_S600000x128_0_1 : (⟨S1x128, .f32⟩ : BufTy).Contents (Elt F) → (⟨S600000x128, .f32⟩ : BufTy).Contents (Elt F)),
    binary main_v62 main_v66 main_v67 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S600000x128, .f32⟩) main_call2_v0) (broadcastInDim S600000x128 ![] bcast_S_S600000x128),
    TRef.binary (TRef.of (T := ⟨S600000x128, .f32⟩) main_v67) (TRef.of (T := ⟨S600000x128, .f32⟩) main_call2_v0) (TRef.of (T := ⟨S600000x128, .f32⟩) main_v68) maximumf ]

/-- The buffers these operations write. -/
abbrev wM1 : List (Ref sig .tc) := [main_v59, main_v60, main_v61, main_v62, main_v63, main_v64, main_v65, main_v66, main_v67, main_call2_cst, main_call2_v0, main_v68]

/-- They touch buffers of the one core only. -/
theorem subM1 : (opsM1 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Each determines its results. -/
theorem freshM1 : (opsM1 : List (HloOp τ sig (Elt F))).Forall fun op => op.fresh = ∅ :=
  ⟨rfl, rfl, rfl, rfl, rfl, rfl, rfl, rfl, rfl, rfl, rfl, rfl⟩

/-- Each writes one of the listed buffers. -/
theorem writesM1 : (opsM1 : List (HloOp τ sig (Elt F))).Forall fun op =>
    op.writes ⊆ (wM1.map (Proc.devRef (τ := τ) .tc)).toFinset :=
  ⟨writes_sub_of_mem main_v59 rfl (by decide),
   writes_sub_of_mem main_v60 rfl (by decide),
   writes_sub_of_mem main_v61 rfl (by decide),
   writes_sub_of_mem main_v62 rfl (by decide),
   writes_sub_of_mem main_v63 rfl (by decide),
   writes_sub_of_mem main_v64 rfl (by decide),
   writes_sub_of_mem main_v65 rfl (by decide),
   writes_sub_of_mem main_v66 rfl (by decide),
   writes_sub_of_mem main_v67 rfl (by decide),
   writes_sub_of_mem main_call2_cst rfl (by decide),
   writes_sub_of_mem main_call2_v0 rfl (by decide),
   writes_sub_of_mem main_v68 rfl (by decide)⟩

/-- Layer 1: the messages summed at the destinations. -/
abbrev opsS1 : List (HloOp τ sig (Elt F)) :=
  [ nullary main_cst_7 (constant S_ .f32 0x00000000#32),
    unary main_cst_7 main_v69 (broadcastInDim S50000x128 ![] bcast_S_S50000x128 : (⟨S_, .f32⟩ : BufTy).Contents (Elt F) → (⟨S50000x128, .f32⟩ : BufTy).Contents (Elt F)),
    unary main_arg3 main_v70 (broadcastInDim S600000x1 ![0] bcast_S600000_S600000x1_0 : (⟨S600000, .i32⟩ : BufTy).Contents (Elt F) → (⟨S600000x1, .i32⟩ : BufTy).Contents (Elt F)),
    ternary main_v69 main_v70 main_v68 main_v71 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The buffers these operations write. -/
abbrev wS1 : List (Ref sig .tc) := [main_cst_7, main_v69, main_v70, main_v71]

/-- They touch buffers of the one core only. -/
theorem subS1 : (opsS1 : List (HloOp τ sig (Elt F))).Forall fun op => op.bufs ⊆ tcRefs τ sig :=
  ⟨nullary_bufs_sub .., unary_bufs_sub .., unary_bufs_sub .., ternary_bufs_sub ..⟩

/-- Each determines its results. -/
theorem freshS1 : (opsS1 : List (HloOp τ sig (Elt F))).Forall fun op => op.fresh = ∅ :=
  ⟨rfl, rfl, rfl, rfl⟩

/-- Each writes one of the listed buffers. -/
theorem writesS1 : (opsS1 : List (HloOp τ sig (Elt F))).Forall fun op =>
    op.writes ⊆ (wS1.map (Proc.devRef (τ := τ) .tc)).toFinset :=
  ⟨writes_sub_of_mem main_cst_7 rfl (by decide),
   writes_sub_of_mem main_v69 rfl (by decide),
   writes_sub_of_mem main_v70 rfl (by decide),
   writes_sub_of_mem main_v71 rfl (by decide)⟩

/-- Layer 1: the node update (the joined array, the product, the bias, the rectifier). -/
abbrev opsP1 : List (HloOp τ sig (Elt F)) :=
  [ binary main_v44 main_v71 main_v72 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg10 main_v73 ((extractStridedSlice S1x256x128 ![1, 0, 0] · slices_S3x256x128_S1x256x128_1_0_0) : (⟨S3x256x128, .f32⟩ : BufTy).Contents (Elt F) → (⟨S1x256x128, .f32⟩ : BufTy).Contents (Elt F)),
    reshape main_v73 main_v74 rfl shapeCasts_S1x256x128_S256x128,
    binary main_v72 main_v74 main_v75 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v76 ((extractStridedSlice S1x128 ![1, 0] · slices_S3x128_S1x128_1_0) : (⟨S3x128, .f32⟩ : BufTy).Contents (Elt F) → (⟨S1x128, .f32⟩ : BufTy).Contents (Elt F)),
    reshape main_v76 main_v77 rfl shapeCasts_S1x128_S128,
    unary main_v77 main_v78 (broadcastInDim S1x128 ![1] bcast_S128_S1x128_1 : (⟨S128, .f32⟩ : BufTy).Contents (Elt F) → (⟨S1x128, .f32⟩ : BufTy).Contents (Elt F)),
    unary main_v78 main_v79 (broadcastInDim S50000x128 ![0, 1] bcast_S1x128_S50000x128_0_1 : (⟨S1x128, .f32⟩ : BufTy).Contents (Elt F) → (⟨S50000x128, .f32⟩ : BufTy).Contents (Elt F)),
    binary main_v75 main_v79 main_v80 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v80) (TRef.of (T := ⟨S50000x128, .f32⟩) main_call3_v0) (TRef.of (T := ⟨S50000x128, .f32⟩) main_v81) maximumf ]

/-- The buffers these operations write. -/
abbrev wP1 : List (Ref sig .tc) := [main_v72, main_v73, main_v74, main_v75, main_v76, main_v77, main_v78, main_v79, main_v80, main_call3_cst, main_call3_v0, main_v81]

/-- They touch buffers of the one core only. -/
theorem subP1 : (opsP1 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Each determines its results. -/
theorem freshP1 : (opsP1 : List (HloOp τ sig (Elt F))).Forall fun op => op.fresh = ∅ :=
  ⟨rfl, rfl, rfl, rfl, rfl, rfl, rfl, rfl, rfl, rfl, rfl, rfl⟩

/-- Each writes one of the listed buffers. -/
theorem writesP1 : (opsP1 : List (HloOp τ sig (Elt F))).Forall fun op =>
    op.writes ⊆ (wP1.map (Proc.devRef (τ := τ) .tc)).toFinset :=
  ⟨writes_sub_of_mem main_v72 rfl (by decide),
   writes_sub_of_mem main_v73 rfl (by decide),
   writes_sub_of_mem main_v74 rfl (by decide),
   writes_sub_of_mem main_v75 rfl (by decide),
   writes_sub_of_mem main_v76 rfl (by decide),
   writes_sub_of_mem main_v77 rfl (by decide),
   writes_sub_of_mem main_v78 rfl (by decide),
   writes_sub_of_mem main_v79 rfl (by decide),
   writes_sub_of_mem main_v80 rfl (by decide),
   writes_sub_of_mem main_call3_cst rfl (by decide),
   writes_sub_of_mem main_call3_v0 rfl (by decide),
   writes_sub_of_mem main_v81 rfl (by decide)⟩

/-- Layer 2: the node states gathered at the sources and at the destinations. -/
abbrev opsG2 : List (HloOp τ sig (Elt F)) :=
  [ nullary main_c_8 (constantI S_ 32 0#32),
    unary main_c_8 main_v82 (broadcastInDim S600000 ![] bcast_S_S600000 : (⟨S_, .i32⟩ : BufTy).Contents (Elt F) → (⟨S600000, .i32⟩ : BufTy).Contents (Elt F)),
    binary main_arg2 main_v82 main_v83 (cmpi .slt : (⟨S600000, .i32⟩ : BufTy).Contents (Elt F) → (⟨S600000, .i32⟩ : BufTy).Contents (Elt F) → (⟨S600000, .i1⟩ : BufTy).Contents (Elt F)),
    nullary main_c_9 (constantI S_ 32 50000#32),
    unary main_c_9 main_v84 (broadcastInDim S600000 ![] bcast_S_S600000 : (⟨S_, .i32⟩ : BufTy).Contents (Elt F) → (⟨S600000, .i32⟩ : BufTy).Contents (Elt F)),
    binary main_arg2 main_v84 main_v85 (addi : (⟨S600000, .i32⟩ : BufTy).Contents (Elt F) → (⟨S600000, .i32⟩ : BufTy).Contents (Elt F) → (⟨S600000, .i32⟩ : BufTy).Contents (Elt F)),
    ternary main_v83 main_v85 main_arg2 main_v86 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v86 main_v87 (broadcastInDim S600000x1 ![0] bcast_S600000_S600000x1_0 : (⟨S600000, .i32⟩ : BufTy).Contents (Elt F) → (⟨S600000x1, .i32⟩ : BufTy).Contents (Elt F)),
    binary main_v81 main_v87 main_v88 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_c_10 (constantI S_ 32 0#32),
    unary main_c_10 main_v89 (broadcastInDim S600000 ![] bcast_S_S600000 : (⟨S_, .i32⟩ : BufTy).Contents (Elt F) → (⟨S600000, .i32⟩ : BufTy).Contents (Elt F)),
    binary main_arg3 main_v89 main_v90 (cmpi .slt : (⟨S600000, .i32⟩ : BufTy).Contents (Elt F) → (⟨S600000, .i32⟩ : BufTy).Contents (Elt F) → (⟨S600000, .i1⟩ : BufTy).Contents (Elt F)),
    nullary main_c_11 (constantI S_ 32 50000#32),
    unary main_c_11 main_v91 (broadcastInDim S600000 ![] bcast_S_S600000 : (⟨S_, .i32⟩ : BufTy).Contents (Elt F) → (⟨S600000, .i32⟩ : BufTy).Contents (Elt F)),
    binary main_arg3 main_v91 main_v92 (addi : (⟨S600000, .i32⟩ : BufTy).Contents (Elt F) → (⟨S600000, .i32⟩ : BufTy).Contents (Elt F) → (⟨S600000, .i32⟩ : BufTy).Contents (Elt F)),
    ternary main_v90 main_v92 main_arg3 main_v93 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v93 main_v94 (broadcastInDim S600000x1 ![0] bcast_S600000_S600000x1_0 : (⟨S600000, .i32⟩ : BufTy).Contents (Elt F) → (⟨S600000x1, .i32⟩ : BufTy).Contents (Elt F)),
    binary main_v81 main_v94 main_v95 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)) ]

/-- The buffers these operations write. -/
abbrev wG2 : List (Ref sig .tc) := [main_c_8, main_v82, main_v83, main_c_9, main_v84, main_v85, main_v86, main_v87, main_v88, main_c_10, main_v89, main_v90, main_c_11, main_v91, main_v92, main_v93, main_v94, main_v95]

/-- They touch buffers of the one core only. -/
theorem subG2 : (opsG2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Each determines its results. -/
theorem freshG2 : (opsG2 : List (HloOp τ sig (Elt F))).Forall fun op => op.fresh = ∅ :=
  ⟨rfl, rfl, rfl, rfl, rfl, rfl, rfl, rfl, rfl, rfl, rfl, rfl, rfl, rfl, rfl, rfl, rfl, rfl⟩

/-- Each writes one of the listed buffers. -/
theorem writesG2 : (opsG2 : List (HloOp τ sig (Elt F))).Forall fun op =>
    op.writes ⊆ (wG2.map (Proc.devRef (τ := τ) .tc)).toFinset :=
  ⟨writes_sub_of_mem main_c_8 rfl (by decide),
   writes_sub_of_mem main_v82 rfl (by decide),
   writes_sub_of_mem main_v83 rfl (by decide),
   writes_sub_of_mem main_c_9 rfl (by decide),
   writes_sub_of_mem main_v84 rfl (by decide),
   writes_sub_of_mem main_v85 rfl (by decide),
   writes_sub_of_mem main_v86 rfl (by decide),
   writes_sub_of_mem main_v87 rfl (by decide),
   writes_sub_of_mem main_v88 rfl (by decide),
   writes_sub_of_mem main_c_10 rfl (by decide),
   writes_sub_of_mem main_v89 rfl (by decide),
   writes_sub_of_mem main_v90 rfl (by decide),
   writes_sub_of_mem main_c_11 rfl (by decide),
   writes_sub_of_mem main_v91 rfl (by decide),
   writes_sub_of_mem main_v92 rfl (by decide),
   writes_sub_of_mem main_v93 rfl (by decide),
   writes_sub_of_mem main_v94 rfl (by decide),
   writes_sub_of_mem main_v95 rfl (by decide)⟩

/-- Layer 2: the edge update (the joined array, the product, the bias, the rectifier). -/
abbrev opsM2 : List (HloOp τ sig (Elt F)) :=
  [ nary ![main_v88, main_v95, main_v68] main_v96 (fun u => concatenate S600000x384 1 [⟨S600000x128, u 0⟩, ⟨S600000x128, u 1⟩, ⟨S600000x128, u 2⟩] concatenates_S600000x128_S600000x128_S600000x128_S600000x384_d1),
    unary main_arg8 main_v97 ((extractStridedSlice S1x384x128 ![2, 0, 0] · slices_S3x384x128_S1x384x128_2_0_0) : (⟨S3x384x128, .f32⟩ : BufTy).Contents (Elt F) → (⟨S1x384x128, .f32⟩ : BufTy).Contents (Elt F)),
    reshape main_v97 main_v98 rfl shapeCasts_S1x384x128_S384x128,
    binary main_v96 main_v98 main_v99 ((fun l r => Host.dotGeneral dot_S600000x384_S384x128_S600000x128_1_0_0_1_n_n none l r) : (⟨S600000x384, .f32⟩ : BufTy).Contents (Elt F) → (⟨S384x128, .f32⟩ : BufTy).Contents (Elt F) → (⟨S600000x128, .f32⟩ : BufTy).Contents (Elt F)),
    unary main_arg9 main_v100 ((extractStridedSlice S1x128 ![2, 0] · slices_S3x128_S1x128_2_0) : (⟨S3x128, .f32⟩ : BufTy).Contents (Elt F) → (⟨S1x128, .f32⟩ : BufTy).Contents (Elt F)),
    reshape main_v100 main_v101 rfl shapeCasts_S1x128_S128,
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S600000x128 ![0, 1] bcast_S1x128_S600000x128_0_1 : (⟨S1x128, .f32⟩ : BufTy).Contents (Elt F) → (⟨S600000x128, .f32⟩ : BufTy).Contents (Elt F)),
    binary main_v99 main_v103 main_v104 (addf : (⟨S600000x128, .f32⟩ : BufTy).Contents (Elt F) → (⟨S600000x128, .f32⟩ : BufTy).Contents (Elt F) → (⟨S600000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S600000x128, .f32⟩) main_call4_v0) (broadcastInDim S600000x128 ![] bcast_S_S600000x128),
    TRef.binary (TRef.of (T := ⟨S600000x128, .f32⟩) main_v104) (TRef.of (T := ⟨S600000x128, .f32⟩) main_call4_v0) (TRef.of (T := ⟨S600000x128, .f32⟩) main_v105) maximumf ]

/-- The buffers these operations write. -/
abbrev wM2 : List (Ref sig .tc) := [main_v96, main_v97, main_v98, main_v99, main_v100, main_v101, main_v102, main_v103, main_v104, main_call4_cst, main_call4_v0, main_v105]

/-- They touch buffers of the one core only. -/
theorem subM2 : (opsM2 : List (HloOp τ sig (Elt F))).Forall fun op => op.bufs ⊆ tcRefs τ sig :=
  ⟨nary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Each determines its results. -/
theorem freshM2 : (opsM2 : List (HloOp τ sig (Elt F))).Forall fun op => op.fresh = ∅ :=
  ⟨rfl, rfl, rfl, rfl, rfl, rfl, rfl, rfl, rfl, rfl, rfl, rfl⟩

/-- Each writes one of the listed buffers. -/
theorem writesM2 : (opsM2 : List (HloOp τ sig (Elt F))).Forall fun op =>
    op.writes ⊆ (wM2.map (Proc.devRef (τ := τ) .tc)).toFinset :=
  ⟨writes_sub_of_mem main_v96 rfl (by decide),
   writes_sub_of_mem main_v97 rfl (by decide),
   writes_sub_of_mem main_v98 rfl (by decide),
   writes_sub_of_mem main_v99 rfl (by decide),
   writes_sub_of_mem main_v100 rfl (by decide),
   writes_sub_of_mem main_v101 rfl (by decide),
   writes_sub_of_mem main_v102 rfl (by decide),
   writes_sub_of_mem main_v103 rfl (by decide),
   writes_sub_of_mem main_v104 rfl (by decide),
   writes_sub_of_mem main_call4_cst rfl (by decide),
   writes_sub_of_mem main_call4_v0 rfl (by decide),
   writes_sub_of_mem main_v105 rfl (by decide)⟩

/-- Layer 2: the messages summed at the destinations. -/
abbrev opsS2 : List (HloOp τ sig (Elt F)) :=
  [ nullary main_cst_12 (constant S_ .f32 0x00000000#32),
    unary main_cst_12 main_v106 (broadcastInDim S50000x128 ![] bcast_S_S50000x128 : (⟨S_, .f32⟩ : BufTy).Contents (Elt F) → (⟨S50000x128, .f32⟩ : BufTy).Contents (Elt F)),
    unary main_arg3 main_v107 (broadcastInDim S600000x1 ![0] bcast_S600000_S600000x1_0 : (⟨S600000, .i32⟩ : BufTy).Contents (Elt F) → (⟨S600000x1, .i32⟩ : BufTy).Contents (Elt F)),
    ternary main_v106 main_v107 main_v105 main_v108 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)) ]

/-- The buffers these operations write. -/
abbrev wS2 : List (Ref sig .tc) := [main_cst_12, main_v106, main_v107, main_v108]

/-- They touch buffers of the one core only. -/
theorem subS2 : (opsS2 : List (HloOp τ sig (Elt F))).Forall fun op => op.bufs ⊆ tcRefs τ sig :=
  ⟨nullary_bufs_sub .., unary_bufs_sub .., unary_bufs_sub .., ternary_bufs_sub ..⟩

/-- Each determines its results. -/
theorem freshS2 : (opsS2 : List (HloOp τ sig (Elt F))).Forall fun op => op.fresh = ∅ :=
  ⟨rfl, rfl, rfl, rfl⟩

/-- Each writes one of the listed buffers. -/
theorem writesS2 : (opsS2 : List (HloOp τ sig (Elt F))).Forall fun op =>
    op.writes ⊆ (wS2.map (Proc.devRef (τ := τ) .tc)).toFinset :=
  ⟨writes_sub_of_mem main_cst_12 rfl (by decide),
   writes_sub_of_mem main_v106 rfl (by decide),
   writes_sub_of_mem main_v107 rfl (by decide),
   writes_sub_of_mem main_v108 rfl (by decide)⟩

/-- Layer 2: the node update (the joined array, the product, the bias, the rectifier). -/
abbrev opsP2 : List (HloOp τ sig (Elt F)) :=
  [ binary main_v81 main_v108 main_v109 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    unary main_arg10 main_v110 ((extractStridedSlice S1x256x128 ![2, 0, 0] · slices_S3x256x128_S1x256x128_2_0_0) : (⟨S3x256x128, .f32⟩ : BufTy).Contents (Elt F) → (⟨S1x256x128, .f32⟩ : BufTy).Contents (Elt F)),
    reshape main_v110 main_v111 rfl shapeCasts_S1x256x128_S256x128,
    binary main_v109 main_v111 main_v112 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg11 main_v113 ((extractStridedSlice S1x128 ![2, 0] · slices_S3x128_S1x128_2_0) : (⟨S3x128, .f32⟩ : BufTy).Contents (Elt F) → (⟨S1x128, .f32⟩ : BufTy).Contents (Elt F)),
    reshape main_v113 main_v114 rfl shapeCasts_S1x128_S128,
    unary main_v114 main_v115 (broadcastInDim S1x128 ![1] bcast_S128_S1x128_1 : (⟨S128, .f32⟩ : BufTy).Contents (Elt F) → (⟨S1x128, .f32⟩ : BufTy).Contents (Elt F)),
    unary main_v115 main_v116 (broadcastInDim S50000x128 ![0, 1] bcast_S1x128_S50000x128_0_1 : (⟨S1x128, .f32⟩ : BufTy).Contents (Elt F) → (⟨S50000x128, .f32⟩ : BufTy).Contents (Elt F)),
    binary main_v112 main_v116 main_v117 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v117) (TRef.of (T := ⟨S50000x128, .f32⟩) main_call5_v0) (TRef.of (T := ⟨S50000x128, .f32⟩) main_v118) maximumf ]

/-- The buffers these operations write. -/
abbrev wP2 : List (Ref sig .tc) := [main_v109, main_v110, main_v111, main_v112, main_v113, main_v114, main_v115, main_v116, main_v117, main_call5_cst, main_call5_v0, main_v118]

/-- They touch buffers of the one core only. -/
theorem subP2 : (opsP2 : List (HloOp τ sig (Elt F))).Forall fun op => op.bufs ⊆ tcRefs τ sig :=
  ⟨binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- Each determines its results. -/
theorem freshP2 : (opsP2 : List (HloOp τ sig (Elt F))).Forall fun op => op.fresh = ∅ :=
  ⟨rfl, rfl, rfl, rfl, rfl, rfl, rfl, rfl, rfl, rfl, rfl, rfl⟩

/-- Each writes one of the listed buffers. -/
theorem writesP2 : (opsP2 : List (HloOp τ sig (Elt F))).Forall fun op =>
    op.writes ⊆ (wP2.map (Proc.devRef (τ := τ) .tc)).toFinset :=
  ⟨writes_sub_of_mem main_v109 rfl (by decide),
   writes_sub_of_mem main_v110 rfl (by decide),
   writes_sub_of_mem main_v111 rfl (by decide),
   writes_sub_of_mem main_v112 rfl (by decide),
   writes_sub_of_mem main_v113 rfl (by decide),
   writes_sub_of_mem main_v114 rfl (by decide),
   writes_sub_of_mem main_v115 rfl (by decide),
   writes_sub_of_mem main_v116 rfl (by decide),
   writes_sub_of_mem main_v117 rfl (by decide),
   writes_sub_of_mem main_call5_cst rfl (by decide),
   writes_sub_of_mem main_call5_v0 rfl (by decide),
   writes_sub_of_mem main_v118 rfl (by decide)⟩

/-- The whole program: the thirteen parts in order. -/
abbrev opsAll : List (HloOp τ sig (Elt F)) := opsE ++ opsG0 ++ opsM0 ++ opsS0 ++ opsP0 ++ opsG1 ++ opsM1 ++ opsS1 ++ opsP1 ++ opsG2 ++ opsM2 ++ opsS2 ++ opsP2

/-- The contents hold the twelve arguments. -/
structure Args
  (x0 : (⟨S50000x8, .f32⟩ : BufTy).Contents (Elt Ideal))
  (x1 : (⟨S600000x4, .f32⟩ : BufTy).Contents (Elt Ideal))
  (x2 : (⟨S600000, .i32⟩ : BufTy).Contents (Elt Ideal))
  (x3 : (⟨S600000, .i32⟩ : BufTy).Contents (Elt Ideal))
  (x4 : (⟨S8x128, .f32⟩ : BufTy).Contents (Elt Ideal))
  (x5 : (⟨S128, .f32⟩ : BufTy).Contents (Elt Ideal))
  (x6 : (⟨S4x128, .f32⟩ : BufTy).Contents (Elt Ideal))
  (x7 : (⟨S128, .f32⟩ : BufTy).Contents (Elt Ideal))
  (x8 : (⟨S3x384x128, .f32⟩ : BufTy).Contents (Elt Ideal))
  (x9 : (⟨S3x128, .f32⟩ : BufTy).Contents (Elt Ideal))
  (x10 : (⟨S3x256x128, .f32⟩ : BufTy).Contents (Elt Ideal))
  (x11 : (⟨S3x128, .f32⟩ : BufTy).Contents (Elt Ideal))
  (V : Valuation τ sig (Elt Ideal)) : Prop where
  h0 : V (Proc.devRef .tc main_arg0) = x0
  h1 : V (Proc.devRef .tc main_arg1) = x1
  h2 : V (Proc.devRef .tc main_arg2) = x2
  h3 : V (Proc.devRef .tc main_arg3) = x3
  h4 : V (Proc.devRef .tc main_arg4) = x4
  h5 : V (Proc.devRef .tc main_arg5) = x5
  h6 : V (Proc.devRef .tc main_arg6) = x6
  h7 : V (Proc.devRef .tc main_arg7) = x7
  h8 : V (Proc.devRef .tc main_arg8) = x8
  h9 : V (Proc.devRef .tc main_arg9) = x9
  h10 : V (Proc.devRef .tc main_arg10) = x10
  h11 : V (Proc.devRef .tc main_arg11) = x11

/-- The arguments' buffers. -/
abbrev argRefs : List (Ref sig .tc) := [main_arg0, main_arg1, main_arg2, main_arg3, main_arg4, main_arg5, main_arg6, main_arg7, main_arg8, main_arg9, main_arg10, main_arg11]

/-- Operations that write none of the arguments' buffers leave the arguments in place. -/
theorem Args.keep
    {x0 : (⟨S50000x8, .f32⟩ : BufTy).Contents (Elt Ideal)}
    {x1 : (⟨S600000x4, .f32⟩ : BufTy).Contents (Elt Ideal)}
    {x2 : (⟨S600000, .i32⟩ : BufTy).Contents (Elt Ideal)}
    {x3 : (⟨S600000, .i32⟩ : BufTy).Contents (Elt Ideal)}
    {x4 : (⟨S8x128, .f32⟩ : BufTy).Contents (Elt Ideal)}
    {x5 : (⟨S128, .f32⟩ : BufTy).Contents (Elt Ideal)}
    {x6 : (⟨S4x128, .f32⟩ : BufTy).Contents (Elt Ideal)}
    {x7 : (⟨S128, .f32⟩ : BufTy).Contents (Elt Ideal)}
    {x8 : (⟨S3x384x128, .f32⟩ : BufTy).Contents (Elt Ideal)}
    {x9 : (⟨S3x128, .f32⟩ : BufTy).Contents (Elt Ideal)}
    {x10 : (⟨S3x256x128, .f32⟩ : BufTy).Contents (Elt Ideal)}
    {x11 : (⟨S3x128, .f32⟩ : BufTy).Contents (Elt Ideal)}
    {V : Valuation τ sig (Elt Ideal)} (hA : Args x0 x1 x2 x3 x4 x5 x6 x7 x8 x9 x10 x11 V) {W : List (Ref sig .tc)}
    (ops : List (HloOp τ sig (Elt Ideal)))
    (hW : ops.Forall fun op => op.writes ⊆ (W.map (Proc.devRef (τ := τ) .tc)).toFinset)
    (hd : ∀ r ∈ argRefs, r ∉ W) : Args x0 x1 x2 x3 x4 x5 x6 x7 x8 x9 x10 x11 (after ops V) :=
  ⟨(after_of_writes_sub ops V hW (hd main_arg0 (by decide))).trans hA.h0,
   (after_of_writes_sub ops V hW (hd main_arg1 (by decide))).trans hA.h1,
   (after_of_writes_sub ops V hW (hd main_arg2 (by decide))).trans hA.h2,
   (after_of_writes_sub ops V hW (hd main_arg3 (by decide))).trans hA.h3,
   (after_of_writes_sub ops V hW (hd main_arg4 (by decide))).trans hA.h4,
   (after_of_writes_sub ops V hW (hd main_arg5 (by decide))).trans hA.h5,
   (after_of_writes_sub ops V hW (hd main_arg6 (by decide))).trans hA.h6,
   (after_of_writes_sub ops V hW (hd main_arg7 (by decide))).trans hA.h7,
   (after_of_writes_sub ops V hW (hd main_arg8 (by decide))).trans hA.h8,
   (after_of_writes_sub ops V hW (hd main_arg9 (by decide))).trans hA.h9,
   (after_of_writes_sub ops V hW (hd main_arg10 (by decide))).trans hA.h10,
   (after_of_writes_sub ops V hW (hd main_arg11 (by decide))).trans hA.h11⟩

section Stages

variable
  (x0 : (⟨S50000x8, .f32⟩ : BufTy).Contents (Elt Ideal))
  (x1 : (⟨S600000x4, .f32⟩ : BufTy).Contents (Elt Ideal))
  (x2 : (⟨S600000, .i32⟩ : BufTy).Contents (Elt Ideal))
  (x3 : (⟨S600000, .i32⟩ : BufTy).Contents (Elt Ideal))
  (x4 : (⟨S8x128, .f32⟩ : BufTy).Contents (Elt Ideal))
  (x5 : (⟨S128, .f32⟩ : BufTy).Contents (Elt Ideal))
  (x6 : (⟨S4x128, .f32⟩ : BufTy).Contents (Elt Ideal))
  (x7 : (⟨S128, .f32⟩ : BufTy).Contents (Elt Ideal))
  (x8 : (⟨S3x384x128, .f32⟩ : BufTy).Contents (Elt Ideal))
  (x9 : (⟨S3x128, .f32⟩ : BufTy).Contents (Elt Ideal))
  (x10 : (⟨S3x256x128, .f32⟩ : BufTy).Contents (Elt Ideal))
  (x11 : (⟨S3x128, .f32⟩ : BufTy).Contents (Elt Ideal))

/-- After these operations, from contents that hold the arguments, the buffer of v3 holds its stage. -/
theorem e_v3 {V : Valuation τ sig (Elt Ideal)} (hA : Args x0 x1 x2 x3 x4 x5 x6 x7 x8 x9 x10 x11 V) :
    after (opsE (F := Ideal)) V (Proc.devRef .tc main_v3) = val_main_v3 (F := Ideal) x0 x4 x5 := by
  chunk_simp
  rw [hA.h0, hA.h4, hA.h5]
  delta val_main_v3 val_main_v2 val_main_v1 val_main_v0
  rfl

/-- After these operations, from contents that hold the arguments, the buffer of v7 holds its stage. -/
theorem e_v7 {V : Valuation τ sig (Elt Ideal)} (hA : Args x0 x1 x2 x3 x4 x5 x6 x7 x8 x9 x10 x11 V) :
    after (opsE (F := Ideal)) V (Proc.devRef .tc main_v7) = val_main_v7 (F := Ideal) x1 x6 x7 := by
  chunk_simp
  rw [hA.h1, hA.h6, hA.h7]
  delta val_main_v7 val_main_v6 val_main_v5 val_main_v4
  rfl

/-- After these operations, from contents that hold the arguments and the stages read, the buffer of v14 holds its stage. -/
theorem g0_v14 {V : Valuation τ sig (Elt Ideal)} (hA : Args x0 x1 x2 x3 x4 x5 x6 x7 x8 x9 x10 x11 V)
    (hv3 : V (Proc.devRef .tc main_v3) = val_main_v3 (F := Ideal) x0 x4 x5) :
    after (opsG0 (F := Ideal)) V (Proc.devRef .tc main_v14) = val_main_v14 (F := Ideal) x0 x2 x4 x5 := by
  chunk_simp
  rw [hv3, hA.h2]
  delta val_main_v14 val_main_v13 val_main_v12 val_main_v11 val_main_v10 val_main_c_0 val_main_v9 val_main_v8 val_main_c
  generalize val_main_v3 (F := Ideal) x0 x4 x5 = Y0
  rfl

/-- After these operations, from contents that hold the arguments and the stages read, the buffer of v21 holds its stage. -/
theorem g0_v21 {V : Valuation τ sig (Elt Ideal)} (hA : Args x0 x1 x2 x3 x4 x5 x6 x7 x8 x9 x10 x11 V)
    (hv3 : V (Proc.devRef .tc main_v3) = val_main_v3 (F := Ideal) x0 x4 x5) :
    after (opsG0 (F := Ideal)) V (Proc.devRef .tc main_v21) = val_main_v21 (F := Ideal) x0 x3 x4 x5 := by
  chunk_simp
  rw [hv3, hA.h3]
  delta val_main_v21 val_main_v20 val_main_v19 val_main_v18 val_main_v17 val_main_c_2 val_main_v16 val_main_v15 val_main_c_1
  generalize val_main_v3 (F := Ideal) x0 x4 x5 = Y0
  rfl

/-- After these operations, from contents that hold the arguments and the stages read, the buffer of v31 holds its stage. -/
theorem m0_v31 {V : Valuation τ sig (Elt Ideal)} (hA : Args x0 x1 x2 x3 x4 x5 x6 x7 x8 x9 x10 x11 V)
    (hv14 : V (Proc.devRef .tc main_v14) = val_main_v14 (F := Ideal) x0 x2 x4 x5)
    (hv21 : V (Proc.devRef .tc main_v21) = val_main_v21 (F := Ideal) x0 x3 x4 x5)
    (hv7 : V (Proc.devRef .tc main_v7) = val_main_v7 (F := Ideal) x1 x6 x7) :
    after (opsM0 (F := Ideal)) V (Proc.devRef .tc main_v31) = val_main_v31 (F := Ideal) x0 x1 x2 x3 x4 x5 x6 x7 x8 x9 := by
  chunk_simp
  rw [hv14, hv21, hv7, hA.h8, hA.h9]
  delta val_main_v31 val_main_call0_v0 val_main_call0_cst val_main_v30 val_main_v29 val_main_v28 val_main_v27 val_main_v26 val_main_v25 val_main_v24 val_main_v23 val_main_v22
  generalize val_main_v14 (F := Ideal) x0 x2 x4 x5 = Y0
  generalize val_main_v21 (F := Ideal) x0 x3 x4 x5 = Y1
  generalize val_main_v7 (F := Ideal) x1 x6 x7 = Y2
  rfl

/-- After these operations, from contents that hold the arguments and the stages read, the buffer of v34 holds its stage. -/
theorem s0_v34 {V : Valuation τ sig (Elt Ideal)} (hA : Args x0 x1 x2 x3 x4 x5 x6 x7 x8 x9 x10 x11 V)
    (hv31 : V (Proc.devRef .tc main_v31) = val_main_v31 (F := Ideal) x0 x1 x2 x3 x4 x5 x6 x7 x8 x9) :
    after (opsS0 (F := Ideal)) V (Proc.devRef .tc main_v34) = val_main_v34 (F := Ideal) x0 x1 x2 x3 x4 x5 x6 x7 x8 x9 := by
  chunk_simp
  rw [hv31, hA.h3]
  delta val_main_v34 val_main_v33 val_main_v32 val_main_cst
  generalize val_main_v31 (F := Ideal) x0 x1 x2 x3 x4 x5 x6 x7 x8 x9 = Y0
  rfl

/-- After these operations, from contents that hold the arguments and the stages read, the buffer of v44 holds its stage. -/
theorem p0_v44 {V : Valuation τ sig (Elt Ideal)} (hA : Args x0 x1 x2 x3 x4 x5 x6 x7 x8 x9 x10 x11 V)
    (hv3 : V (Proc.devRef .tc main_v3) = val_main_v3 (F := Ideal) x0 x4 x5)
    (hv34 : V (Proc.devRef .tc main_v34) = val_main_v34 (F := Ideal) x0 x1 x2 x3 x4 x5 x6 x7 x8 x9) :
    after (opsP0 (F := Ideal)) V (Proc.devRef .tc main_v44) = val_main_v44 (F := Ideal) x0 x1 x2 x3 x4 x5 x6 x7 x8 x9 x10 x11 := by
  chunk_simp
  rw [hv3, hv34, hA.h10, hA.h11]
  delta val_main_v44 val_main_call1_v0 val_main_call1_cst val_main_v43 val_main_v42 val_main_v41 val_main_v40 val_main_v39 val_main_v38 val_main_v37 val_main_v36 val_main_v35
  generalize val_main_v3 (F := Ideal) x0 x4 x5 = Y0
  generalize val_main_v34 (F := Ideal) x0 x1 x2 x3 x4 x5 x6 x7 x8 x9 = Y1
  rfl

/-- After these operations, from contents that hold the arguments and the stages read, the buffer of v51 holds its stage. -/
theorem g1_v51 {V : Valuation τ sig (Elt Ideal)} (hA : Args x0 x1 x2 x3 x4 x5 x6 x7 x8 x9 x10 x11 V)
    (hv44 : V (Proc.devRef .tc main_v44) = val_main_v44 (F := Ideal) x0 x1 x2 x3 x4 x5 x6 x7 x8 x9 x10 x11) :
    after (opsG1 (F := Ideal)) V (Proc.devRef .tc main_v51) = val_main_v51 (F := Ideal) x0 x1 x2 x3 x4 x5 x6 x7 x8 x9 x10 x11 := by
  chunk_simp
  rw [hv44, hA.h2]
  delta val_main_v51 val_main_v50 val_main_v49 val_main_v48 val_main_v47 val_main_c_4 val_main_v46 val_main_v45 val_main_c_3
  generalize val_main_v44 (F := Ideal) x0 x1 x2 x3 x4 x5 x6 x7 x8 x9 x10 x11 = Y0
  rfl

/-- After these operations, from contents that hold the arguments and the stages read, the buffer of v58 holds its stage. -/
theorem g1_v58 {V : Valuation τ sig (Elt Ideal)} (hA : Args x0 x1 x2 x3 x4 x5 x6 x7 x8 x9 x10 x11 V)
    (hv44 : V (Proc.devRef .tc main_v44) = val_main_v44 (F := Ideal) x0 x1 x2 x3 x4 x5 x6 x7 x8 x9 x10 x11) :
    after (opsG1 (F := Ideal)) V (Proc.devRef .tc main_v58) = val_main_v58 (F := Ideal) x0 x1 x2 x3 x4 x5 x6 x7 x8 x9 x10 x11 := by
  chunk_simp
  rw [hv44, hA.h3]
  delta val_main_v58 val_main_v57 val_main_v56 val_main_v55 val_main_v54 val_main_c_6 val_main_v53 val_main_v52 val_main_c_5
  generalize val_main_v44 (F := Ideal) x0 x1 x2 x3 x4 x5 x6 x7 x8 x9 x10 x11 = Y0
  rfl

/-- After these operations, from contents that hold the arguments and the stages read, the buffer of v68 holds its stage. -/
theorem m1_v68 {V : Valuation τ sig (Elt Ideal)} (hA : Args x0 x1 x2 x3 x4 x5 x6 x7 x8 x9 x10 x11 V)
    (hv51 : V (Proc.devRef .tc main_v51) = val_main_v51 (F := Ideal) x0 x1 x2 x3 x4 x5 x6 x7 x8 x9 x10 x11)
    (hv58 : V (Proc.devRef .tc main_v58) = val_main_v58 (F := Ideal) x0 x1 x2 x3 x4 x5 x6 x7 x8 x9 x10 x11)
    (hv31 : V (Proc.devRef .tc main_v31) = val_main_v31 (F := Ideal) x0 x1 x2 x3 x4 x5 x6 x7 x8 x9) :
    after (opsM1 (F := Ideal)) V (Proc.devRef .tc main_v68) = val_main_v68 (F := Ideal) x0 x1 x2 x3 x4 x5 x6 x7 x8 x9 x10 x11 := by
  chunk_simp
  rw [hv51, hv58, hv31, hA.h8, hA.h9]
  delta val_main_v68 val_main_call2_v0 val_main_call2_cst val_main_v67 val_main_v66 val_main_v65 val_main_v64 val_main_v63 val_main_v62 val_main_v61 val_main_v60 val_main_v59
  generalize val_main_v51 (F := Ideal) x0 x1 x2 x3 x4 x5 x6 x7 x8 x9 x10 x11 = Y0
  generalize val_main_v58 (F := Ideal) x0 x1 x2 x3 x4 x5 x6 x7 x8 x9 x10 x11 = Y1
  generalize val_main_v31 (F := Ideal) x0 x1 x2 x3 x4 x5 x6 x7 x8 x9 = Y2
  rfl

/-- After these operations, from contents that hold the arguments and the stages read, the buffer of v71 holds its stage. -/
theorem s1_v71 {V : Valuation τ sig (Elt Ideal)} (hA : Args x0 x1 x2 x3 x4 x5 x6 x7 x8 x9 x10 x11 V)
    (hv68 : V (Proc.devRef .tc main_v68) = val_main_v68 (F := Ideal) x0 x1 x2 x3 x4 x5 x6 x7 x8 x9 x10 x11) :
    after (opsS1 (F := Ideal)) V (Proc.devRef .tc main_v71) = val_main_v71 (F := Ideal) x0 x1 x2 x3 x4 x5 x6 x7 x8 x9 x10 x11 := by
  chunk_simp
  rw [hv68, hA.h3]
  delta val_main_v71 val_main_v70 val_main_v69 val_main_cst_7
  generalize val_main_v68 (F := Ideal) x0 x1 x2 x3 x4 x5 x6 x7 x8 x9 x10 x11 = Y0
  rfl

/-- After these operations, from contents that hold the arguments and the stages read, the buffer of v81 holds its stage. -/
theorem p1_v81 {V : Valuation τ sig (Elt Ideal)} (hA : Args x0 x1 x2 x3 x4 x5 x6 x7 x8 x9 x10 x11 V)
    (hv44 : V (Proc.devRef .tc main_v44) = val_main_v44 (F := Ideal) x0 x1 x2 x3 x4 x5 x6 x7 x8 x9 x10 x11)
    (hv71 : V (Proc.devRef .tc main_v71) = val_main_v71 (F := Ideal) x0 x1 x2 x3 x4 x5 x6 x7 x8 x9 x10 x11) :
    after (opsP1 (F := Ideal)) V (Proc.devRef .tc main_v81) = val_main_v81 (F := Ideal) x0 x1 x2 x3 x4 x5 x6 x7 x8 x9 x10 x11 := by
  chunk_simp
  rw [hv44, hv71, hA.h10, hA.h11]
  delta val_main_v81 val_main_call3_v0 val_main_call3_cst val_main_v80 val_main_v79 val_main_v78 val_main_v77 val_main_v76 val_main_v75 val_main_v74 val_main_v73 val_main_v72
  generalize val_main_v44 (F := Ideal) x0 x1 x2 x3 x4 x5 x6 x7 x8 x9 x10 x11 = Y0
  generalize val_main_v71 (F := Ideal) x0 x1 x2 x3 x4 x5 x6 x7 x8 x9 x10 x11 = Y1
  rfl

/-- After these operations, from contents that hold the arguments and the stages read, the buffer of v88 holds its stage. -/
theorem g2_v88 {V : Valuation τ sig (Elt Ideal)} (hA : Args x0 x1 x2 x3 x4 x5 x6 x7 x8 x9 x10 x11 V)
    (hv81 : V (Proc.devRef .tc main_v81) = val_main_v81 (F := Ideal) x0 x1 x2 x3 x4 x5 x6 x7 x8 x9 x10 x11) :
    after (opsG2 (F := Ideal)) V (Proc.devRef .tc main_v88) = val_main_v88 (F := Ideal) x0 x1 x2 x3 x4 x5 x6 x7 x8 x9 x10 x11 := by
  chunk_simp
  rw [hv81, hA.h2]
  delta val_main_v88 val_main_v87 val_main_v86 val_main_v85 val_main_v84 val_main_c_9 val_main_v83 val_main_v82 val_main_c_8
  generalize val_main_v81 (F := Ideal) x0 x1 x2 x3 x4 x5 x6 x7 x8 x9 x10 x11 = Y0
  rfl

/-- After these operations, from contents that hold the arguments and the stages read, the buffer of v95 holds its stage. -/
theorem g2_v95 {V : Valuation τ sig (Elt Ideal)} (hA : Args x0 x1 x2 x3 x4 x5 x6 x7 x8 x9 x10 x11 V)
    (hv81 : V (Proc.devRef .tc main_v81) = val_main_v81 (F := Ideal) x0 x1 x2 x3 x4 x5 x6 x7 x8 x9 x10 x11) :
    after (opsG2 (F := Ideal)) V (Proc.devRef .tc main_v95) = val_main_v95 (F := Ideal) x0 x1 x2 x3 x4 x5 x6 x7 x8 x9 x10 x11 := by
  chunk_simp
  rw [hv81, hA.h3]
  delta val_main_v95 val_main_v94 val_main_v93 val_main_v92 val_main_v91 val_main_c_11 val_main_v90 val_main_v89 val_main_c_10
  generalize val_main_v81 (F := Ideal) x0 x1 x2 x3 x4 x5 x6 x7 x8 x9 x10 x11 = Y0
  rfl

/-- After these operations, from contents that hold the arguments and the stages read, the buffer of v105 holds its stage. -/
theorem m2_v105 {V : Valuation τ sig (Elt Ideal)} (hA : Args x0 x1 x2 x3 x4 x5 x6 x7 x8 x9 x10 x11 V)
    (hv88 : V (Proc.devRef .tc main_v88) = val_main_v88 (F := Ideal) x0 x1 x2 x3 x4 x5 x6 x7 x8 x9 x10 x11)
    (hv95 : V (Proc.devRef .tc main_v95) = val_main_v95 (F := Ideal) x0 x1 x2 x3 x4 x5 x6 x7 x8 x9 x10 x11)
    (hv68 : V (Proc.devRef .tc main_v68) = val_main_v68 (F := Ideal) x0 x1 x2 x3 x4 x5 x6 x7 x8 x9 x10 x11) :
    after (opsM2 (F := Ideal)) V (Proc.devRef .tc main_v105) = val_main_v105 (F := Ideal) x0 x1 x2 x3 x4 x5 x6 x7 x8 x9 x10 x11 := by
  chunk_simp
  rw [hv88, hv95, hv68, hA.h8, hA.h9]
  delta val_main_v105 val_main_call4_v0 val_main_call4_cst val_main_v104 val_main_v103 val_main_v102 val_main_v101 val_main_v100 val_main_v99 val_main_v98 val_main_v97 val_main_v96
  generalize val_main_v88 (F := Ideal) x0 x1 x2 x3 x4 x5 x6 x7 x8 x9 x10 x11 = Y0
  generalize val_main_v95 (F := Ideal) x0 x1 x2 x3 x4 x5 x6 x7 x8 x9 x10 x11 = Y1
  generalize val_main_v68 (F := Ideal) x0 x1 x2 x3 x4 x5 x6 x7 x8 x9 x10 x11 = Y2
  rfl

/-- After these operations, from contents that hold the arguments and the stages read, the buffer of v108 holds its stage. -/
theorem s2_v108 {V : Valuation τ sig (Elt Ideal)} (hA : Args x0 x1 x2 x3 x4 x5 x6 x7 x8 x9 x10 x11 V)
    (hv105 : V (Proc.devRef .tc main_v105) = val_main_v105 (F := Ideal) x0 x1 x2 x3 x4 x5 x6 x7 x8 x9 x10 x11) :
    after (opsS2 (F := Ideal)) V (Proc.devRef .tc main_v108) = val_main_v108 (F := Ideal) x0 x1 x2 x3 x4 x5 x6 x7 x8 x9 x10 x11 := by
  chunk_simp
  rw [hv105, hA.h3]
  delta val_main_v108 val_main_v107 val_main_v106 val_main_cst_12
  generalize val_main_v105 (F := Ideal) x0 x1 x2 x3 x4 x5 x6 x7 x8 x9 x10 x11 = Y0
  rfl

/-- After these operations, from contents that hold the arguments and the stages read, the buffer of v118 holds its stage. -/
theorem p2_v118 {V : Valuation τ sig (Elt Ideal)} (hA : Args x0 x1 x2 x3 x4 x5 x6 x7 x8 x9 x10 x11 V)
    (hv81 : V (Proc.devRef .tc main_v81) = val_main_v81 (F := Ideal) x0 x1 x2 x3 x4 x5 x6 x7 x8 x9 x10 x11)
    (hv108 : V (Proc.devRef .tc main_v108) = val_main_v108 (F := Ideal) x0 x1 x2 x3 x4 x5 x6 x7 x8 x9 x10 x11) :
    after (opsP2 (F := Ideal)) V (Proc.devRef .tc main_v118) = val_main_v118 (F := Ideal) x0 x1 x2 x3 x4 x5 x6 x7 x8 x9 x10 x11 := by
  chunk_simp
  rw [hv81, hv108, hA.h10, hA.h11]
  delta val_main_v118 val_main_call5_v0 val_main_call5_cst val_main_v117 val_main_v116 val_main_v115 val_main_v114 val_main_v113 val_main_v112 val_main_v111 val_main_v110 val_main_v109
  generalize val_main_v81 (F := Ideal) x0 x1 x2 x3 x4 x5 x6 x7 x8 x9 x10 x11 = Y0
  generalize val_main_v108 (F := Ideal) x0 x1 x2 x3 x4 x5 x6 x7 x8 x9 x10 x11 = Y1
  rfl

/-- From contents that hold the arguments, the whole program leaves the two results at their stages and the
    arguments in place. -/
theorem after_opsAll {V : Valuation τ sig (Elt Ideal)} (A0 : Args x0 x1 x2 x3 x4 x5 x6 x7 x8 x9 x10 x11 V) :
    after (opsAll (F := Ideal)) V (Proc.devRef .tc main_v118) = val_main_v118 (F := Ideal) x0 x1 x2 x3 x4 x5 x6 x7 x8 x9 x10 x11
    ∧ after (opsAll (F := Ideal)) V (Proc.devRef .tc main_v105) = val_main_v105 (F := Ideal) x0 x1 x2 x3 x4 x5 x6 x7 x8 x9 x10 x11
    ∧ Args x0 x1 x2 x3 x4 x5 x6 x7 x8 x9 x10 x11 (after (opsAll (F := Ideal)) V) := by
  have f_v3 := e_v3 x0 x1 x2 x3 x4 x5 x6 x7 x8 x9 x10 x11 A0
  have f_v7 := e_v7 x0 x1 x2 x3 x4 x5 x6 x7 x8 x9 x10 x11 A0
  have A1 := A0.keep (opsE (F := Ideal)) writesE (by decide)
  have f_v14 := g0_v14 x0 x1 x2 x3 x4 x5 x6 x7 x8 x9 x10 x11 A1 f_v3
  have f_v21 := g0_v21 x0 x1 x2 x3 x4 x5 x6 x7 x8 x9 x10 x11 A1 f_v3
  have k1_v3 := (after_of_writes_sub (opsG0 (F := Ideal)) _ writesG0 (by decide : main_v3 ∉ wG0)).trans f_v3
  have k1_v7 := (after_of_writes_sub (opsG0 (F := Ideal)) _ writesG0 (by decide : main_v7 ∉ wG0)).trans f_v7
  have A2 := A1.keep (opsG0 (F := Ideal)) writesG0 (by decide)
  have f_v31 := m0_v31 x0 x1 x2 x3 x4 x5 x6 x7 x8 x9 x10 x11 A2 f_v14 f_v21 k1_v7
  have k2_v3 := (after_of_writes_sub (opsM0 (F := Ideal)) _ writesM0 (by decide : main_v3 ∉ wM0)).trans k1_v3
  have A3 := A2.keep (opsM0 (F := Ideal)) writesM0 (by decide)
  have f_v34 := s0_v34 x0 x1 x2 x3 x4 x5 x6 x7 x8 x9 x10 x11 A3 f_v31
  have k3_v31 := (after_of_writes_sub (opsS0 (F := Ideal)) _ writesS0 (by decide : main_v31 ∉ wS0)).trans f_v31
  have k3_v3 := (after_of_writes_sub (opsS0 (F := Ideal)) _ writesS0 (by decide : main_v3 ∉ wS0)).trans k2_v3
  have A4 := A3.keep (opsS0 (F := Ideal)) writesS0 (by decide)
  have f_v44 := p0_v44 x0 x1 x2 x3 x4 x5 x6 x7 x8 x9 x10 x11 A4 k3_v3 f_v34
  have k4_v31 := (after_of_writes_sub (opsP0 (F := Ideal)) _ writesP0 (by decide : main_v31 ∉ wP0)).trans k3_v31
  have A5 := A4.keep (opsP0 (F := Ideal)) writesP0 (by decide)
  have f_v51 := g1_v51 x0 x1 x2 x3 x4 x5 x6 x7 x8 x9 x10 x11 A5 f_v44
  have f_v58 := g1_v58 x0 x1 x2 x3 x4 x5 x6 x7 x8 x9 x10 x11 A5 f_v44
  have k5_v44 := (after_of_writes_sub (opsG1 (F := Ideal)) _ writesG1 (by decide : main_v44 ∉ wG1)).trans f_v44
  have k5_v31 := (after_of_writes_sub (opsG1 (F := Ideal)) _ writesG1 (by decide : main_v31 ∉ wG1)).trans k4_v31
  have A6 := A5.keep (opsG1 (F := Ideal)) writesG1 (by decide)
  have f_v68 := m1_v68 x0 x1 x2 x3 x4 x5 x6 x7 x8 x9 x10 x11 A6 f_v51 f_v58 k5_v31
  have k6_v44 := (after_of_writes_sub (opsM1 (F := Ideal)) _ writesM1 (by decide : main_v44 ∉ wM1)).trans k5_v44
  have A7 := A6.keep (opsM1 (F := Ideal)) writesM1 (by decide)
  have f_v71 := s1_v71 x0 x1 x2 x3 x4 x5 x6 x7 x8 x9 x10 x11 A7 f_v68
  have k7_v68 := (after_of_writes_sub (opsS1 (F := Ideal)) _ writesS1 (by decide : main_v68 ∉ wS1)).trans f_v68
  have k7_v44 := (after_of_writes_sub (opsS1 (F := Ideal)) _ writesS1 (by decide : main_v44 ∉ wS1)).trans k6_v44
  have A8 := A7.keep (opsS1 (F := Ideal)) writesS1 (by decide)
  have f_v81 := p1_v81 x0 x1 x2 x3 x4 x5 x6 x7 x8 x9 x10 x11 A8 k7_v44 f_v71
  have k8_v68 := (after_of_writes_sub (opsP1 (F := Ideal)) _ writesP1 (by decide : main_v68 ∉ wP1)).trans k7_v68
  have A9 := A8.keep (opsP1 (F := Ideal)) writesP1 (by decide)
  have f_v88 := g2_v88 x0 x1 x2 x3 x4 x5 x6 x7 x8 x9 x10 x11 A9 f_v81
  have f_v95 := g2_v95 x0 x1 x2 x3 x4 x5 x6 x7 x8 x9 x10 x11 A9 f_v81
  have k9_v81 := (after_of_writes_sub (opsG2 (F := Ideal)) _ writesG2 (by decide : main_v81 ∉ wG2)).trans f_v81
  have k9_v68 := (after_of_writes_sub (opsG2 (F := Ideal)) _ writesG2 (by decide : main_v68 ∉ wG2)).trans k8_v68
  have A10 := A9.keep (opsG2 (F := Ideal)) writesG2 (by decide)
  have f_v105 := m2_v105 x0 x1 x2 x3 x4 x5 x6 x7 x8 x9 x10 x11 A10 f_v88 f_v95 k9_v68
  have k10_v81 := (after_of_writes_sub (opsM2 (F := Ideal)) _ writesM2 (by decide : main_v81 ∉ wM2)).trans k9_v81
  have A11 := A10.keep (opsM2 (F := Ideal)) writesM2 (by decide)
  have f_v108 := s2_v108 x0 x1 x2 x3 x4 x5 x6 x7 x8 x9 x10 x11 A11 f_v105
  have k11_v105 := (after_of_writes_sub (opsS2 (F := Ideal)) _ writesS2 (by decide : main_v105 ∉ wS2)).trans f_v105
  have k11_v81 := (after_of_writes_sub (opsS2 (F := Ideal)) _ writesS2 (by decide : main_v81 ∉ wS2)).trans k10_v81
  have A12 := A11.keep (opsS2 (F := Ideal)) writesS2 (by decide)
  have f_v118 := p2_v118 x0 x1 x2 x3 x4 x5 x6 x7 x8 x9 x10 x11 A12 k11_v81 f_v108
  have k12_v105 := (after_of_writes_sub (opsP2 (F := Ideal)) _ writesP2 (by decide : main_v105 ∉ wP2)).trans k11_v105
  have A13 := A12.keep (opsP2 (F := Ideal)) writesP2 (by decide)
  rw [show (opsAll (F := Ideal)) = opsE ++ opsG0 ++ opsM0 ++ opsS0 ++ opsP0 ++ opsG1 ++ opsM1 ++ opsS1 ++ opsP1 ++ opsG2 ++ opsM2 ++ opsS2 ++ opsP2 from rfl,
    after_append, after_append, after_append, after_append, after_append, after_append, after_append, after_append, after_append, after_append, after_append, after_append]
  exact ⟨f_v118, k12_v105, A13⟩

end Stages

set_option maxRecDepth 8192 in
set_option maxHeartbeats 4000000 in
/-- The program is the thirteen parts run in order. -/
theorem main_eq (c : Dev nD) : main (F := F) c = seq opsAll := rfl
/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

/-- Every operation touches buffers of the one core only. -/
theorem sub_all : (opsAll : List (HloOp τ sig (Elt F))).Forall fun op => op.bufs ⊆ tcRefs τ sig :=
  List.forall_iff_forall_mem.2 (forall_mem_append (forall_mem_append (forall_mem_append (forall_mem_append (forall_mem_append (forall_mem_append (forall_mem_append (forall_mem_append (forall_mem_append (forall_mem_append (forall_mem_append (forall_mem_append (List.forall_iff_forall_mem.1 subE) (List.forall_iff_forall_mem.1 subG0)) (List.forall_iff_forall_mem.1 subM0)) (List.forall_iff_forall_mem.1 subS0)) (List.forall_iff_forall_mem.1 subP0)) (List.forall_iff_forall_mem.1 subG1)) (List.forall_iff_forall_mem.1 subM1)) (List.forall_iff_forall_mem.1 subS1)) (List.forall_iff_forall_mem.1 subP1)) (List.forall_iff_forall_mem.1 subG2)) (List.forall_iff_forall_mem.1 subM2)) (List.forall_iff_forall_mem.1 subS2)) (List.forall_iff_forall_mem.1 subP2))

/-- Every operation determines its results. -/
theorem fresh_all : ∀ op ∈ (opsAll : List (HloOp τ sig (Elt F))), op.fresh = ∅ :=
  (forall_mem_append (forall_mem_append (forall_mem_append (forall_mem_append (forall_mem_append (forall_mem_append (forall_mem_append (forall_mem_append (forall_mem_append (forall_mem_append (forall_mem_append (forall_mem_append (List.forall_iff_forall_mem.1 freshE) (List.forall_iff_forall_mem.1 freshG0)) (List.forall_iff_forall_mem.1 freshM0)) (List.forall_iff_forall_mem.1 freshS0)) (List.forall_iff_forall_mem.1 freshP0)) (List.forall_iff_forall_mem.1 freshG1)) (List.forall_iff_forall_mem.1 freshM1)) (List.forall_iff_forall_mem.1 freshS1)) (List.forall_iff_forall_mem.1 freshP1)) (List.forall_iff_forall_mem.1 freshG2)) (List.forall_iff_forall_mem.1 freshM2)) (List.forall_iff_forall_mem.1 freshS2)) (List.forall_iff_forall_mem.1 freshP2))

/-- On every device, from any memory with zero counters: every weakly fair execution of the reference program
    terminates with the two results at their stages of the arguments' launch contents and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v118) = Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v105) = Cert.ReferenceIdeal.ReadP.val_main_v105 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => by
      have hA : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (launchContents m c) :=
        ⟨rfl, rfl, rfl, rfl, rfl, rfl, rfl, rfl, rfl, rfl, rfl, rfl⟩
      obtain ⟨h118, h105, hK⟩ := after_opsAll _ _ _ _ _ _ _ _ _ _ _ _ hA
      exact ⟨(h c main_v118).trans h118, (h c main_v105).trans h105,
        (h c main_arg0).trans hK.h0, (h c main_arg1).trans hK.h1, (h c main_arg2).trans hK.h2, (h c main_arg3).trans hK.h3, (h c main_arg4).trans hK.h4, (h c main_arg5).trans hK.h5, (h c main_arg6).trans hK.h6, (h c main_arg7).trans hK.h7, (h c main_arg8).trans hK.h8, (h c main_arg9).trans hK.h9, (h c main_arg10).trans hK.h10, (h c main_arg11).trans hK.h11⟩)
    (run_seq scopedRefs_eq scopedSems_eq defs main (fun _ => opsAll) main_eq (fun _ => sub_all) m ρ (fun _ => fresh_all))

end Cert.ReferenceIdeal.RefRun

end
-- ==== Proof.KRun.lean ====
/-
  The idealized kernel program's run with its two results named.

  The program is twelve segments: six stretches of host operations, each followed by one pipelined call.  The buffer
  contents at the twelve boundaries are a fold from the launch memory; the launch theorem for such a chain gives, for
  every weakly fair execution, termination without a fault in a state where every unscoped buffer holds the last
  boundary's contents.  Reading that state at the two result buffers and at the twelve argument buffers gives the
  statement below: the results are the last boundary's contents at their references, the arguments are as launched.
-/
import proofs.«122216_j7713761264053_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two results at the last
    boundary's contents and the arguments as launched. -/
theorem run_named : θ_run defs (onTc (τ := τ) (main (F := F))) ⟨m, fun _ => 0, ρ⟩ (fun r => ∀ c : Dev nD,
      r.2.mem ((c.tc : Thread nD τ).loc main_v131) = W12 m ρ c (Proc.devRef .tc main_v131)
      ∧ r.2.mem ((c.tc : Thread nD τ).loc main_v118_0) = W12 m ρ c (Proc.devRef .tc main_v118_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v131 (by decide)),
       h c _ (mem_uc main_v118_0 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.KRun

end
-- ==== Proof.Spec.lean ====
/-
  The message-passing network as functions of its argument arrays, entry by entry, on the extended reals.

  One edge update takes the node states gathered at the sources (A) and at the destinations (B) and the edge
  states (E), three [M, 128] arrays, and returns   max (A·W₀ + B·W₁ + E·W₂ + b, 0)   where W₀, W₁, W₂ are the
  three 128-row blocks of layer l's [384, 128] weight and b is layer l's bias row.  One node update takes the
  node states (H) and the aggregated messages (G) and returns   max (H·U₀ + G·U₁ + b, 0)   with U₀, U₁ the two
  128-row blocks of layer l's [256, 128] weight.

  The only law used between the two programs is that a sum over 384 (or 256) columns is the sum of the sums over
  its 128-column blocks: addition on the extended reals is commutative and associative, so no finiteness is needed.
-/
import Idealize.ShloMosaic.Lib.ValueIdx
import Idealize.ShloMosaic.PureOps.Ideal.Laws

noncomputable section

namespace Cert.GnSpec

open Idealize.ShloMosaic Idealize.ShloMosaic.ValueIdx

/-- A matrix of extended reals. -/
abbrev Arr2 (m n : ℕ) : Type := (⟨2, ![m, n]⟩ : Shape).Idx → EReal
/-- A stack of matrices of extended reals. -/
abbrev Arr3 (a b c : ℕ) : Type := (⟨3, ![a, b, c]⟩ : Shape).Idx → EReal

/-- The binary32 zero, read as an extended real (the lower bound of the rectifier). -/
abbrev zero32 : EReal := Ideal.ofBits .f32 0x00000000#32

/-- Column o + k of a 384-column matrix, for k in a 128-column block starting at o. -/
def k384 (o : ℕ) (ho : o + 128 ≤ 384) (k : Fin 128) : Fin 384 := ⟨o + k.val, by omega⟩
/-- Column o + k of a 256-column matrix, for k in a 128-column block starting at o. -/
def k256 (o : ℕ) (ho : o + 128 ≤ 256) (k : Fin 128) : Fin 256 := ⟨o + k.val, by omega⟩

/-- A sum over 384 columns is the sum of the sums over its three 128-column blocks. -/
theorem sum384 {α : Type} [AddCommMonoid α] (f : Fin 384 → α) :
    ∑ k, f k = ((∑ k : Fin 128, f (k384 0 (by omega) k)) + ∑ k : Fin 128, f (k384 128 (by omega) k))
      + ∑ k : Fin 128, f (k384 256 (by omega) k) := by
  have h1 := Fin.sum_univ_add (a := 256) (b := 128) f
  have h2 := Fin.sum_univ_add (a := 128) (b := 128) (fun i : Fin 256 => f (Fin.castAdd 128 i))
  rw [h1, h2]
  refine congrArg₂ (· + ·) (congrArg₂ (· + ·) ?_ ?_) ?_ <;>
    refine Finset.sum_congr rfl fun k _ => congrArg f (Fin.ext ?_) <;> simp [k384] <;> omega

/-- A sum over 256 columns is the sum of the sums over its two 128-column blocks. -/
theorem sum256 {α : Type} [AddCommMonoid α] (f : Fin 256 → α) :
    ∑ k, f k = (∑ k : Fin 128, f (k256 0 (by omega) k)) + ∑ k : Fin 128, f (k256 128 (by omega) k) := by
  have h1 := Fin.sum_univ_add (a := 128) (b := 128) f
  rw [h1]
  refine congrArg₂ (· + ·) ?_ ?_ <;>
    refine Finset.sum_congr rfl fun k _ => congrArg f (Fin.ext ?_) <;> simp [k256] <;> omega

/-- One entry of the edge update of layer l. -/
def edgeAt {M : ℕ} (l : Fin 3) (A B E : Arr2 M 128) (W : Arr3 3 384 128) (b : Arr2 3 128) (r : Fin M) (c : Fin 128) : EReal :=
  max ((((∑ k : Fin 128, A (ix2 r k) * W (ix3 l (k384 0 (by omega) k) c))
        + ∑ k : Fin 128, B (ix2 r k) * W (ix3 l (k384 128 (by omega) k) c))
        + ∑ k : Fin 128, E (ix2 r k) * W (ix3 l (k384 256 (by omega) k) c))
        + b (ix2 l c)) zero32

/-- The edge update of layer l. -/
def edgeL {M : ℕ} (l : Fin 3) (A B E : Arr2 M 128) (W : Arr3 3 384 128) (b : Arr2 3 128) : Arr2 M 128 :=
  fun i => edgeAt l A B E W b (i 0) (i 1)

/-- One entry of the node update of layer l. -/
def nodeAt {M : ℕ} (l : Fin 3) (H G : Arr2 M 128) (U : Arr3 3 256 128) (b : Arr2 3 128) (r : Fin M) (c : Fin 128) : EReal :=
  max (((∑ k : Fin 128, H (ix2 r k) * U (ix3 l (k256 0 (by omega) k) c))
        + ∑ k : Fin 128, G (ix2 r k) * U (ix3 l (k256 128 (by omega) k) c))
        + b (ix2 l c)) zero32

/-- The node update of layer l. -/
def nodeL {M : ℕ} (l : Fin 3) (H G : Arr2 M 128) (U : Arr3 3 256 128) (b : Arr2 3 128) : Arr2 M 128 :=
  fun i => nodeAt l H G U b (i 0) (i 1)

/-- The edge update with its three weight blocks and its bias row given as separate arrays. -/
def mlp3At {M : ℕ} (A B E : Arr2 M 128) (w1 w2 w3 : Arr2 128 128) (bias : Arr2 1 128) (r : Fin M) (c : Fin 128) : EReal :=
  max ((((∑ k : Fin 128, A (ix2 r k) * w1 (ix2 k c)) + ∑ k : Fin 128, B (ix2 r k) * w2 (ix2 k c))
        + ∑ k : Fin 128, E (ix2 r k) * w3 (ix2 k c)) + bias (ix2 0 c)) zero32

/-- The same as a whole array. -/
def mlp3 {M : ℕ} (A B E : Arr2 M 128) (w1 w2 w3 : Arr2 128 128) (bias : Arr2 1 128) : Arr2 M 128 :=
  fun i => mlp3At A B E w1 w2 w3 bias (i 0) (i 1)

/-- The node update with its two weight blocks and its bias row given as separate arrays. -/
def mlp2At {M : ℕ} (H G : Arr2 M 128) (w1 w2 : Arr2 128 128) (bias : Arr2 1 128) (r : Fin M) (c : Fin 128) : EReal :=
  max (((∑ k : Fin 128, H (ix2 r k) * w1 (ix2 k c)) + ∑ k : Fin 128, G (ix2 r k) * w2 (ix2 k c)) + bias (ix2 0 c)) zero32

/-- The same as a whole array. -/
def mlp2 {M : ℕ} (H G : Arr2 M 128) (w1 w2 : Arr2 128 128) (bias : Arr2 1 128) : Arr2 M 128 :=
  fun i => mlp2At H G w1 w2 bias (i 0) (i 1)

/-- With the separate blocks read out of layer l's weight and bias, the two forms of the edge update agree. -/
theorem mlp3_eq_edgeL {M : ℕ} (l : Fin 3) (A B E : Arr2 M 128) (W : Arr3 3 384 128) (b : Arr2 3 128)
    (w1 w2 w3 : Arr2 128 128) (bias : Arr2 1 128)
    (h1 : ∀ k c, w1 (ix2 k c) = W (ix3 l (k384 0 (by omega) k) c))
    (h2 : ∀ k c, w2 (ix2 k c) = W (ix3 l (k384 128 (by omega) k) c))
    (h3 : ∀ k c, w3 (ix2 k c) = W (ix3 l (k384 256 (by omega) k) c))
    (hb : ∀ c, bias (ix2 0 c) = b (ix2 l c)) :
    mlp3 A B E w1 w2 w3 bias = edgeL l A B E W b := by
  funext i
  obtain ⟨r, c, rfl⟩ : ∃ (r : Fin M) (c : Fin 128), i = ix2 r c := ⟨i 0, i 1, eq_ix2 i⟩
  show mlp3At A B E w1 w2 w3 bias r c = edgeAt l A B E W b r c
  simp only [mlp3At, edgeAt, h1, h2, h3, hb]

/-- With the separate blocks read out of layer l's weight and bias, the two forms of the node update agree. -/
theorem mlp2_eq_nodeL {M : ℕ} (l : Fin 3) (H G : Arr2 M 128) (U : Arr3 3 256 128) (b : Arr2 3 128)
    (w1 w2 : Arr2 128 128) (bias : Arr2 1 128)
    (h1 : ∀ k c, w1 (ix2 k c) = U (ix3 l (k256 0 (by omega) k) c))
    (h2 : ∀ k c, w2 (ix2 k c) = U (ix3 l (k256 128 (by omega) k) c))
    (hb : ∀ c, bias (ix2 0 c) = b (ix2 l c)) :
    mlp2 H G w1 w2 bias = nodeL l H G U b := by
  funext i
  obtain ⟨r, c, rfl⟩ : ∃ (r : Fin M) (c : Fin 128), i = ix2 r c := ⟨i 0, i 1, eq_ix2 i⟩
  show mlp2At H G w1 w2 bias r c = nodeAt l H G U b r c
  simp only [mlp2At, nodeAt, h1, h2, hb]

end Cert.GnSpec

end
-- ==== Proof.Slices.lean ====
/-
  A layer's weight block and bias row, cut out of the stacked weights, read at an entry.

  The host cuts a [1, 128, 128] piece out of a stack [3, n, 128] at (l, o, 0) and reshapes it to [128, 128]: entry
  (k, q) of the result is entry (l, o + k, q) of the stack.  It cuts a [1, 128] piece out of a [3, 128] stack of bias
  rows at (l, 0) and reshapes it to [128] and back to [1, 128]: entry (0, q) of the result is entry (l, q) of the stack.
-/
import Idealize.ShloMosaic.Lib.Pipeline.Value
import Idealize.ShloMosaic.Lib.ValueIdx

noncomputable section

namespace Cert.GnSlices

open Idealize.ShloMosaic Idealize.ShloMosaic.ValueIdx

variable {α : Type}

/-- A weight block cut out of the stack and reshaped to a matrix, at (k, q). -/
theorem wslice {n : ℕ} (X : (⟨3, ![3, n, 128]⟩ : Shape).Idx → α) (off : Fin 3 → ℕ)
    (h : (⟨3, ![3, n, 128]⟩ : Shape).Slices off ⟨3, ![1, 128, 128]⟩)
    (h2 : (⟨3, ![1, 128, 128]⟩ : Shape).ShapeCasts ⟨2, ![128, 128]⟩)
    (l : Fin 3) (o : ℕ) (e0 : off 0 = l.val) (e1 : off 1 = o) (e2 : off 2 = 0) (k q : Fin 128) (r : Fin n) (hr : r.val = o + k.val) :
    shapeCast ⟨2, ![128, 128]⟩ (extractStridedSlice ⟨3, ![1, 128, 128]⟩ off X h) h2 (ix2 k q) = X (ix3 l r q) := by
  rw [shapeCast_apply _ h2 (ix2 k q) (ix3 (0 : Fin 1) k q) (by
    rewrite [Shape.rowMajor_val_three, Shape.rowMajor_val_two]
    show (0 * 128 + k.val) * 128 + q.val = k.val * 128 + q.val
    omega)]
  exact extractStridedSlice_apply off X h (ix3 (0 : Fin 1) k q) (ix3 l r q) (fun a => by
    match a with
    | ⟨0, _⟩ => show l.val = off 0 + 0; omega
    | ⟨1, _⟩ => show r.val = off 1 + k.val; omega
    | ⟨2, _⟩ => show q.val = off 2 + q.val; omega)

/-- A bias row cut out of the stack, flattened and made a row again, at (0, q). -/
theorem bslice (X : (⟨2, ![3, 128]⟩ : Shape).Idx → α) (off : Fin 2 → ℕ)
    (h : (⟨2, ![3, 128]⟩ : Shape).Slices off ⟨2, ![1, 128]⟩)
    (h1 : (⟨2, ![1, 128]⟩ : Shape).ShapeCasts ⟨1, ![128]⟩) (h2 : (⟨1, ![128]⟩ : Shape).ShapeCasts ⟨2, ![1, 128]⟩)
    (l : Fin 3) (e0 : off 0 = l.val) (e1 : off 1 = 0) (q : Fin 128) :
    shapeCast ⟨2, ![1, 128]⟩ (shapeCast ⟨1, ![128]⟩ (extractStridedSlice ⟨2, ![1, 128]⟩ off X h) h1) h2 (ix2 (0 : Fin 1) q) = X (ix2 l q) := by
  rw [shapeCast_shapeCast]
  exact extractStridedSlice_apply off X h (ix2 (0 : Fin 1) q) (ix2 l q) (fun a => by
    match a with
    | ⟨0, _⟩ => show l.val = off 0 + 0; omega
    | ⟨1, _⟩ => show q.val = off 1 + q.val; omega)

end Cert.GnSlices

end
-- ==== Proof.Keep.lean ====
/-
  Buffers that a stretch of host operations or a pipelined call does not write keep their contents.

  Every argument buffer is written by no host operation and by no call, so at every boundary between segments it
  holds its launch contents.  A result of one call that a LATER call reads (the narrowed node states, the narrowed
  edge states) passes unchanged through the host stretches and the calls in between.
-/
import proofs.«122216_j7713761264053_2_alg».proof.Proof.Gen.KernelIdeal.Frame

set_option maxRecDepth 16384

noncomputable section

namespace Cert.KernelIdeal.Keep

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-! ## Through a host stretch -/

theorem keep0_main_arg3 (W : Valuation τ sig (Elt F)) :
    StableHlo.after (hostOps0 (F := F)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg3 (W : Valuation τ sig (Elt F)) :
    StableHlo.after (hostOps1 (F := F)) W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_main_arg3 (W : Valuation τ sig (Elt F)) :
    StableHlo.after (hostOps2 (F := F)) W (Proc.devRef .tc main_arg3) = W (Proc.devRef .tc main_arg3) :=
  StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg3 (W : Valuation τ sig (Elt F)) :
    StableHlo.after (hostOps3 (F := F)) W (Proc.devRef .tc main_arg3) = W (Proc.devRef .tc main_arg3) :=
  StableHlo.after_of_forall_not_mem (b := Proc.devRef .tc main_arg3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_main_arg3 (W : Valuation τ sig (Elt F)) :
    StableHlo.after (hostOps4 (F := F)) W (Proc.devRef .tc main_arg3) = W (Proc.devRef .tc main_arg3) :=
  StableHlo.after_of_forall_not_mem (b := Proc.devRef .tc main_arg3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg10 (W : Valuation τ sig (Elt F)) :
    StableHlo.after (hostOps0 (F := F)) W (Proc.devRef .tc main_arg10) = W (Proc.devRef .tc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg10 (W : Valuation τ sig (Elt F)) :
    StableHlo.after (hostOps1 (F := F)) W (Proc.devRef .tc main_arg10) = W (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_main_arg10 (W : Valuation τ sig (Elt F)) :
    StableHlo.after (hostOps2 (F := F)) W (Proc.devRef .tc main_arg10) = W (Proc.devRef .tc main_arg10) :=
  StableHlo.after_of_forall_not_mem (b := Proc.devRef .tc main_arg10) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg10 (W : Valuation τ sig (Elt F)) :
    StableHlo.after (hostOps3 (F := F)) W (Proc.devRef .tc main_arg10) = W (Proc.devRef .tc main_arg10) :=
  StableHlo.after_of_forall_not_mem (b := Proc.devRef .tc main_arg10) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_main_arg10 (W : Valuation τ sig (Elt F)) :
    StableHlo.after (hostOps4 (F := F)) W (Proc.devRef .tc main_arg10) = W (Proc.devRef .tc main_arg10) :=
  StableHlo.after_of_forall_not_mem (b := Proc.devRef .tc main_arg10) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg11 (W : Valuation τ sig (Elt F)) :
    StableHlo.after (hostOps0 (F := F)) W (Proc.devRef .tc main_arg11) = W (Proc.devRef .tc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg11 (W : Valuation τ sig (Elt F)) :
    StableHlo.after (hostOps1 (F := F)) W (Proc.devRef .tc main_arg11) = W (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_main_arg11 (W : Valuation τ sig (Elt F)) :
    StableHlo.after (hostOps2 (F := F)) W (Proc.devRef .tc main_arg11) = W (Proc.devRef .tc main_arg11) :=
  StableHlo.after_of_forall_not_mem (b := Proc.devRef .tc main_arg11) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg11 (W : Valuation τ sig (Elt F)) :
    StableHlo.after (hostOps3 (F := F)) W (Proc.devRef .tc main_arg11) = W (Proc.devRef .tc main_arg11) :=
  StableHlo.after_of_forall_not_mem (b := Proc.devRef .tc main_arg11) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_main_arg11 (W : Valuation τ sig (Elt F)) :
    StableHlo.after (hostOps4 (F := F)) W (Proc.devRef .tc main_arg11) = W (Proc.devRef .tc main_arg11) :=
  StableHlo.after_of_forall_not_mem (b := Proc.devRef .tc main_arg11) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg2 (W : Valuation τ sig (Elt F)) :
    StableHlo.after (hostOps0 (F := F)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg2 (W : Valuation τ sig (Elt F)) :
    StableHlo.after (hostOps1 (F := F)) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_main_arg2 (W : Valuation τ sig (Elt F)) :
    StableHlo.after (hostOps2 (F := F)) W (Proc.devRef .tc main_arg2) = W (Proc.devRef .tc main_arg2) :=
  StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg2 (W : Valuation τ sig (Elt F)) :
    StableHlo.after (hostOps3 (F := F)) W (Proc.devRef .tc main_arg2) = W (Proc.devRef .tc main_arg2) :=
  StableHlo.after_of_forall_not_mem (b := Proc.devRef .tc main_arg2) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg8 (W : Valuation τ sig (Elt F)) :
    StableHlo.after (hostOps0 (F := F)) W (Proc.devRef .tc main_arg8) = W (Proc.devRef .tc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg8 (W : Valuation τ sig (Elt F)) :
    StableHlo.after (hostOps1 (F := F)) W (Proc.devRef .tc main_arg8) = W (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_main_arg8 (W : Valuation τ sig (Elt F)) :
    StableHlo.after (hostOps2 (F := F)) W (Proc.devRef .tc main_arg8) = W (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg8 (W : Valuation τ sig (Elt F)) :
    StableHlo.after (hostOps3 (F := F)) W (Proc.devRef .tc main_arg8) = W (Proc.devRef .tc main_arg8) :=
  StableHlo.after_of_forall_not_mem (b := Proc.devRef .tc main_arg8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep0_main_arg9 (W : Valuation τ sig (Elt F)) :
    StableHlo.after (hostOps0 (F := F)) W (Proc.devRef .tc main_arg9) = W (Proc.devRef .tc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_arg9 (W : Valuation τ sig (Elt F)) :
    StableHlo.after (hostOps1 (F := F)) W (Proc.devRef .tc main_arg9) = W (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_main_arg9 (W : Valuation τ sig (Elt F)) :
    StableHlo.after (hostOps2 (F := F)) W (Proc.devRef .tc main_arg9) = W (Proc.devRef .tc main_arg9) :=
  StableHlo.after_of_forall_not_mem (b := Proc.devRef .tc main_arg9) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_arg9 (W : Valuation τ sig (Elt F)) :
    StableHlo.after (hostOps3 (F := F)) W (Proc.devRef .tc main_arg9) = W (Proc.devRef .tc main_arg9) :=
  StableHlo.after_of_forall_not_mem (b := Proc.devRef .tc main_arg9) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v9 (W : Valuation τ sig (Elt F)) :
    StableHlo.after (hostOps1 (F := F)) W (Proc.devRef .tc main_v9) = W (Proc.devRef .tc main_v9) :=
  StableHlo.after_of_forall_not_mem (b := Proc.devRef .tc main_v9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep1_main_v36_1 (W : Valuation τ sig (Elt F)) :
    StableHlo.after (hostOps1 (F := F)) W (Proc.devRef .tc main_v36_1) = W (Proc.devRef .tc main_v36_1) :=
  StableHlo.after_of_forall_not_mem (b := Proc.devRef .tc main_v36_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep2_main_v36_1 (W : Valuation τ sig (Elt F)) :
    StableHlo.after (hostOps2 (F := F)) W (Proc.devRef .tc main_v36_1) = W (Proc.devRef .tc main_v36_1) :=
  StableHlo.after_of_forall_not_mem (b := Proc.devRef .tc main_v36_1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_v50 (W : Valuation τ sig (Elt F)) :
    StableHlo.after (hostOps3 (F := F)) W (Proc.devRef .tc main_v50) = W (Proc.devRef .tc main_v50) :=
  StableHlo.after_of_forall_not_mem (b := Proc.devRef .tc main_v50) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep3_main_v77_1 (W : Valuation τ sig (Elt F)) :
    StableHlo.after (hostOps3 (F := F)) W (Proc.devRef .tc main_v77_1) = W (Proc.devRef .tc main_v77_1) :=
  StableHlo.after_of_forall_not_mem (b := Proc.devRef .tc main_v77_1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep4_main_v77_1 (W : Valuation τ sig (Elt F)) :
    StableHlo.after (hostOps4 (F := F)) W (Proc.devRef .tc main_v77_1) = W (Proc.devRef .tc main_v77_1) :=
  StableHlo.after_of_forall_not_mem (b := Proc.devRef .tc main_v77_1) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_main_v91 (W : Valuation τ sig (Elt F)) :
    StableHlo.after (hostOps5 (F := F)) W (Proc.devRef .tc main_v91) = W (Proc.devRef .tc main_v91) :=
  StableHlo.after_of_forall_not_mem (b := Proc.devRef .tc main_v91) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep5_main_v118_0 (W : Valuation τ sig (Elt F)) :
    StableHlo.after (hostOps5 (F := F)) W (Proc.devRef .tc main_v118_0) = W (Proc.devRef .tc main_v118_0) :=
  StableHlo.after_of_forall_not_mem (b := Proc.devRef .tc main_v118_0) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The arguments at the even boundaries -/

theorem W0_main_arg3 (c : Dev nD) : W0 m ρ c (Proc.devRef .tc main_arg3) = m ((c : Thread nD τ).loc main_arg3) := rfl
theorem W2_main_arg3 (c : Dev nD) : W2 m ρ c (Proc.devRef .tc main_arg3) = m ((c : Thread nD τ).loc main_arg3) :=
  (W2_of_ne m ρ c main_arg3 (by decide)).trans ((keep0_main_arg3 (W0 m ρ c)).trans (W0_main_arg3 m ρ c))
theorem W4_main_arg3 (c : Dev nD) : W4 m ρ c (Proc.devRef .tc main_arg3) = m ((c : Thread nD τ).loc main_arg3) :=
  (W4_of_ne m ρ c main_arg3 (by decide)).trans ((keep1_main_arg3 (W2 m ρ c)).trans (W2_main_arg3 m ρ c))
theorem W6_main_arg3 (c : Dev nD) : W6 m ρ c (Proc.devRef .tc main_arg3) = m ((c : Thread nD τ).loc main_arg3) :=
  (W6_of_ne m ρ c main_arg3 (by decide)).trans ((keep2_main_arg3 (W4 m ρ c)).trans (W4_main_arg3 m ρ c))
theorem W8_main_arg3 (c : Dev nD) : W8 m ρ c (Proc.devRef .tc main_arg3) = m ((c : Thread nD τ).loc main_arg3) :=
  (W8_of_ne m ρ c main_arg3 (by decide)).trans ((keep3_main_arg3 (W6 m ρ c)).trans (W6_main_arg3 m ρ c))
theorem W10_main_arg3 (c : Dev nD) : W10 m ρ c (Proc.devRef .tc main_arg3) = m ((c : Thread nD τ).loc main_arg3) :=
  (W10_of_ne m ρ c main_arg3 (by decide)).trans ((keep4_main_arg3 (W8 m ρ c)).trans (W8_main_arg3 m ρ c))

theorem W0_main_arg10 (c : Dev nD) : W0 m ρ c (Proc.devRef .tc main_arg10) = m ((c : Thread nD τ).loc main_arg10) := rfl
theorem W2_main_arg10 (c : Dev nD) : W2 m ρ c (Proc.devRef .tc main_arg10) = m ((c : Thread nD τ).loc main_arg10) :=
  (W2_of_ne m ρ c main_arg10 (by decide)).trans ((keep0_main_arg10 (W0 m ρ c)).trans (W0_main_arg10 m ρ c))
theorem W4_main_arg10 (c : Dev nD) : W4 m ρ c (Proc.devRef .tc main_arg10) = m ((c : Thread nD τ).loc main_arg10) :=
  (W4_of_ne m ρ c main_arg10 (by decide)).trans ((keep1_main_arg10 (W2 m ρ c)).trans (W2_main_arg10 m ρ c))
theorem W6_main_arg10 (c : Dev nD) : W6 m ρ c (Proc.devRef .tc main_arg10) = m ((c : Thread nD τ).loc main_arg10) :=
  (W6_of_ne m ρ c main_arg10 (by decide)).trans ((keep2_main_arg10 (W4 m ρ c)).trans (W4_main_arg10 m ρ c))
theorem W8_main_arg10 (c : Dev nD) : W8 m ρ c (Proc.devRef .tc main_arg10) = m ((c : Thread nD τ).loc main_arg10) :=
  (W8_of_ne m ρ c main_arg10 (by decide)).trans ((keep3_main_arg10 (W6 m ρ c)).trans (W6_main_arg10 m ρ c))
theorem W10_main_arg10 (c : Dev nD) : W10 m ρ c (Proc.devRef .tc main_arg10) = m ((c : Thread nD τ).loc main_arg10) :=
  (W10_of_ne m ρ c main_arg10 (by decide)).trans ((keep4_main_arg10 (W8 m ρ c)).trans (W8_main_arg10 m ρ c))

theorem W0_main_arg11 (c : Dev nD) : W0 m ρ c (Proc.devRef .tc main_arg11) = m ((c : Thread nD τ).loc main_arg11) := rfl
theorem W2_main_arg11 (c : Dev nD) : W2 m ρ c (Proc.devRef .tc main_arg11) = m ((c : Thread nD τ).loc main_arg11) :=
  (W2_of_ne m ρ c main_arg11 (by decide)).trans ((keep0_main_arg11 (W0 m ρ c)).trans (W0_main_arg11 m ρ c))
theorem W4_main_arg11 (c : Dev nD) : W4 m ρ c (Proc.devRef .tc main_arg11) = m ((c : Thread nD τ).loc main_arg11) :=
  (W4_of_ne m ρ c main_arg11 (by decide)).trans ((keep1_main_arg11 (W2 m ρ c)).trans (W2_main_arg11 m ρ c))
theorem W6_main_arg11 (c : Dev nD) : W6 m ρ c (Proc.devRef .tc main_arg11) = m ((c : Thread nD τ).loc main_arg11) :=
  (W6_of_ne m ρ c main_arg11 (by decide)).trans ((keep2_main_arg11 (W4 m ρ c)).trans (W4_main_arg11 m ρ c))
theorem W8_main_arg11 (c : Dev nD) : W8 m ρ c (Proc.devRef .tc main_arg11) = m ((c : Thread nD τ).loc main_arg11) :=
  (W8_of_ne m ρ c main_arg11 (by decide)).trans ((keep3_main_arg11 (W6 m ρ c)).trans (W6_main_arg11 m ρ c))
theorem W10_main_arg11 (c : Dev nD) : W10 m ρ c (Proc.devRef .tc main_arg11) = m ((c : Thread nD τ).loc main_arg11) :=
  (W10_of_ne m ρ c main_arg11 (by decide)).trans ((keep4_main_arg11 (W8 m ρ c)).trans (W8_main_arg11 m ρ c))

theorem W0_main_arg2 (c : Dev nD) : W0 m ρ c (Proc.devRef .tc main_arg2) = m ((c : Thread nD τ).loc main_arg2) := rfl
theorem W2_main_arg2 (c : Dev nD) : W2 m ρ c (Proc.devRef .tc main_arg2) = m ((c : Thread nD τ).loc main_arg2) :=
  (W2_of_ne m ρ c main_arg2 (by decide)).trans ((keep0_main_arg2 (W0 m ρ c)).trans (W0_main_arg2 m ρ c))
theorem W4_main_arg2 (c : Dev nD) : W4 m ρ c (Proc.devRef .tc main_arg2) = m ((c : Thread nD τ).loc main_arg2) :=
  (W4_of_ne m ρ c main_arg2 (by decide)).trans ((keep1_main_arg2 (W2 m ρ c)).trans (W2_main_arg2 m ρ c))
theorem W6_main_arg2 (c : Dev nD) : W6 m ρ c (Proc.devRef .tc main_arg2) = m ((c : Thread nD τ).loc main_arg2) :=
  (W6_of_ne m ρ c main_arg2 (by decide)).trans ((keep2_main_arg2 (W4 m ρ c)).trans (W4_main_arg2 m ρ c))
theorem W8_main_arg2 (c : Dev nD) : W8 m ρ c (Proc.devRef .tc main_arg2) = m ((c : Thread nD τ).loc main_arg2) :=
  (W8_of_ne m ρ c main_arg2 (by decide)).trans ((keep3_main_arg2 (W6 m ρ c)).trans (W6_main_arg2 m ρ c))

theorem W0_main_arg8 (c : Dev nD) : W0 m ρ c (Proc.devRef .tc main_arg8) = m ((c : Thread nD τ).loc main_arg8) := rfl
theorem W2_main_arg8 (c : Dev nD) : W2 m ρ c (Proc.devRef .tc main_arg8) = m ((c : Thread nD τ).loc main_arg8) :=
  (W2_of_ne m ρ c main_arg8 (by decide)).trans ((keep0_main_arg8 (W0 m ρ c)).trans (W0_main_arg8 m ρ c))
theorem W4_main_arg8 (c : Dev nD) : W4 m ρ c (Proc.devRef .tc main_arg8) = m ((c : Thread nD τ).loc main_arg8) :=
  (W4_of_ne m ρ c main_arg8 (by decide)).trans ((keep1_main_arg8 (W2 m ρ c)).trans (W2_main_arg8 m ρ c))
theorem W6_main_arg8 (c : Dev nD) : W6 m ρ c (Proc.devRef .tc main_arg8) = m ((c : Thread nD τ).loc main_arg8) :=
  (W6_of_ne m ρ c main_arg8 (by decide)).trans ((keep2_main_arg8 (W4 m ρ c)).trans (W4_main_arg8 m ρ c))
theorem W8_main_arg8 (c : Dev nD) : W8 m ρ c (Proc.devRef .tc main_arg8) = m ((c : Thread nD τ).loc main_arg8) :=
  (W8_of_ne m ρ c main_arg8 (by decide)).trans ((keep3_main_arg8 (W6 m ρ c)).trans (W6_main_arg8 m ρ c))

theorem W0_main_arg9 (c : Dev nD) : W0 m ρ c (Proc.devRef .tc main_arg9) = m ((c : Thread nD τ).loc main_arg9) := rfl
theorem W2_main_arg9 (c : Dev nD) : W2 m ρ c (Proc.devRef .tc main_arg9) = m ((c : Thread nD τ).loc main_arg9) :=
  (W2_of_ne m ρ c main_arg9 (by decide)).trans ((keep0_main_arg9 (W0 m ρ c)).trans (W0_main_arg9 m ρ c))
theorem W4_main_arg9 (c : Dev nD) : W4 m ρ c (Proc.devRef .tc main_arg9) = m ((c : Thread nD τ).loc main_arg9) :=
  (W4_of_ne m ρ c main_arg9 (by decide)).trans ((keep1_main_arg9 (W2 m ρ c)).trans (W2_main_arg9 m ρ c))
theorem W6_main_arg9 (c : Dev nD) : W6 m ρ c (Proc.devRef .tc main_arg9) = m ((c : Thread nD τ).loc main_arg9) :=
  (W6_of_ne m ρ c main_arg9 (by decide)).trans ((keep2_main_arg9 (W4 m ρ c)).trans (W4_main_arg9 m ρ c))
theorem W8_main_arg9 (c : Dev nD) : W8 m ρ c (Proc.devRef .tc main_arg9) = m ((c : Thread nD τ).loc main_arg9) :=
  (W8_of_ne m ρ c main_arg9 (by decide)).trans ((keep3_main_arg9 (W6 m ρ c)).trans (W6_main_arg9 m ρ c))

/-! ## Results of one call read by a later call -/

/-- The narrowed initial node states reach the first node call. -/
theorem W3_main_v9 (c : Dev nD) : W3 m ρ c (Proc.devRef .tc main_v9) = W1 m ρ c (Proc.devRef .tc main_v9) :=
  (keep1_main_v9 (W2 m ρ c)).trans (W2_of_ne m ρ c main_v9 (by decide))
/-- The narrowed edge states of the first edge call reach the second edge call. -/
theorem W5_main_v36_1 (c : Dev nD) : W5 m ρ c (Proc.devRef .tc main_v36_1) = W2 m ρ c (Proc.devRef .tc main_v36_1) :=
  (keep2_main_v36_1 (W4 m ρ c)).trans ((W4_of_ne m ρ c main_v36_1 (by decide)).trans (keep1_main_v36_1 (W2 m ρ c)))
/-- The narrowed node states of the first node call reach the second node call. -/
theorem W7_main_v50 (c : Dev nD) : W7 m ρ c (Proc.devRef .tc main_v50) = W5 m ρ c (Proc.devRef .tc main_v50) :=
  (keep3_main_v50 (W6 m ρ c)).trans (W6_of_ne m ρ c main_v50 (by decide))
/-- The narrowed edge states of the second edge call reach the third edge call. -/
theorem W9_main_v77_1 (c : Dev nD) : W9 m ρ c (Proc.devRef .tc main_v77_1) = W6 m ρ c (Proc.devRef .tc main_v77_1) :=
  (keep4_main_v77_1 (W8 m ρ c)).trans ((W8_of_ne m ρ c main_v77_1 (by decide)).trans (keep3_main_v77_1 (W6 m ρ c)))
/-- The narrowed node states of the second node call reach the third node call. -/
theorem W11_main_v91 (c : Dev nD) : W11 m ρ c (Proc.devRef .tc main_v91) = W9 m ρ c (Proc.devRef .tc main_v91) :=
  (keep5_main_v91 (W10 m ρ c)).trans (W10_of_ne m ρ c main_v91 (by decide))
/-- The edge states of the third edge call are the program's second result. -/
theorem W12_main_v118_0 (c : Dev nD) : W12 m ρ c (Proc.devRef .tc main_v118_0) = W10 m ρ c (Proc.devRef .tc main_v118_0) :=
  (W12_of_ne m ρ c main_v118_0 (by decide)).trans (keep5_main_v118_0 (W10 m ρ c))

end Cert.KernelIdeal.Keep

end
-- ==== Proof.LibPlainDot.lean ====
/-
  A plain matrix product on the extended reals, read at an entry.

  For dimension numbers that contract the left operand's second axis with the right operand's first and have no
  batch axis, the product of an [M, K] and a [K, N] matrix into the zero accumulator has, at row r and column c,
  the entry  sum over k < K of  lhs (r, k) * rhs (k, c).  The contraction position of the dimension numbers is a
  one-coordinate index; the sum over it is re-indexed through the bijection with that coordinate.  The two facts
  about the non-contracted coordinates (the left index keeps the row, the right index keeps the column) depend on
  the particular dimension numbers and are taken as hypotheses: for literal dimension numbers each is decided by
  unfolding the index map once.
-/
import Idealize.ShloMosaic.Lib.ValueIdx
import Idealize.ShloMosaic.PureOps.Ideal.Laws

noncomputable section

namespace Cert.LibPlainDot

open Idealize.ShloMosaic Idealize.ShloMosaic.ValueIdx

variable {M K N : ℕ} {φ₁ φ₂ : FTy}

/-- The sum over the one-coordinate contraction position is the sum over that coordinate, with the operands read at
    (row, k) and (k, column). -/
theorem contr_sum_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (lhs : FVec Ideal ⟨2, ![M, K]⟩ φ₁) (rhs : FVec Ideal ⟨2, ![K, N]⟩ φ₂) (r : Fin M) (c : Fin N) :
    (∑ q : d.contr.Idx, lhs (d.lhsIdx (ix2 r c) q) * rhs (d.rhsIdx (ix2 r c) q))
      = ∑ k : Fin K, lhs (ix2 r k) * rhs (ix2 k c) := by
  rw [← Equiv.sum_comp (contrEquiv1 d K hr hs).symm]
  refine Finset.sum_congr rfl fun k _ => ?_
  have hk := contrEquiv1_symm_val d K hr hs k
  have el : d.lhsIdx (ix2 r c) ((contrEquiv1 d K hr hs).symm k) = ix2 r k := funext fun a => Fin.ext (by
    match a with
    | ⟨0, _⟩ => exact hl0 _ _
    | ⟨1, _⟩ => exact (d.lhsIdx_val_of_single hlc _ _).trans hk)
  have er : d.rhsIdx (ix2 r c) ((contrEquiv1 d K hr hs).symm k) = ix2 k c := funext fun a => Fin.ext (by
    match a with
    | ⟨0, _⟩ => exact (d.rhsIdx_val_of_single hrc _ _).trans hk
    | ⟨1, _⟩ => exact hr1 _ _)
  rw [el, er]

/-- A matrix product into the zero accumulator, at (r, c), is the sum over k of lhs (r, k) * rhs (k, c). -/
theorem matmul_zero_ix2 (d : DotDims (⟨2, ![M, K]⟩ : Shape) ⟨2, ![K, N]⟩ ⟨2, ![M, N]⟩)
    (hr : d.contr.rank = 1) (hs : d.contr.size ⟨0, by omega⟩ = K)
    (hlc : d.lhsContracting = [(1 : Fin 2)]) (hrc : d.rhsContracting = [(0 : Fin 2)])
    (hl0 : ∀ (j : (⟨2, ![M, N]⟩ : Shape).Idx) (q : d.contr.Idx), (d.lhsIdx j q (0 : Fin 2)).val = (j (0 : Fin 2)).val)
    (hr1 : ∀ (j : (⟨2, ![M, N]⟩ : Shape).Idx) (q : d.contr.Idx), (d.rhsIdx j q (1 : Fin 2)).val = (j (1 : Fin 2)).val)
    (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) :=
  (Ideal.matmul_constant_zero_apply d prec lhs rhs (ix2 r c)).trans
    (contr_sum_ix2 d hr hs hlc hrc hl0 hr1 lhs rhs r c)

end Cert.LibPlainDot

end
-- ==== Proof.Payload.lean ====
/-
  The two kernel bodies, read at an entry, on the extended reals.

  The edge body multiplies three [8000, 128] blocks by three [128, 128] weight blocks into zero accumulators, adds the
  three products, adds the bias row to every row and takes the maximum with zero.  Entry (p, q) of the result is therefore
      max (Σₖ a(p,k)·w₁(k,q) + Σₖ b(p,k)·w₂(k,q) + Σₖ e(p,k)·w₃(k,q) + bias(0,q), 0),
  an entry that depends on row p of the three row blocks only.  The node body is the same with two products over
  [2000, 128] blocks.  A change of float format is the identity on the extended reals, so the narrowed copy of the edge
  result is the same array.
-/
import proofs.«122216_j7713761264053_2_alg».proof.Proof.Gen.KernelIdeal.Skeleton
import proofs.«122216_j7713761264053_2_alg».proof.Proof.Spec
import proofs.«122216_j7713761264053_2_alg».proof.Proof.LibPlainDot
import Idealize.ShloMosaic.Lib.Pipeline.Value
import Idealize.ShloMosaic.Lib.ValueLayout
import Idealize.ShloMosaic.Lib.ValueIdx

noncomputable section

namespace Cert.KernelIdeal.Pay

open Idealize.ShloMosaic Idealize.ShloMosaic.ValueIdx Cert.KernelIdeal Cert.KernelIdeal.Gen Cert.GnSpec

/-- The edge product keeps the row of its left operand. -/
theorem dotE_l0 (j : S8000x128.Idx) (q : dot_S8000x128_S128x128_S8000x128_1_0_0_1_n_n.contr.Idx) :
    (dot_S8000x128_S128x128_S8000x128_1_0_0_1_n_n.lhsIdx j q 0).val = (j 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- The edge product keeps the column of its right operand. -/
theorem dotE_r1 (j : S8000x128.Idx) (q : dot_S8000x128_S128x128_S8000x128_1_0_0_1_n_n.contr.Idx) :
    (dot_S8000x128_S128x128_S8000x128_1_0_0_1_n_n.rhsIdx j q 1).val = (j 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl
/-- The node product keeps the row of its left operand. -/
theorem dotN_l0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The node product keeps the column of its right operand. -/
theorem dotN_r1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One edge product into the zero accumulator, at (p, q). -/
theorem mmE (x : FVec Ideal S8000x128 .bf16) (w : FVec Ideal S128x128 .bf16) (p : Fin 8000) (q : Fin 128) :
    matmul (F := Ideal) (φ₁ := .bf16) (φ₂ := .bf16) dot_S8000x128_S128x128_S8000x128_1_0_0_1_n_n none x w (constant S8000x128 .f32 0x00000000#32) (ix2 p q)
      = ∑ k : Fin 128, x (ix2 p k) * w (ix2 k q) :=
  Cert.LibPlainDot.matmul_zero_ix2 dot_S8000x128_S128x128_S8000x128_1_0_0_1_n_n rfl rfl rfl rfl dotE_l0 dotE_r1 none x w p q

/-- One node product into the zero accumulator, at (p, q). -/
theorem mmN (x : FVec Ideal S2000x128 .bf16) (w : FVec Ideal S128x128 .bf16) (p : Fin 2000) (q : Fin 128) :
    matmul (F := Ideal) (φ₁ := .bf16) (φ₂ := .bf16) dot_S2000x128_S128x128_S2000x128_1_0_0_1_n_n none x w (constant S2000x128 .f32 0x00000000#32) (ix2 p q)
      = ∑ k : Fin 128, x (ix2 p k) * w (ix2 k q) :=
  Cert.LibPlainDot.matmul_zero_ix2 dot_S2000x128_S128x128_S2000x128_1_0_0_1_n_n rfl rfl rfl rfl dotN_l0 dotN_r1 none x w p q

/-- The bias row spread over 8000 rows, at (p, q). -/
theorem biasE (b : Vec Ideal S1x128 .f32) (p : Fin 8000) (q : Fin 128) :
    broadcastTo S8000x128 b broadcasts_S1x128_S8000x128 (ix2 p q) = b (ix2 0 q) :=
  broadcastTo_1b_ab_apply b broadcasts_S1x128_S8000x128 p q

/-- The bias row spread over 2000 rows, at (p, q). -/
theorem biasN (b : Vec Ideal S1x128 .f32) (p : Fin 2000) (q : Fin 128) :
    broadcastTo S2000x128 b broadcasts_S1x128_S2000x128 (ix2 p q) = b (ix2 0 q) :=
  broadcastTo_1b_ab_apply b broadcasts_S1x128_S2000x128 p q

/-- The edge body at (p, q). -/
theorem edge_pay (v0 v2 v4 : Vec Ideal S8000x128 .bf16) (v6 v8 v10 : Vec Ideal S128x128 .bf16) (v12 : Vec Ideal S1x128 .f32)
    (p : Fin 8000) (q : Fin 128) :
    k0_pay1 (F := Ideal) v0 v2 v4 v6 v8 v10 v12 (ix2 p q) = mlp3At v0 v2 v4 v6 v8 v10 v12 p q := by
  unfold k0_pay1
  simp only [shapeCast_self]
  show max ((((matmul (F := Ideal) dot_S8000x128_S128x128_S8000x128_1_0_0_1_n_n none v0 v6 (constant S8000x128 .f32 0x00000000#32) (ix2 p q))
      + (matmul (F := Ideal) dot_S8000x128_S128x128_S8000x128_1_0_0_1_n_n none v2 v8 (constant S8000x128 .f32 0x00000000#32) (ix2 p q)))
      + (matmul (F := Ideal) dot_S8000x128_S128x128_S8000x128_1_0_0_1_n_n none v4 v10 (constant S8000x128 .f32 0x00000000#32) (ix2 p q)))
      + broadcastTo S8000x128 v12 broadcasts_S1x128_S8000x128 (ix2 p q)) zero32 = _
  rw [mmE, mmE, mmE, biasE]
  rfl

/-- The node body at (p, q). -/
theorem node_pay (v0 : Vec Ideal S2000x128 .bf16) (v2 : Vec Ideal S2000x128 .f32) (v5 v7 : Vec Ideal S128x128 .bf16) (v9 : Vec Ideal S1x128 .f32)
    (p : Fin 2000) (q : Fin 128) :
    k1_pay1 (F := Ideal) v0 v2 v5 v7 v9 (ix2 p q) = mlp2At v0 v2 v5 v7 v9 p q := by
  unfold k1_pay1
  simp only [shapeCast_self]
  show max (((matmul (F := Ideal) dot_S2000x128_S128x128_S2000x128_1_0_0_1_n_n none v0 v5 (constant S2000x128 .f32 0x00000000#32) (ix2 p q))
      + (matmul (F := Ideal) dot_S2000x128_S128x128_S2000x128_1_0_0_1_n_n none (truncf .bf16 v2 bitsLt_bf16_f32) v7 (constant S2000x128 .f32 0x00000000#32) (ix2 p q)))
      + broadcastTo S2000x128 v9 broadcasts_S1x128_S2000x128 (ix2 p q)) zero32 = _
  rw [mmN, mmN, biasN]
  rfl

/-- The three edge bodies are one function, and so are the three node bodies. -/
theorem k2_pay1_eq (v0 v2 v4 : Vec Ideal S8000x128 .bf16) (v6 v8 v10 : Vec Ideal S128x128 .bf16) (v12 : Vec Ideal S1x128 .f32) : k2_pay1 (F := Ideal) v0 v2 v4 v6 v8 v10 v12 = k0_pay1 (F := Ideal) v0 v2 v4 v6 v8 v10 v12 := rfl
theorem k4_pay1_eq (v0 v2 v4 : Vec Ideal S8000x128 .bf16) (v6 v8 v10 : Vec Ideal S128x128 .bf16) (v12 : Vec Ideal S1x128 .f32) : k4_pay1 (F := Ideal) v0 v2 v4 v6 v8 v10 v12 = k0_pay1 (F := Ideal) v0 v2 v4 v6 v8 v10 v12 := rfl
theorem k3_pay1_eq (v0 : Vec Ideal S2000x128 .bf16) (v2 : Vec Ideal S2000x128 .f32) (v5 v7 : Vec Ideal S128x128 .bf16) (v9 : Vec Ideal S1x128 .f32) : k3_pay1 (F := Ideal) v0 v2 v5 v7 v9 = k1_pay1 (F := Ideal) v0 v2 v5 v7 v9 := rfl
theorem k5_pay1_eq (v0 : Vec Ideal S2000x128 .bf16) (v2 : Vec Ideal S2000x128 .f32) (v5 v7 : Vec Ideal S128x128 .bf16) (v9 : Vec Ideal S1x128 .f32) : k5_pay1 (F := Ideal) v0 v2 v5 v7 v9 = k1_pay1 (F := Ideal) v0 v2 v5 v7 v9 := rfl
/-- The narrowed copies of the edge results are the edge results. -/
theorem k0_pay2_eq (v0 v2 v4 : Vec Ideal S8000x128 .bf16) (v6 v8 v10 : Vec Ideal S128x128 .bf16) (v12 : Vec Ideal S1x128 .f32) : k0_pay2 (F := Ideal) v0 v2 v4 v6 v8 v10 v12 = k0_pay1 (F := Ideal) v0 v2 v4 v6 v8 v10 v12 := rfl
theorem k2_pay2_eq (v0 v2 v4 : Vec Ideal S8000x128 .bf16) (v6 v8 v10 : Vec Ideal S128x128 .bf16) (v12 : Vec Ideal S1x128 .f32) : k2_pay2 (F := Ideal) v0 v2 v4 v6 v8 v10 v12 = k2_pay1 (F := Ideal) v0 v2 v4 v6 v8 v10 v12 := rfl
theorem k4_pay2_eq (v0 v2 v4 : Vec Ideal S8000x128 .bf16) (v6 v8 v10 : Vec Ideal S128x128 .bf16) (v12 : Vec Ideal S1x128 .f32) : k4_pay2 (F := Ideal) v0 v2 v4 v6 v8 v10 v12 = k4_pay1 (F := Ideal) v0 v2 v4 v6 v8 v10 v12 := rfl

end Cert.KernelIdeal.Pay

end
-- ==== Proof.Reg0.lean ====
/-
  Pipelined edge call 0 of the program, as one function of the arrays it is entered with.

  The grid has 75 points; at point t the three row windows hold rows 8000·t … 8000·t + 7999 of their arrays, the three
  weight windows and the bias window hold their whole arrays, and the two output windows are written back to rows
  8000·t … of their arrays.  An entry of an output block depends on one row of the row blocks only, so the block
  written back at t is the block at t of the edge update of the WHOLE arrays; the 75 blocks cover the output.
-/
import proofs.«122216_j7713761264053_2_alg».proof.Proof.Gen.KernelIdeal.Frame
import proofs.«122216_j7713761264053_2_alg».proof.Proof.Payload

set_option maxRecDepth 16384

noncomputable section

namespace Cert.KernelIdeal.Reg0

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.GnSpec Cert.KernelIdeal.Pay

-- the TensorCore's buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is the point, every other window sits at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row 8000·t + p of a 600000-row array. -/
def rowOf (t : Fin 75) (p : Fin 8000) : Fin 600000 := ⟨8000 * t.val + p.val, by have := t.isLt; have := p.isLt; omega⟩

/-- Row window 0's block at point t holds rows 8000·t … of its array. -/
theorem read_row0 (c : Dev nD) (t : Fin cfg0.N) (p : Fin 8000) (k : Fin 128) :
    iblk0 V c 0 t (ix2 p k) = V c main_v16 (ix2 (rowOf t p) k) := by
  show V c main_v16 (((cfg0.win 0).blk t).view.emb (ix2 p k)) = _
  obtain ⟨e00, e01, e10, e11, e20, e21, -⟩ := idx_facts t
  refine congrArg _ (funext fun a => Fin.ext ?_)
  match a with
  | ⟨0, _⟩ => show win0_0.index t (0 : Fin 2) * 8000 + 1 * p.val = 8000 * t.val + p.val; omega
  | ⟨1, _⟩ => show win0_0.index t (1 : Fin 2) * 128 + 1 * k.val = k.val; omega

/-- Row window 1's block at point t holds rows 8000·t … of its array. -/
theorem read_row1 (c : Dev nD) (t : Fin cfg0.N) (p : Fin 8000) (k : Fin 128) :
    iblk0 V c 1 t (ix2 p k) = V c main_v23 (ix2 (rowOf t p) k) := by
  show V c main_v23 (((cfg0.win 1).blk t).view.emb (ix2 p k)) = _
  obtain ⟨e00, e01, e10, e11, e20, e21, -⟩ := idx_facts t
  refine congrArg _ (funext fun a => Fin.ext ?_)
  match a with
  | ⟨0, _⟩ => show win0_1.index t (0 : Fin 2) * 8000 + 1 * p.val = 8000 * t.val + p.val; omega
  | ⟨1, _⟩ => show win0_1.index t (1 : Fin 2) * 128 + 1 * k.val = k.val; omega

/-- Row window 2's block at point t holds rows 8000·t … of its array. -/
theorem read_row2 (c : Dev nD) (t : Fin cfg0.N) (p : Fin 8000) (k : Fin 128) :
    iblk0 V c 2 t (ix2 p k) = V c main_v8 (ix2 (rowOf t p) k) := by
  show V c main_v8 (((cfg0.win 2).blk t).view.emb (ix2 p k)) = _
  obtain ⟨e00, e01, e10, e11, e20, e21, -⟩ := idx_facts t
  refine congrArg _ (funext fun a => Fin.ext ?_)
  match a with
  | ⟨0, _⟩ => show win0_2.index t (0 : Fin 2) * 8000 + 1 * p.val = 8000 * t.val + p.val; omega
  | ⟨1, _⟩ => show win0_2.index t (1 : Fin 2) * 128 + 1 * k.val = k.val; omega

/-- Weight window 3's block is its whole array. -/
theorem read_w3 (c : Dev nD) (t : Fin cfg0.N) (k : Fin 128) (q : Fin 128) :
    iblk0 V c 3 t (ix2 k q) = V c main_v26 (ix2 k q) := by
  show V c main_v26 (((cfg0.win 3).blk t).view.emb (ix2 k q)) = _
  obtain ⟨-, -, -, -, -, -, e30, e31, e40, e41, e50, e51, -⟩ := idx_facts t
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Weight window 4's block is its whole array. -/
theorem read_w4 (c : Dev nD) (t : Fin cfg0.N) (k : Fin 128) (q : Fin 128) :
    iblk0 V c 4 t (ix2 k q) = V c main_v29 (ix2 k q) := by
  show V c main_v29 (((cfg0.win 4).blk t).view.emb (ix2 k q)) = _
  obtain ⟨-, -, -, -, -, -, e30, e31, e40, e41, e50, e51, -⟩ := idx_facts t
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- Weight window 5's block is its whole array. -/
theorem read_w5 (c : Dev nD) (t : Fin cfg0.N) (k : Fin 128) (q : Fin 128) :
    iblk0 V c 5 t (ix2 k q) = V c main_v32 (ix2 k q) := by
  show V c main_v32 (((cfg0.win 5).blk t).view.emb (ix2 k q)) = _
  obtain ⟨-, -, -, -, -, -, e30, e31, e40, e41, e50, e51, -⟩ := idx_facts t
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * q.val = q.val; omega

/-- The bias window's block is its whole array. -/
theorem read_b (c : Dev nD) (t : Fin cfg0.N) (q : Fin 128) :
    iblk0 V c 6 t (ix2 (0 : Fin 1) q) = V c main_v35 (ix2 (0 : Fin 1) q) := by
  show V c main_v35 (((cfg0.win 6).blk t).view.emb (ix2 (0 : Fin 1) q)) = _
  obtain ⟨-, -, -, -, -, -, -, -, -, -, -, -, e60, e61, -⟩ := idx_facts t
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-- The edge update of the arrays the call is entered with. -/
abbrev G (c : Dev nD) : Arr2 600000 128 :=
  mlp3 (V c main_v16) (V c main_v23) (V c main_v8) (V c main_v26) (V c main_v29) (V c main_v32) (V c main_v35)

/-- The edge body of the blocks at point t, at (p, q), is the edge update of the whole arrays at row 8000·t + p. -/
theorem body_at (c : Dev nD) (t : Fin cfg0.N) (p : Fin 8000) (q : Fin 128) :
    k0_pay1 (F := Ideal) (iblk0 V c 0 t) (iblk0 V c 1 t) (iblk0 V c 2 t) (iblk0 V c 3 t) (iblk0 V c 4 t) (iblk0 V c 5 t) (iblk0 V c 6 t) (ix2 p q)
      = G V c (ix2 (rowOf t p) q) := by
  refine (edge_pay (iblk0 V c 0 t) (iblk0 V c 1 t) (iblk0 V c 2 t) (iblk0 V c 3 t) (iblk0 V c 4 t) (iblk0 V c 5 t) (iblk0 V c 6 t) p q).trans ?_
  show _ = mlp3At (V c main_v16) (V c main_v23) (V c main_v8) (V c main_v26) (V c main_v29) (V c main_v32) (V c main_v35) (rowOf t p) q
  unfold mlp3At
  simp only [read_row0 V c t, read_row1 V c t, read_row2 V c t, read_w3 V c t, read_w4 V c t, read_w5 V c t, read_b V c t]

/-- Where output window 7's block at point t sits in its array. -/
theorem emb7 (t : Fin cfg0.N) (p : Fin 8000) (q : Fin 128) :
    ((cfg0.win 7).blk t).view.emb (ix2 p q) = ix2 (rowOf t p) q := by
  obtain ⟨-, -, -, -, -, -, -, -, -, -, -, -, -, -, e70, e71, e80, e81⟩ := idx_facts t
  refine funext fun a => Fin.ext ?_
  match a with
  | ⟨0, _⟩ => show win0_7.index t (0 : Fin 2) * 8000 + 1 * p.val = 8000 * t.val + p.val; omega
  | ⟨1, _⟩ => show win0_7.index t (1 : Fin 2) * 128 + 1 * q.val = q.val; omega

/-- What point t writes back through output window 7 is the block at t of the edge update of the whole arrays. -/
theorem flushed7 (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (iblk0 V c 6 t) (ix2 p q)
    = G V c (((cfg0.win 7).blk t).view.emb (ix2 p q))
  rw [emb7 t p q]
  exact body_at V c t p q

/-- An index of the array is in point t's block iff each coordinate is in the block's range on its axis. -/
theorem mem_blk7 (t : Fin cfg0.N) (i : S600000x128.Idx) :
    i ∈ ((cfg0.win 7).blk t).view.set ↔ ∀ a : Fin 2, win0_7.index t a * S8000x128.size a ≤ (i a).val ∧ (i a).val < win0_7.index t a * S8000x128.size a + S8000x128.size a := by
  show i ∈ ((View.whole main_v36_0).slice (win0_7.rect t)).set ↔ _
  rw [View.set_slice_whole, Rect.mem_set_unit]
  exact Iff.rfl

/-- Every index of the output array is in the block of the point its row falls in. -/
theorem cover7 (i : S600000x128.Idx) : ∃ t : Fin cfg0.N, (cfg0.win 7).flush t = true ∧ i ∈ ((cfg0.win 7).blk t).view.set := by
  have hi0 : (i 0).val < 600000 := (i 0).isLt
  have hi1 : (i 1).val < 128 := (i 1).isLt
  let t : Fin cfg0.N := ⟨(i 0).val / 8000, by show (i 0).val / 8000 < 75; omega⟩
  have htv : t.val = (i 0).val / 8000 := rfl
  obtain ⟨-, -, -, -, -, -, -, -, -, -, -, -, -, -, e70, e71, e80, e81⟩ := idx_facts t
  refine ⟨t, flush0_7 t, ?_⟩
  rw [mem_blk7]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 128 ≤ (i 1).val ∧ (i 1).val < win0_7.index t (1 : Fin 2) * 128 + 128; omega

/-- The output array after the call is the edge update of the arrays the call is entered with. -/
theorem final7 (c : Dev nD) : (dat0 V c).arrAt 7 cfg0.N = G V c :=
  (dat0 V c).arrAt_eq_of_cover 7 (G V c) (fun t _ => flushed7 V c t) (fun i => cover7 i)

/-- Where output window 8's block at point t sits in its array. -/
theorem emb8 (t : Fin cfg0.N) (p : Fin 8000) (q : Fin 128) :
    ((cfg0.win 8).blk t).view.emb (ix2 p q) = ix2 (rowOf t p) q := by
  obtain ⟨-, -, -, -, -, -, -, -, -, -, -, -, -, -, e70, e71, e80, e81⟩ := idx_facts t
  refine funext fun a => Fin.ext ?_
  match a with
  | ⟨0, _⟩ => show win0_8.index t (0 : Fin 2) * 8000 + 1 * p.val = 8000 * t.val + p.val; omega
  | ⟨1, _⟩ => show win0_8.index t (1 : Fin 2) * 128 + 1 * q.val = q.val; omega

/-- What point t writes back through output window 8 is the block at t of the edge update of the whole arrays. -/
theorem flushed8 (c : Dev nD) (t : Fin cfg0.N) :
    (dat0 V c).flushed 8 t = ((cfg0.win 8).blk t).view.read (Elt Ideal) (G V c) := by
  show (cfg0.win 8).cut (grid0.coords t) ((dat0 V c).after 8 t) = _
  rw [after0_8]
  unfold out0_8
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k0_pay2 (F := Ideal) (iblk0 V c 0 t) (iblk0 V c 1 t) (iblk0 V c 2 t) (iblk0 V c 3 t) (iblk0 V c 4 t) (iblk0 V c 5 t) (iblk0 V c 6 t) (ix2 p q)
    = G V c (((cfg0.win 8).blk t).view.emb (ix2 p q))
  rw [k0_pay2_eq]
  rw [emb8 t p q]
  exact body_at V c t p q

/-- An index of the array is in point t's block iff each coordinate is in the block's range on its axis. -/
theorem mem_blk8 (t : Fin cfg0.N) (i : S600000x128.Idx) :
    i ∈ ((cfg0.win 8).blk t).view.set ↔ ∀ a : Fin 2, win0_8.index t a * S8000x128.size a ≤ (i a).val ∧ (i a).val < win0_8.index t a * S8000x128.size a + S8000x128.size a := by
  show i ∈ ((View.whole main_v36_1).slice (win0_8.rect t)).set ↔ _
  rw [View.set_slice_whole, Rect.mem_set_unit]
  exact Iff.rfl

/-- Every index of the output array is in the block of the point its row falls in. -/
theorem cover8 (i : S600000x128.Idx) : ∃ t : Fin cfg0.N, (cfg0.win 8).flush t = true ∧ i ∈ ((cfg0.win 8).blk t).view.set := by
  have hi0 : (i 0).val < 600000 := (i 0).isLt
  have hi1 : (i 1).val < 128 := (i 1).isLt
  let t : Fin cfg0.N := ⟨(i 0).val / 8000, by show (i 0).val / 8000 < 75; omega⟩
  have htv : t.val = (i 0).val / 8000 := rfl
  obtain ⟨-, -, -, -, -, -, -, -, -, -, -, -, -, -, e70, e71, e80, e81⟩ := idx_facts t
  refine ⟨t, flush0_8 t, ?_⟩
  rw [mem_blk8]
  intro a
  match a with
  | ⟨0, _⟩ => show win0_8.index t (0 : Fin 2) * 8000 ≤ (i 0).val ∧ (i 0).val < win0_8.index t (0 : Fin 2) * 8000 + 8000; omega
  | ⟨1, _⟩ => show win0_8.index t (1 : Fin 2) * 128 ≤ (i 1).val ∧ (i 1).val < win0_8.index t (1 : Fin 2) * 128 + 128; omega

/-- The output array after the call is the edge update of the arrays the call is entered with. -/
theorem final8 (c : Dev nD) : (dat0 V c).arrAt 8 cfg0.N = G V c :=
  (dat0 V c).arrAt_eq_of_cover 8 (G V c) (fun t _ => flushed8 V c t) (fun i => cover8 i)

end Cert.KernelIdeal.Reg0

end
-- ==== Proof.Reg1.lean ====
/-
  Pipelined node call 0 of the program, as one function of the arrays it is entered with.

  The grid has 25 points; at point t the two row windows hold rows 2000·t … 2000·t + 1999 of their arrays, the two
  weight windows and the bias window hold their whole arrays, and the output window is written back to rows 2000·t …
  of its array.  An entry of the output block depends on one row of the row blocks only, so the block written back at
  t is the block at t of the node update of the WHOLE arrays; the 25 blocks cover the output.
-/
import proofs.«122216_j7713761264053_2_alg».proof.Proof.Gen.KernelIdeal.Frame
import proofs.«122216_j7713761264053_2_alg».proof.Proof.Payload

set_option maxRecDepth 16384

noncomputable section

namespace Cert.KernelIdeal.Reg1

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.GnSpec Cert.KernelIdeal.Pay

-- the TensorCore's buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is the point, every other window sits at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row 2000·t + p of a 50000-row array. -/
def rowOf (t : Fin 25) (p : Fin 2000) : Fin 50000 := ⟨2000 * t.val + p.val, by have := t.isLt; have := p.isLt; omega⟩

/-- Row window 0's block at point t holds rows 2000·t … of its array. -/
theorem read_row0 (c : Dev nD) (t : Fin cfg1.N) (p : Fin 2000) (k : Fin 128) :
    iblk1 V c 0 t (ix2 p k) = V c main_v9 (ix2 (rowOf t p) k) := by
  show V c main_v9 (((cfg1.win 0).blk t).view.emb (ix2 p k)) = _
  obtain ⟨e00, e01, e10, e11, -⟩ := idx_facts t
  refine congrArg _ (funext fun a => Fin.ext ?_)
  match a with
  | ⟨0, _⟩ => show win1_0.index t (0 : Fin 2) * 2000 + 1 * p.val = 2000 * t.val + p.val; omega
  | ⟨1, _⟩ => show win1_0.index t (1 : Fin 2) * 128 + 1 * k.val = k.val; omega

/-- Row window 1's block at point t holds rows 2000·t … of its array. -/
theorem read_row1 (c : Dev nD) (t : Fin cfg1.N) (p : Fin 2000) (k : Fin 128) :
    iblk1 V c 1 t (ix2 p k) = V c main_v39 (ix2 (rowOf t p) k) := by
  show V c main_v39 (((cfg1.win 1).blk t).view.emb (ix2 p k)) = _
  obtain ⟨e00, e01, e10, e11, -⟩ := idx_facts t
  refine congrArg _ (funext fun a => Fin.ext ?_)
  match a with
  | ⟨0, _⟩ => show win1_1.index t (0 : Fin 2) * 2000 + 1 * p.val = 2000 * t.val + p.val; omega
  | ⟨1, _⟩ => show win1_1.index t (1 : Fin 2) * 128 + 1 * k.val = k.val; omega

/-- Weight window 2's block is its whole array. -/
theorem read_w2 (c : Dev nD) (t : Fin cfg1.N) (k : Fin 128) (q : Fin 128) :
    iblk1 V c 2 t (ix2 k q) = V c main_v42 (ix2 k q) := by
  show V c main_v42 (((cfg1.win 2).blk t).view.emb (ix2 k q)) = _
  obtain ⟨-, -, -, -, e20, e21, e30, e31, -⟩ := idx_facts t
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Weight window 3's block is its whole array. -/
theorem read_w3 (c : Dev nD) (t : Fin cfg1.N) (k : Fin 128) (q : Fin 128) :
    iblk1 V c 3 t (ix2 k q) = V c main_v45 (ix2 k q) := by
  show V c main_v45 (((cfg1.win 3).blk t).view.emb (ix2 k q)) = _
  obtain ⟨-, -, -, -, e20, e21, e30, e31, -⟩ := idx_facts t
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias window's block is its whole array. -/
theorem read_b (c : Dev nD) (t : Fin cfg1.N) (q : Fin 128) :
    iblk1 V c 4 t (ix2 (0 : Fin 1) q) = V c main_v48 (ix2 (0 : Fin 1) q) := by
  show V c main_v48 (((cfg1.win 4).blk t).view.emb (ix2 (0 : Fin 1) q)) = _
  obtain ⟨-, -, -, -, -, -, -, -, e40, e41, -⟩ := idx_facts t
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- The node update of the arrays the call is entered with. -/
abbrev G (c : Dev nD) : Arr2 50000 128 :=
  mlp2 (V c main_v9) (V c main_v39) (V c main_v42) (V c main_v45) (V c main_v48)

/-- The node body of the blocks at point t, at (p, q), is the node update of the whole arrays at row 2000·t + p. -/
theorem body_at (c : Dev nD) (t : Fin cfg1.N) (p : Fin 2000) (q : Fin 128) :
    k1_pay1 (F := Ideal) (iblk1 V c 0 t) (iblk1 V c 1 t) (iblk1 V c 2 t) (iblk1 V c 3 t) (iblk1 V c 4 t) (ix2 p q)
      = G V c (ix2 (rowOf t p) q) := by
  refine (node_pay (iblk1 V c 0 t) (iblk1 V c 1 t) (iblk1 V c 2 t) (iblk1 V c 3 t) (iblk1 V c 4 t) p q).trans ?_
  show _ = mlp2At (V c main_v9) (V c main_v39) (V c main_v42) (V c main_v45) (V c main_v48) (rowOf t p) q
  unfold mlp2At
  simp only [read_row0 V c t, read_row1 V c t, read_w2 V c t, read_w3 V c t, read_b V c t]

/-- Where the output window's block at point t sits in its array. -/
theorem emb5 (t : Fin cfg1.N) (p : Fin 2000) (q : Fin 128) :
    ((cfg1.win 5).blk t).view.emb (ix2 p q) = ix2 (rowOf t p) q := by
  obtain ⟨-, -, -, -, -, -, -, -, -, -, e50, e51⟩ := idx_facts t
  refine funext fun a => Fin.ext ?_
  match a with
  | ⟨0, _⟩ => show win1_5.index t (0 : Fin 2) * 2000 + 1 * p.val = 2000 * t.val + p.val; omega
  | ⟨1, _⟩ => show win1_5.index t (1 : Fin 2) * 128 + 1 * q.val = q.val; omega

/-- What point t writes back is the block at t of the node update of the whole arrays. -/
theorem flushed5 (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = G V c (((cfg1.win 5).blk t).view.emb (ix2 p q))
  rw [emb5 t p q]
  exact body_at V c t p q

/-- An index of the array is in point t's block iff each coordinate is in the block's range on its axis. -/
theorem mem_blk5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v49).slice (win1_5.rect t)).set ↔ _
  rw [View.set_slice_whole, Rect.mem_set_unit]
  exact Iff.rfl

/-- Every index of the output array is in the block of the point its row falls in. -/
theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 2000, by show (i 0).val / 2000 < 25; omega⟩
  have htv : t.val = (i 0).val / 2000 := rfl
  obtain ⟨-, -, -, -, -, -, -, -, -, -, e50, e51⟩ := idx_facts t
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the call is the node update of the arrays the call is entered with. -/
theorem final5 (c : Dev nD) : (dat1 V c).arrAt 5 cfg1.N = G V c :=
  (dat1 V c).arrAt_eq_of_cover 5 (G V c) (fun t _ => flushed5 V c t) (fun i => cover5 i)

end Cert.KernelIdeal.Reg1

end
-- ==== Proof.RefEdge.lean ====
/-
  The three edge stages of the reference network, on the extended reals, are the edge update of the specification.

  Each stage joins three [600000, 128] arrays along the columns, multiplies the [600000, 384] result by a
  [384, 128] weight cut out of the [3, 384, 128] stack, adds a bias row cut out of the [3, 128] stack and repeated
  over the rows, and takes the maximum with the binary32 zero.  Read at an entry (r, c): the product is a sum over
  384 columns; it splits into the three 128-column blocks; in each block the joined array is one of the three
  inputs, and the weight is the matching 128-row block of the layer's weight.  The three layers differ only in
  which slab of the two stacks they cut out, so one statement for arbitrary inputs, weight, bias and lower bound
  serves all three.
-/
import proofs.«122216_j7713761264053_2_alg».proof.Proof.RefStages
import proofs.«122216_j7713761264053_2_alg».proof.Proof.Spec
import proofs.«122216_j7713761264053_2_alg».proof.Proof.LibPlainDot

noncomputable section

namespace Cert.RefLayers

open Cert.ReferenceIdeal Cert.ReferenceIdeal.Gen Cert.ReferenceIdeal.ReadP Cert.GnSpec Cert.LibPlainDot
open Idealize.ShloMosaic Idealize.ShloMosaic.ValueIdx

/-! ## The generic edge stage -/

/-- The [600000, 384] by [384, 128] product at (r, c) is the sum over the 384 columns. -/
theorem dot384_apply (X : Arr2 600000 384) (Wl : Arr2 384 128) (r : Fin 600000) (c : Fin 128) :
    Host.dotGeneral (F := Ideal) (φ₁ := .f32) (φ₂ := .f32) dot_S600000x384_S384x128_S600000x128_1_0_0_1_n_n none X Wl (ix2 r c)
      = ∑ k : Fin 384, X (ix2 r k) * Wl (ix2 k c) := by
  simp only [Host.dotGeneral]
  rw [Ideal.dotGeneral_apply]
  exact contr_sum_ix2 (φ₁ := .f32) (φ₂ := .f32) _ rfl rfl rfl rfl lhs_main_v25_0 rhs_main_v25_1 X Wl r c

/-- Three [600000, 128] arrays joined along the columns: columns 0 to 127 are the first array. -/
theorem cat3_0 (A B E : Arr2 600000 128) (r : Fin 600000) (k : Fin 128) :
    concatenate S600000x384 1 [⟨S600000x128, A⟩, ⟨S600000x128, B⟩, ⟨S600000x128, E⟩]
      concatenates_S600000x128_S600000x128_S600000x128_S600000x384_d1 (ix2 r (k384 0 (by omega) k)) = A (ix2 r k) :=
  concatenate_apply_piece (t := S600000x384) (1 : Fin 2) _ _ _ 0 (by show (0 : ℕ) < 3; decide) S600000x128 A rfl rfl 0 rfl (ix2 r k)
    (fun b hb => by match b with | ⟨0, _⟩ => rfl | ⟨1, _⟩ => exact absurd rfl hb) (by show 0 + k.val = 0 + k.val; rfl)

/-- Columns 128 to 255 are the second array. -/
theorem cat3_1 (A B E : Arr2 600000 128) (r : Fin 600000) (k : Fin 128) :
    concatenate S600000x384 1 [⟨S600000x128, A⟩, ⟨S600000x128, B⟩, ⟨S600000x128, E⟩]
      concatenates_S600000x128_S600000x128_S600000x128_S600000x384_d1 (ix2 r (k384 128 (by omega) k)) = B (ix2 r k) :=
  concatenate_apply_piece (t := S600000x384) (1 : Fin 2) _ _ _ 1 (by show (1 : ℕ) < 3; decide) S600000x128 B rfl rfl 128 rfl (ix2 r k)
    (fun b hb => by match b with | ⟨0, _⟩ => rfl | ⟨1, _⟩ => exact absurd rfl hb) (by show 128 + k.val = 128 + k.val; rfl)

/-- Columns 256 to 383 are the third array. -/
theorem cat3_2 (A B E : Arr2 600000 128) (r : Fin 600000) (k : Fin 128) :
    concatenate S600000x384 1 [⟨S600000x128, A⟩, ⟨S600000x128, B⟩, ⟨S600000x128, E⟩]
      concatenates_S600000x128_S600000x128_S600000x128_S600000x384_d1 (ix2 r (k384 256 (by omega) k)) = E (ix2 r k) :=
  concatenate_apply_piece (t := S600000x384) (1 : Fin 2) _ _ _ 2 (by show (2 : ℕ) < 3; decide) S600000x128 E rfl rfl 256 rfl (ix2 r k)
    (fun b hb => by match b with | ⟨0, _⟩ => rfl | ⟨1, _⟩ => exact absurd rfl hb) (by show 256 + k.val = 256 + k.val; rfl)

/-- The joined arrays times a [384, 128] weight, plus a bias, rectified, is the edge update of layer l, once the weight,
    the bias and the lower bound are read as layer l's block of W, row of b and the binary32 zero. -/
theorem edge_of_parts (l : Fin 3) (A B E : Arr2 600000 128) (W : Arr3 3 384 128) (b : Arr2 3 128)
    (Wl : Arr2 384 128) (bl Z : Arr2 600000 128)
    (hW : ∀ (k : Fin 384) (c : Fin 128), Wl (ix2 k c) = W (ix3 l k c))
    (hb : ∀ (r : Fin 600000) (c : Fin 128), bl (ix2 r c) = b (ix2 l c))
    (hZ : ∀ (r : Fin 600000) (c : Fin 128), Z (ix2 r c) = zero32) :
    maximumf (F := Ideal) (φ := .f32)
        (addf (Host.dotGeneral (φ₁ := .f32) (φ₂ := .f32) dot_S600000x384_S384x128_S600000x128_1_0_0_1_n_n none
          (concatenate S600000x384 1 [⟨S600000x128, A⟩, ⟨S600000x128, B⟩, ⟨S600000x128, E⟩]
            concatenates_S600000x128_S600000x128_S600000x128_S600000x384_d1) Wl) bl) Z
      = edgeL l A B E W b := by
  funext i
  obtain ⟨r, c, rfl⟩ : ∃ (r : Fin 600000) (c : Fin 128), i = ix2 r c := ⟨i 0, i 1, eq_ix2 i⟩
  show _ = edgeAt l A B E W b r c
  rw [maximumf_apply, addf_apply, dot384_apply, sum384, hb, hZ]
  unfold edgeAt
  simp only [cat3_0, cat3_1, cat3_2, hW]

/-! ## The three layers -/

/-- Layer 0's [384, 128] weight, cut out of the stack and flattened, read at (k, c). -/
theorem edge_w0 (x8 : (⟨S3x384x128, .f32⟩ : BufTy).Contents (Elt Ideal)) (k : Fin 384) (c : Fin 128) :
    val_main_v24 (F := Ideal) x8 (ix2 k c) = x8 (ix3 0 k c) := by
  have hk := k.isLt
  have hc := c.isLt
  rw [val_main_v24_apply, val_main_v23_apply]
  refine congrArg x8 (funext fun a => Fin.ext ?_)
  match a with
  | ⟨0, _⟩ => rfl
  | ⟨1, _⟩ => show (k.val * 128 + c.val) / 128 % 384 = k.val; omega
  | ⟨2, _⟩ => show (k.val * 128 + c.val) % 128 = c.val; omega

/-- Layer 0's bias row, cut out, flattened and repeated over the 600000 rows, read at (r, c). -/
theorem edge_b0 (x9 : (⟨S3x128, .f32⟩ : BufTy).Contents (Elt Ideal)) (r : Fin 600000) (c : Fin 128) :
    val_main_v29 (F := Ideal) x9 (ix2 r c) = x9 (ix2 0 c) := by
  have hc := c.isLt
  rw [val_main_v29_apply, val_main_v28_apply, val_main_v27_apply, val_main_v26_apply]
  refine congrArg x9 (funext fun a => Fin.ext ?_)
  match a with
  | ⟨0, _⟩ => rfl
  | ⟨1, _⟩ => show c.val % 128 = c.val; omega

/-- The rectifier's lower bound, repeated over the array, is the binary32 zero everywhere. -/
theorem edge_z0 (r : Fin 600000) (c : Fin 128) :
    val_main_call0_v0 (F := Ideal) (ix2 r c) = zero32 :=
  (val_main_call0_v0_apply (F := Ideal) (ix2 r c)).trans (val_main_call0_cst_apply (F := Ideal) _)

/-- The edge stage of layer 0 of the reference is the edge update of layer 0 of its three inputs. -/
theorem ref_edge0 (x0 : (⟨S50000x8, .f32⟩ : BufTy).Contents (Elt Ideal)) (x1 : (⟨S600000x4, .f32⟩ : BufTy).Contents (Elt Ideal)) (x2 : (⟨S600000, .i32⟩ : BufTy).Contents (Elt Ideal)) (x3 : (⟨S600000, .i32⟩ : BufTy).Contents (Elt Ideal)) (x4 : (⟨S8x128, .f32⟩ : BufTy).Contents (Elt Ideal)) (x5 : (⟨S128, .f32⟩ : BufTy).Contents (Elt Ideal)) (x6 : (⟨S4x128, .f32⟩ : BufTy).Contents (Elt Ideal)) (x7 : (⟨S128, .f32⟩ : BufTy).Contents (Elt Ideal)) (x8 : (⟨S3x384x128, .f32⟩ : BufTy).Contents (Elt Ideal)) (x9 : (⟨S3x128, .f32⟩ : BufTy).Contents (Elt Ideal)) :
    val_main_v31 (F := Ideal) x0 x1 x2 x3 x4 x5 x6 x7 x8 x9
      = edgeL 0 (val_main_v14 (F := Ideal) x0 x2 x4 x5) (val_main_v21 (F := Ideal) x0 x3 x4 x5) (val_main_v7 (F := Ideal) x1 x6 x7) x8 x9 := by
  unfold val_main_v31 val_main_v30 val_main_v25 val_main_v22
  generalize val_main_v14 (F := Ideal) x0 x2 x4 x5 = A
  generalize val_main_v21 (F := Ideal) x0 x3 x4 x5 = B
  generalize val_main_v7 (F := Ideal) x1 x6 x7 = E
  exact edge_of_parts 0 A B E x8 x9 _ _ _ (edge_w0 x8) (edge_b0 x9) edge_z0

/-- Layer 1's [384, 128] weight, cut out of the stack and flattened, read at (k, c). -/
theorem edge_w1 (x8 : (⟨S3x384x128, .f32⟩ : BufTy).Contents (Elt Ideal)) (k : Fin 384) (c : Fin 128) :
    val_main_v61 (F := Ideal) x8 (ix2 k c) = x8 (ix3 1 k c) := by
  have hk := k.isLt
  have hc := c.isLt
  rw [val_main_v61_apply, val_main_v60_apply]
  refine congrArg x8 (funext fun a => Fin.ext ?_)
  match a with
  | ⟨0, _⟩ => rfl
  | ⟨1, _⟩ => show (k.val * 128 + c.val) / 128 % 384 = k.val; omega
  | ⟨2, _⟩ => show (k.val * 128 + c.val) % 128 = c.val; omega

/-- Layer 1's bias row, cut out, flattened and repeated over the 600000 rows, read at (r, c). -/
theorem edge_b1 (x9 : (⟨S3x128, .f32⟩ : BufTy).Contents (Elt Ideal)) (r : Fin 600000) (c : Fin 128) :
    val_main_v66 (F := Ideal) x9 (ix2 r c) = x9 (ix2 1 c) := by
  have hc := c.isLt
  rw [val_main_v66_apply, val_main_v65_apply, val_main_v64_apply, val_main_v63_apply]
  refine congrArg x9 (funext fun a => Fin.ext ?_)
  match a with
  | ⟨0, _⟩ => rfl
  | ⟨1, _⟩ => show c.val % 128 = c.val; omega

/-- The rectifier's lower bound, repeated over the array, is the binary32 zero everywhere. -/
theorem edge_z1 (r : Fin 600000) (c : Fin 128) :
    val_main_call2_v0 (F := Ideal) (ix2 r c) = zero32 :=
  (val_main_call2_v0_apply (F := Ideal) (ix2 r c)).trans (val_main_call2_cst_apply (F := Ideal) _)

/-- The edge stage of layer 1 of the reference is the edge update of layer 1 of its three inputs. -/
theorem ref_edge1 (x0 : (⟨S50000x8, .f32⟩ : BufTy).Contents (Elt Ideal)) (x1 : (⟨S600000x4, .f32⟩ : BufTy).Contents (Elt Ideal)) (x2 : (⟨S600000, .i32⟩ : BufTy).Contents (Elt Ideal)) (x3 : (⟨S600000, .i32⟩ : BufTy).Contents (Elt Ideal)) (x4 : (⟨S8x128, .f32⟩ : BufTy).Contents (Elt Ideal)) (x5 : (⟨S128, .f32⟩ : BufTy).Contents (Elt Ideal)) (x6 : (⟨S4x128, .f32⟩ : BufTy).Contents (Elt Ideal)) (x7 : (⟨S128, .f32⟩ : BufTy).Contents (Elt Ideal)) (x8 : (⟨S3x384x128, .f32⟩ : BufTy).Contents (Elt Ideal)) (x9 : (⟨S3x128, .f32⟩ : BufTy).Contents (Elt Ideal)) (x10 : (⟨S3x256x128, .f32⟩ : BufTy).Contents (Elt Ideal)) (x11 : (⟨S3x128, .f32⟩ : BufTy).Contents (Elt Ideal)) :
    val_main_v68 (F := Ideal) x0 x1 x2 x3 x4 x5 x6 x7 x8 x9 x10 x11
      = edgeL 1 (val_main_v51 (F := Ideal) x0 x1 x2 x3 x4 x5 x6 x7 x8 x9 x10 x11) (val_main_v58 (F := Ideal) x0 x1 x2 x3 x4 x5 x6 x7 x8 x9 x10 x11) (val_main_v31 (F := Ideal) x0 x1 x2 x3 x4 x5 x6 x7 x8 x9) x8 x9 := by
  unfold val_main_v68 val_main_v67 val_main_v62 val_main_v59
  generalize val_main_v51 (F := Ideal) x0 x1 x2 x3 x4 x5 x6 x7 x8 x9 x10 x11 = A
  generalize val_main_v58 (F := Ideal) x0 x1 x2 x3 x4 x5 x6 x7 x8 x9 x10 x11 = B
  generalize val_main_v31 (F := Ideal) x0 x1 x2 x3 x4 x5 x6 x7 x8 x9 = E
  exact edge_of_parts 1 A B E x8 x9 _ _ _ (edge_w1 x8) (edge_b1 x9) edge_z1

/-- Layer 2's [384, 128] weight, cut out of the stack and flattened, read at (k, c). -/
theorem edge_w2 (x8 : (⟨S3x384x128, .f32⟩ : BufTy).Contents (Elt Ideal)) (k : Fin 384) (c : Fin 128) :
    val_main_v98 (F := Ideal) x8 (ix2 k c) = x8 (ix3 2 k c) := by
  have hk := k.isLt
  have hc := c.isLt
  rw [val_main_v98_apply, val_main_v97_apply]
  refine congrArg x8 (funext fun a => Fin.ext ?_)
  match a with
  | ⟨0, _⟩ => rfl
  | ⟨1, _⟩ => show (k.val * 128 + c.val) / 128 % 384 = k.val; omega
  | ⟨2, _⟩ => show (k.val * 128 + c.val) % 128 = c.val; omega

/-- Layer 2's bias row, cut out, flattened and repeated over the 600000 rows, read at (r, c). -/
theorem edge_b2 (x9 : (⟨S3x128, .f32⟩ : BufTy).Contents (Elt Ideal)) (r : Fin 600000) (c : Fin 128) :
    val_main_v103 (F := Ideal) x9 (ix2 r c) = x9 (ix2 2 c) := by
  have hc := c.isLt
  rw [val_main_v103_apply, val_main_v102_apply, val_main_v101_apply, val_main_v100_apply]
  refine congrArg x9 (funext fun a => Fin.ext ?_)
  match a with
  | ⟨0, _⟩ => rfl
  | ⟨1, _⟩ => show c.val % 128 = c.val; omega

/-- The rectifier's lower bound, repeated over the array, is the binary32 zero everywhere. -/
theorem edge_z2 (r : Fin 600000) (c : Fin 128) :
    val_main_call4_v0 (F := Ideal) (ix2 r c) = zero32 :=
  (val_main_call4_v0_apply (F := Ideal) (ix2 r c)).trans (val_main_call4_cst_apply (F := Ideal) _)

/-- The edge stage of layer 2 of the reference is the edge update of layer 2 of its three inputs. -/
theorem ref_edge2 (x0 : (⟨S50000x8, .f32⟩ : BufTy).Contents (Elt Ideal)) (x1 : (⟨S600000x4, .f32⟩ : BufTy).Contents (Elt Ideal)) (x2 : (⟨S600000, .i32⟩ : BufTy).Contents (Elt Ideal)) (x3 : (⟨S600000, .i32⟩ : BufTy).Contents (Elt Ideal)) (x4 : (⟨S8x128, .f32⟩ : BufTy).Contents (Elt Ideal)) (x5 : (⟨S128, .f32⟩ : BufTy).Contents (Elt Ideal)) (x6 : (⟨S4x128, .f32⟩ : BufTy).Contents (Elt Ideal)) (x7 : (⟨S128, .f32⟩ : BufTy).Contents (Elt Ideal)) (x8 : (⟨S3x384x128, .f32⟩ : BufTy).Contents (Elt Ideal)) (x9 : (⟨S3x128, .f32⟩ : BufTy).Contents (Elt Ideal)) (x10 : (⟨S3x256x128, .f32⟩ : BufTy).Contents (Elt Ideal)) (x11 : (⟨S3x128, .f32⟩ : BufTy).Contents (Elt Ideal)) :
    val_main_v105 (F := Ideal) x0 x1 x2 x3 x4 x5 x6 x7 x8 x9 x10 x11
      = edgeL 2 (val_main_v88 (F := Ideal) x0 x1 x2 x3 x4 x5 x6 x7 x8 x9 x10 x11) (val_main_v95 (F := Ideal) x0 x1 x2 x3 x4 x5 x6 x7 x8 x9 x10 x11) (val_main_v68 (F := Ideal) x0 x1 x2 x3 x4 x5 x6 x7 x8 x9 x10 x11) x8 x9 := by
  unfold val_main_v105 val_main_v104 val_main_v99 val_main_v96
  generalize val_main_v88 (F := Ideal) x0 x1 x2 x3 x4 x5 x6 x7 x8 x9 x10 x11 = A
  generalize val_main_v95 (F := Ideal) x0 x1 x2 x3 x4 x5 x6 x7 x8 x9 x10 x11 = B
  generalize val_main_v68 (F := Ideal) x0 x1 x2 x3 x4 x5 x6 x7 x8 x9 x10 x11 = E
  exact edge_of_parts 2 A B E x8 x9 _ _ _ (edge_w2 x8) (edge_b2 x9) edge_z2

end Cert.RefLayers

end
-- ==== Proof.RefNode.lean ====
/-
  The three node stages of the reference network, on the extended reals, are the node update of the specification.

  Each stage joins two [50000, 128] arrays along the columns, multiplies the [50000, 256] result by a [256, 128]
  weight cut out of the [3, 256, 128] stack, adds a bias row cut out of the [3, 128] stack and repeated over the
  rows, and takes the maximum with the binary32 zero.  Read at an entry (r, c): the product is a sum over 256
  columns; it splits into the two 128-column blocks; in each block the joined array is one of the two inputs, and
  the weight is the matching 128-row block of the layer's weight.  The three layers differ only in which slab of
  the two stacks they cut out.
-/
import proofs.«122216_j7713761264053_2_alg».proof.Proof.RefStages
import proofs.«122216_j7713761264053_2_alg».proof.Proof.Spec
import proofs.«122216_j7713761264053_2_alg».proof.Proof.LibPlainDot

noncomputable section

namespace Cert.RefLayers

open Cert.ReferenceIdeal Cert.ReferenceIdeal.Gen Cert.ReferenceIdeal.ReadP Cert.GnSpec Cert.LibPlainDot
open Idealize.ShloMosaic Idealize.ShloMosaic.ValueIdx

/-! ## The generic node stage -/

/-- The [50000, 256] by [256, 128] product at (r, c) is the sum over the 256 columns. -/
theorem dot256_apply (X : Arr2 50000 256) (Ul : Arr2 256 128) (r : Fin 50000) (c : Fin 128) :
    Host.dotGeneral (F := Ideal) (φ₁ := .f32) (φ₂ := .f32) dot_S50000x256_S256x128_S50000x128_1_0_0_1_n_n none X Ul (ix2 r c)
      = ∑ k : Fin 256, X (ix2 r k) * Ul (ix2 k c) := by
  simp only [Host.dotGeneral]
  rw [Ideal.dotGeneral_apply]
  exact contr_sum_ix2 (φ₁ := .f32) (φ₂ := .f32) _ rfl rfl rfl rfl lhs_main_v38_0 rhs_main_v38_1 X Ul r c

/-- Two [50000, 128] arrays joined along the columns: columns 0 to 127 are the first array. -/
theorem cat2_0 (H G : Arr2 50000 128) (r : Fin 50000) (k : Fin 128) :
    concatenate S50000x256 1 [⟨S50000x128, H⟩, ⟨S50000x128, G⟩]
      concatenates_S50000x128_S50000x128_S50000x256_d1 (ix2 r (k256 0 (by omega) k)) = H (ix2 r k) :=
  concatenate_apply_piece (t := S50000x256) (1 : Fin 2) _ _ _ 0 (by show (0 : ℕ) < 2; decide) S50000x128 H rfl rfl 0 rfl (ix2 r k)
    (fun b hb => by match b with | ⟨0, _⟩ => rfl | ⟨1, _⟩ => exact absurd rfl hb) (by show 0 + k.val = 0 + k.val; rfl)

/-- Columns 128 to 255 are the second array. -/
theorem cat2_1 (H G : Arr2 50000 128) (r : Fin 50000) (k : Fin 128) :
    concatenate S50000x256 1 [⟨S50000x128, H⟩, ⟨S50000x128, G⟩]
      concatenates_S50000x128_S50000x128_S50000x256_d1 (ix2 r (k256 128 (by omega) k)) = G (ix2 r k) :=
  concatenate_apply_piece (t := S50000x256) (1 : Fin 2) _ _ _ 1 (by show (1 : ℕ) < 2; decide) S50000x128 G rfl rfl 128 rfl (ix2 r k)
    (fun b hb => by match b with | ⟨0, _⟩ => rfl | ⟨1, _⟩ => exact absurd rfl hb) (by show 128 + k.val = 128 + k.val; rfl)

/-- The joined arrays times a [256, 128] weight, plus a bias, rectified, is the node update of layer l, once the weight,
    the bias and the lower bound are read as layer l's block of U, row of b and the binary32 zero. -/
theorem node_of_parts (l : Fin 3) (H G : Arr2 50000 128) (Uw : Arr3 3 256 128) (b : Arr2 3 128)
    (Ul : Arr2 256 128) (bl Z : Arr2 50000 128)
    (hU : ∀ (k : Fin 256) (c : Fin 128), Ul (ix2 k c) = Uw (ix3 l k c))
    (hb : ∀ (r : Fin 50000) (c : Fin 128), bl (ix2 r c) = b (ix2 l c))
    (hZ : ∀ (r : Fin 50000) (c : Fin 128), Z (ix2 r c) = zero32) :
    maximumf (F := Ideal) (φ := .f32)
        (addf (Host.dotGeneral (φ₁ := .f32) (φ₂ := .f32) dot_S50000x256_S256x128_S50000x128_1_0_0_1_n_n none
          (concatenate S50000x256 1 [⟨S50000x128, H⟩, ⟨S50000x128, G⟩]
            concatenates_S50000x128_S50000x128_S50000x256_d1) Ul) bl) Z
      = nodeL l H G Uw b := by
  funext i
  obtain ⟨r, c, rfl⟩ : ∃ (r : Fin 50000) (c : Fin 128), i = ix2 r c := ⟨i 0, i 1, eq_ix2 i⟩
  show _ = nodeAt l H G Uw b r c
  rw [maximumf_apply, addf_apply, dot256_apply, sum256, hb, hZ]
  unfold nodeAt
  simp only [cat2_0, cat2_1, hU]

/-! ## The three layers -/

/-- Layer 0's [256, 128] weight, cut out of the stack and flattened, read at (k, c). -/
theorem node_w0 (x10 : (⟨S3x256x128, .f32⟩ : BufTy).Contents (Elt Ideal)) (k : Fin 256) (c : Fin 128) :
    val_main_v37 (F := Ideal) x10 (ix2 k c) = x10 (ix3 0 k c) := by
  have hk := k.isLt
  have hc := c.isLt
  rw [val_main_v37_apply, val_main_v36_apply]
  refine congrArg x10 (funext fun a => Fin.ext ?_)
  match a with
  | ⟨0, _⟩ => rfl
  | ⟨1, _⟩ => show (k.val * 128 + c.val) / 128 % 256 = k.val; omega
  | ⟨2, _⟩ => show (k.val * 128 + c.val) % 128 = c.val; omega

/-- Layer 0's bias row, cut out, flattened and repeated over the 50000 rows, read at (r, c). -/
theorem node_b0 (x11 : (⟨S3x128, .f32⟩ : BufTy).Contents (Elt Ideal)) (r : Fin 50000) (c : Fin 128) :
    val_main_v42 (F := Ideal) x11 (ix2 r c) = x11 (ix2 0 c) := by
  have hc := c.isLt
  rw [val_main_v42_apply, val_main_v41_apply, val_main_v40_apply, val_main_v39_apply]
  refine congrArg x11 (funext fun a => Fin.ext ?_)
  match a with
  | ⟨0, _⟩ => rfl
  | ⟨1, _⟩ => show c.val % 128 = c.val; omega

/-- The rectifier's lower bound, repeated over the array, is the binary32 zero everywhere. -/
theorem node_z0 (r : Fin 50000) (c : Fin 128) :
    val_main_call1_v0 (F := Ideal) (ix2 r c) = zero32 :=
  (val_main_call1_v0_apply (F := Ideal) (ix2 r c)).trans (val_main_call1_cst_apply (F := Ideal) _)

/-- The node stage of layer 0 of the reference is the node update of layer 0 of its two inputs. -/
theorem ref_node0 (x0 : (⟨S50000x8, .f32⟩ : BufTy).Contents (Elt Ideal)) (x1 : (⟨S600000x4, .f32⟩ : BufTy).Contents (Elt Ideal)) (x2 : (⟨S600000, .i32⟩ : BufTy).Contents (Elt Ideal)) (x3 : (⟨S600000, .i32⟩ : BufTy).Contents (Elt Ideal)) (x4 : (⟨S8x128, .f32⟩ : BufTy).Contents (Elt Ideal)) (x5 : (⟨S128, .f32⟩ : BufTy).Contents (Elt Ideal)) (x6 : (⟨S4x128, .f32⟩ : BufTy).Contents (Elt Ideal)) (x7 : (⟨S128, .f32⟩ : BufTy).Contents (Elt Ideal)) (x8 : (⟨S3x384x128, .f32⟩ : BufTy).Contents (Elt Ideal)) (x9 : (⟨S3x128, .f32⟩ : BufTy).Contents (Elt Ideal)) (x10 : (⟨S3x256x128, .f32⟩ : BufTy).Contents (Elt Ideal)) (x11 : (⟨S3x128, .f32⟩ : BufTy).Contents (Elt Ideal)) :
    val_main_v44 (F := Ideal) x0 x1 x2 x3 x4 x5 x6 x7 x8 x9 x10 x11
      = nodeL 0 (val_main_v3 (F := Ideal) x0 x4 x5) (val_main_v34 (F := Ideal) x0 x1 x2 x3 x4 x5 x6 x7 x8 x9) x10 x11 := by
  unfold val_main_v44 val_main_v43 val_main_v38 val_main_v35
  generalize val_main_v3 (F := Ideal) x0 x4 x5 = H
  generalize val_main_v34 (F := Ideal) x0 x1 x2 x3 x4 x5 x6 x7 x8 x9 = G
  exact node_of_parts 0 H G x10 x11 _ _ _ (node_w0 x10) (node_b0 x11) node_z0

/-- Layer 1's [256, 128] weight, cut out of the stack and flattened, read at (k, c). -/
theorem node_w1 (x10 : (⟨S3x256x128, .f32⟩ : BufTy).Contents (Elt Ideal)) (k : Fin 256) (c : Fin 128) :
    val_main_v74 (F := Ideal) x10 (ix2 k c) = x10 (ix3 1 k c) := by
  have hk := k.isLt
  have hc := c.isLt
  rw [val_main_v74_apply, val_main_v73_apply]
  refine congrArg x10 (funext fun a => Fin.ext ?_)
  match a with
  | ⟨0, _⟩ => rfl
  | ⟨1, _⟩ => show (k.val * 128 + c.val) / 128 % 256 = k.val; omega
  | ⟨2, _⟩ => show (k.val * 128 + c.val) % 128 = c.val; omega

/-- Layer 1's bias row, cut out, flattened and repeated over the 50000 rows, read at (r, c). -/
theorem node_b1 (x11 : (⟨S3x128, .f32⟩ : BufTy).Contents (Elt Ideal)) (r : Fin 50000) (c : Fin 128) :
    val_main_v79 (F := Ideal) x11 (ix2 r c) = x11 (ix2 1 c) := by
  have hc := c.isLt
  rw [val_main_v79_apply, val_main_v78_apply, val_main_v77_apply, val_main_v76_apply]
  refine congrArg x11 (funext fun a => Fin.ext ?_)
  match a with
  | ⟨0, _⟩ => rfl
  | ⟨1, _⟩ => show c.val % 128 = c.val; omega

/-- The rectifier's lower bound, repeated over the array, is the binary32 zero everywhere. -/
theorem node_z1 (r : Fin 50000) (c : Fin 128) :
    val_main_call3_v0 (F := Ideal) (ix2 r c) = zero32 :=
  (val_main_call3_v0_apply (F := Ideal) (ix2 r c)).trans (val_main_call3_cst_apply (F := Ideal) _)

/-- The node stage of layer 1 of the reference is the node update of layer 1 of its two inputs. -/
theorem ref_node1 (x0 : (⟨S50000x8, .f32⟩ : BufTy).Contents (Elt Ideal)) (x1 : (⟨S600000x4, .f32⟩ : BufTy).Contents (Elt Ideal)) (x2 : (⟨S600000, .i32⟩ : BufTy).Contents (Elt Ideal)) (x3 : (⟨S600000, .i32⟩ : BufTy).Contents (Elt Ideal)) (x4 : (⟨S8x128, .f32⟩ : BufTy).Contents (Elt Ideal)) (x5 : (⟨S128, .f32⟩ : BufTy).Contents (Elt Ideal)) (x6 : (⟨S4x128, .f32⟩ : BufTy).Contents (Elt Ideal)) (x7 : (⟨S128, .f32⟩ : BufTy).Contents (Elt Ideal)) (x8 : (⟨S3x384x128, .f32⟩ : BufTy).Contents (Elt Ideal)) (x9 : (⟨S3x128, .f32⟩ : BufTy).Contents (Elt Ideal)) (x10 : (⟨S3x256x128, .f32⟩ : BufTy).Contents (Elt Ideal)) (x11 : (⟨S3x128, .f32⟩ : BufTy).Contents (Elt Ideal)) :
    val_main_v81 (F := Ideal) x0 x1 x2 x3 x4 x5 x6 x7 x8 x9 x10 x11
      = nodeL 1 (val_main_v44 (F := Ideal) x0 x1 x2 x3 x4 x5 x6 x7 x8 x9 x10 x11) (val_main_v71 (F := Ideal) x0 x1 x2 x3 x4 x5 x6 x7 x8 x9 x10 x11) x10 x11 := by
  unfold val_main_v81 val_main_v80 val_main_v75 val_main_v72
  generalize val_main_v44 (F := Ideal) x0 x1 x2 x3 x4 x5 x6 x7 x8 x9 x10 x11 = H
  generalize val_main_v71 (F := Ideal) x0 x1 x2 x3 x4 x5 x6 x7 x8 x9 x10 x11 = G
  exact node_of_parts 1 H G x10 x11 _ _ _ (node_w1 x10) (node_b1 x11) node_z1

/-- Layer 2's [256, 128] weight, cut out of the stack and flattened, read at (k, c). -/
theorem node_w2 (x10 : (⟨S3x256x128, .f32⟩ : BufTy).Contents (Elt Ideal)) (k : Fin 256) (c : Fin 128) :
    val_main_v111 (F := Ideal) x10 (ix2 k c) = x10 (ix3 2 k c) := by
  have hk := k.isLt
  have hc := c.isLt
  rw [val_main_v111_apply, val_main_v110_apply]
  refine congrArg x10 (funext fun a => Fin.ext ?_)
  match a with
  | ⟨0, _⟩ => rfl
  | ⟨1, _⟩ => show (k.val * 128 + c.val) / 128 % 256 = k.val; omega
  | ⟨2, _⟩ => show (k.val * 128 + c.val) % 128 = c.val; omega

/-- Layer 2's bias row, cut out, flattened and repeated over the 50000 rows, read at (r, c). -/
theorem node_b2 (x11 : (⟨S3x128, .f32⟩ : BufTy).Contents (Elt Ideal)) (r : Fin 50000) (c : Fin 128) :
    val_main_v116 (F := Ideal) x11 (ix2 r c) = x11 (ix2 2 c) := by
  have hc := c.isLt
  rw [val_main_v116_apply, val_main_v115_apply, val_main_v114_apply, val_main_v113_apply]
  refine congrArg x11 (funext fun a => Fin.ext ?_)
  match a with
  | ⟨0, _⟩ => rfl
  | ⟨1, _⟩ => show c.val % 128 = c.val; omega

/-- The rectifier's lower bound, repeated over the array, is the binary32 zero everywhere. -/
theorem node_z2 (r : Fin 50000) (c : Fin 128) :
    val_main_call5_v0 (F := Ideal) (ix2 r c) = zero32 :=
  (val_main_call5_v0_apply (F := Ideal) (ix2 r c)).trans (val_main_call5_cst_apply (F := Ideal) _)

/-- The node stage of layer 2 of the reference is the node update of layer 2 of its two inputs. -/
theorem ref_node2 (x0 : (⟨S50000x8, .f32⟩ : BufTy).Contents (Elt Ideal)) (x1 : (⟨S600000x4, .f32⟩ : BufTy).Contents (Elt Ideal)) (x2 : (⟨S600000, .i32⟩ : BufTy).Contents (Elt Ideal)) (x3 : (⟨S600000, .i32⟩ : BufTy).Contents (Elt Ideal)) (x4 : (⟨S8x128, .f32⟩ : BufTy).Contents (Elt Ideal)) (x5 : (⟨S128, .f32⟩ : BufTy).Contents (Elt Ideal)) (x6 : (⟨S4x128, .f32⟩ : BufTy).Contents (Elt Ideal)) (x7 : (⟨S128, .f32⟩ : BufTy).Contents (Elt Ideal)) (x8 : (⟨S3x384x128, .f32⟩ : BufTy).Contents (Elt Ideal)) (x9 : (⟨S3x128, .f32⟩ : BufTy).Contents (Elt Ideal)) (x10 : (⟨S3x256x128, .f32⟩ : BufTy).Contents (Elt Ideal)) (x11 : (⟨S3x128, .f32⟩ : BufTy).Contents (Elt Ideal)) :
    val_main_v118 (F := Ideal) x0 x1 x2 x3 x4 x5 x6 x7 x8 x9 x10 x11
      = nodeL 2 (val_main_v81 (F := Ideal) x0 x1 x2 x3 x4 x5 x6 x7 x8 x9 x10 x11) (val_main_v108 (F := Ideal) x0 x1 x2 x3 x4 x5 x6 x7 x8 x9 x10 x11) x10 x11 := by
  unfold val_main_v118 val_main_v117 val_main_v112 val_main_v109
  generalize val_main_v81 (F := Ideal) x0 x1 x2 x3 x4 x5 x6 x7 x8 x9 x10 x11 = H
  generalize val_main_v108 (F := Ideal) x0 x1 x2 x3 x4 x5 x6 x7 x8 x9 x10 x11 = G
  exact node_of_parts 2 H G x10 x11 _ _ _ (node_w2 x10) (node_b2 x11) node_z2

end Cert.RefLayers

end
-- ==== Proof.Chain0.lean ====
/-
  Layer 0 of the kernel program, value by value, against the reference program's stages.

  Entering the layer, the node states and the edge states the kernel program holds are the reference's (the narrowed
  copies are the same arrays: a change of float format is the identity on the extended reals).  The host gathers the
  node states at the sources and at the destinations with the very operations of the reference, so the gathered
  arrays are the reference's; the edge call returns the edge update of what it is given, which is the reference's
  rectified product of the three arrays joined along the columns with the layer's whole [384, 128] weight, because a
  sum over 384 columns is the sum of the sums over its three blocks; the host scatter-adds the new edge states by
  destination with the reference's operation; and the node call returns the node update, likewise the reference's.
-/
import proofs.«122216_j7713761264053_2_alg».proof.Proof.Gen.KernelIdeal.Frame
import proofs.«122216_j7713761264053_2_alg».proof.Proof.RefStages
import proofs.«122216_j7713761264053_2_alg».proof.Proof.Spec
import proofs.«122216_j7713761264053_2_alg».proof.Proof.Slices
import proofs.«122216_j7713761264053_2_alg».proof.Proof.Keep
import proofs.«122216_j7713761264053_2_alg».proof.Proof.Reg0
import proofs.«122216_j7713761264053_2_alg».proof.Proof.Reg1
import proofs.«122216_j7713761264053_2_alg».proof.Proof.RefEdge
import proofs.«122216_j7713761264053_2_alg».proof.Proof.RefNode
import Idealize.ShloMosaic.Lib.StableHlo.Run

set_option maxRecDepth 16384

noncomputable section

namespace Cert.KernelIdeal.Chain

open Idealize.ShloMosaic Idealize.ShloMosaic.TcCoe Idealize.ShloMosaic.StableHlo
open Idealize.SL Idealize.SL.Sem Idealize.ShloMosaic.ValueIdx
open Cert.KernelIdeal Cert.KernelIdeal.Gen Cert.KernelIdeal.Keep Cert.GnSpec Cert.GnSlices

variable (m : (ℓ : Loc nD τ sig) → Buf (Elt Ideal) ℓ) (ρ : Dev nD → PrngReg) (c : Dev nD)

/-- The node states after the encoder, narrowed. -/
theorem l0_H : W1 m ρ c (Proc.devRef .tc main_v9) = Cert.ReferenceIdeal.ReadP.val_main_v3 (F := Ideal) (m ((c : Thread nD τ).loc main_arg0)) (m ((c : Thread nD τ).loc main_arg4)) (m ((c : Thread nD τ).loc main_arg5)) := by
  show StableHlo.after hostOps0 (W0 m ρ c) (Proc.devRef .tc main_v9) = _
  after_results_simp
  rfl
/-- The edge states after the encoder, narrowed. -/
theorem l0_E : W1 m ρ c (Proc.devRef .tc main_v8) = Cert.ReferenceIdeal.ReadP.val_main_v7 (F := Ideal) (m ((c : Thread nD τ).loc main_arg1)) (m ((c : Thread nD τ).loc main_arg6)) (m ((c : Thread nD τ).loc main_arg7)) := by
  show StableHlo.after hostOps0 (W0 m ρ c) (Proc.devRef .tc main_v8) = _
  after_results_simp
  rfl
/-- The node states gathered at the sources. -/
theorem l0_A : W1 m ρ c (Proc.devRef .tc main_v16) = Cert.ReferenceIdeal.ReadP.val_main_v14 (F := Ideal) (m ((c : Thread nD τ).loc main_arg0)) (m ((c : Thread nD τ).loc main_arg2)) (m ((c : Thread nD τ).loc main_arg4)) (m ((c : Thread nD τ).loc main_arg5)) := by
  show StableHlo.after hostOps0 (W0 m ρ c) (Proc.devRef .tc main_v16) = _
  after_results_simp
  rfl
/-- The node states gathered at the destinations. -/
theorem l0_B : W1 m ρ c (Proc.devRef .tc main_v23) = Cert.ReferenceIdeal.ReadP.val_main_v21 (F := Ideal) (m ((c : Thread nD τ).loc main_arg0)) (m ((c : Thread nD τ).loc main_arg3)) (m ((c : Thread nD τ).loc main_arg4)) (m ((c : Thread nD τ).loc main_arg5)) := by
  show StableHlo.after hostOps0 (W0 m ρ c) (Proc.devRef .tc main_v23) = _
  after_results_simp
  rfl
/-- Block 0 of layer 0's edge weight, at (k, q). -/
theorem l0_ew0 (k q : Fin 128) : (W1 m ρ c (Proc.devRef .tc main_v26) : S128x128.Idx → EReal) (ix2 k q) = (m ((c : Thread nD τ).loc main_arg8)) (ix3 (0 : Fin 3) (k384 0 (by omega) k) q) := by
  have e : W1 m ρ c (Proc.devRef .tc main_v26) = shapeCast S128x128 (extractStridedSlice S1x128x128 ![0, 0, 0] (W0 m ρ c (Proc.devRef .tc main_arg8)) slices_S3x384x128_S1x128x128_0_0_0) shapeCasts_S1x128x128_S128x128 := by
    show StableHlo.after hostOps0 (W0 m ρ c) (Proc.devRef .tc main_v26) = _
    after_results_simp
    rfl
  rw [e, W0_main_arg8 m ρ c]
  exact wslice (m ((c : Thread nD τ).loc main_arg8)) ![0, 0, 0] slices_S3x384x128_S1x128x128_0_0_0 shapeCasts_S1x128x128_S128x128 (0 : Fin 3) 0 rfl rfl rfl k q (k384 0 (by omega) k) rfl
/-- Block 1 of layer 0's edge weight, at (k, q). -/
theorem l0_ew1 (k q : Fin 128) : (W1 m ρ c (Proc.devRef .tc main_v29) : S128x128.Idx → EReal) (ix2 k q) = (m ((c : Thread nD τ).loc main_arg8)) (ix3 (0 : Fin 3) (k384 128 (by omega) k) q) := by
  have e : W1 m ρ c (Proc.devRef .tc main_v29) = shapeCast S128x128 (extractStridedSlice S1x128x128 ![0, 128, 0] (W0 m ρ c (Proc.devRef .tc main_arg8)) slices_S3x384x128_S1x128x128_0_128_0) shapeCasts_S1x128x128_S128x128 := by
    show StableHlo.after hostOps0 (W0 m ρ c) (Proc.devRef .tc main_v29) = _
    after_results_simp
    rfl
  rw [e, W0_main_arg8 m ρ c]
  exact wslice (m ((c : Thread nD τ).loc main_arg8)) ![0, 128, 0] slices_S3x384x128_S1x128x128_0_128_0 shapeCasts_S1x128x128_S128x128 (0 : Fin 3) 128 rfl rfl rfl k q (k384 128 (by omega) k) rfl
/-- Block 2 of layer 0's edge weight, at (k, q). -/
theorem l0_ew2 (k q : Fin 128) : (W1 m ρ c (Proc.devRef .tc main_v32) : S128x128.Idx → EReal) (ix2 k q) = (m ((c : Thread nD τ).loc main_arg8)) (ix3 (0 : Fin 3) (k384 256 (by omega) k) q) := by
  have e : W1 m ρ c (Proc.devRef .tc main_v32) = shapeCast S128x128 (extractStridedSlice S1x128x128 ![0, 256, 0] (W0 m ρ c (Proc.devRef .tc main_arg8)) slices_S3x384x128_S1x128x128_0_256_0) shapeCasts_S1x128x128_S128x128 := by
    show StableHlo.after hostOps0 (W0 m ρ c) (Proc.devRef .tc main_v32) = _
    after_results_simp
    rfl
  rw [e, W0_main_arg8 m ρ c]
  exact wslice (m ((c : Thread nD τ).loc main_arg8)) ![0, 256, 0] slices_S3x384x128_S1x128x128_0_256_0 shapeCasts_S1x128x128_S128x128 (0 : Fin 3) 256 rfl rfl rfl k q (k384 256 (by omega) k) rfl
/-- Layer 0's edge bias, at (0, q). -/
theorem l0_eb (q : Fin 128) : (W1 m ρ c (Proc.devRef .tc main_v35) : S1x128.Idx → EReal) (ix2 (0 : Fin 1) q) = (m ((c : Thread nD τ).loc main_arg9)) (ix2 (0 : Fin 3) q) := by
  have e : W1 m ρ c (Proc.devRef .tc main_v35) = shapeCast S1x128 (shapeCast S128 (extractStridedSlice S1x128 ![0, 0] (W0 m ρ c (Proc.devRef .tc main_arg9)) slices_S3x128_S1x128_0_0) shapeCasts_S1x128_S128) shapeCasts_S128_S1x128 := by
    show StableHlo.after hostOps0 (W0 m ρ c) (Proc.devRef .tc main_v35) = _
    after_results_simp
    rfl
  rw [e, W0_main_arg9 m ρ c]
  exact bslice (m ((c : Thread nD τ).loc main_arg9)) ![0, 0] slices_S3x128_S1x128_0_0 shapeCasts_S1x128_S128 shapeCasts_S128_S1x128 (0 : Fin 3) rfl rfl q

/-- The edge call of layer 0 returns the reference's new edge states. -/
theorem l0_Eo : W2 m ρ c (Proc.devRef .tc main_v36_0) = Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 7).trans ?_
  rw [Reg0.final7 (V1 m ρ) c]
  show mlp3 (W1 m ρ c (Proc.devRef .tc main_v16)) (W1 m ρ c (Proc.devRef .tc main_v23)) (W1 m ρ c (Proc.devRef .tc main_v8))
      (W1 m ρ c (Proc.devRef .tc main_v26)) (W1 m ρ c (Proc.devRef .tc main_v29)) (W1 m ρ c (Proc.devRef .tc main_v32)) (W1 m ρ c (Proc.devRef .tc main_v35)) = _
  rw [mlp3_eq_edgeL (0 : Fin 3) _ _ _ (m ((c : Thread nD τ).loc main_arg8)) (m ((c : Thread nD τ).loc main_arg9)) _ _ _ _ (l0_ew0 m ρ c) (l0_ew1 m ρ c) (l0_ew2 m ρ c) (l0_eb m ρ c),
    l0_A m ρ c, l0_B m ρ c, l0_E m ρ c]
  exact (Cert.RefLayers.ref_edge0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm
/-- The narrowed copy is the same array. -/
theorem l0_Eo16 : W2 m ρ c (Proc.devRef .tc main_v36_1) = Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 8).trans ?_
  rw [Reg0.final8 (V1 m ρ) c]
  exact ((Reg0.final7 (V1 m ρ) c).symm.trans (W2_arr m ρ c 7).symm).trans (l0_Eo m ρ c)

/-- The new edge states summed by destination. -/
theorem l0_G : W3 m ρ c (Proc.devRef .tc main_v39) = Cert.ReferenceIdeal.ReadP.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps1 (W2 m ρ c) (Proc.devRef .tc main_v39) = _
  after_results_simp
  rw [l0_Eo m ρ c, W2_main_arg3 m ρ c]
  unfold Cert.ReferenceIdeal.ReadP.val_main_v34
  generalize Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) = Y
  rfl
/-- The narrowed node states reach the node call unchanged. -/
theorem l0_Hn : W3 m ρ c (Proc.devRef .tc main_v9) = Cert.ReferenceIdeal.ReadP.val_main_v3 (F := Ideal) (m ((c : Thread nD τ).loc main_arg0)) (m ((c : Thread nD τ).loc main_arg4)) (m ((c : Thread nD τ).loc main_arg5)) :=
  (W3_main_v9 m ρ c).trans (l0_H m ρ c)
/-- Block 0 of layer 0's node weight, at (k, q). -/
theorem l0_nw0 (k q : Fin 128) : (W3 m ρ c (Proc.devRef .tc main_v42) : S128x128.Idx → EReal) (ix2 k q) = (m ((c : Thread nD τ).loc main_arg10)) (ix3 (0 : Fin 3) (k256 0 (by omega) k) q) := by
  have e : W3 m ρ c (Proc.devRef .tc main_v42) = shapeCast S128x128 (extractStridedSlice S1x128x128 ![0, 0, 0] (W2 m ρ c (Proc.devRef .tc main_arg10)) slices_S3x256x128_S1x128x128_0_0_0) shapeCasts_S1x128x128_S128x128 := by
    show StableHlo.after hostOps1 (W2 m ρ c) (Proc.devRef .tc main_v42) = _
    after_results_simp
    rfl
  rw [e, W2_main_arg10 m ρ c]
  exact wslice (m ((c : Thread nD τ).loc main_arg10)) ![0, 0, 0] slices_S3x256x128_S1x128x128_0_0_0 shapeCasts_S1x128x128_S128x128 (0 : Fin 3) 0 rfl rfl rfl k q (k256 0 (by omega) k) rfl
/-- Block 1 of layer 0's node weight, at (k, q). -/
theorem l0_nw1 (k q : Fin 128) : (W3 m ρ c (Proc.devRef .tc main_v45) : S128x128.Idx → EReal) (ix2 k q) = (m ((c : Thread nD τ).loc main_arg10)) (ix3 (0 : Fin 3) (k256 128 (by omega) k) q) := by
  have e : W3 m ρ c (Proc.devRef .tc main_v45) = shapeCast S128x128 (extractStridedSlice S1x128x128 ![0, 128, 0] (W2 m ρ c (Proc.devRef .tc main_arg10)) slices_S3x256x128_S1x128x128_0_128_0) shapeCasts_S1x128x128_S128x128 := by
    show StableHlo.after hostOps1 (W2 m ρ c) (Proc.devRef .tc main_v45) = _
    after_results_simp
    rfl
  rw [e, W2_main_arg10 m ρ c]
  exact wslice (m ((c : Thread nD τ).loc main_arg10)) ![0, 128, 0] slices_S3x256x128_S1x128x128_0_128_0 shapeCasts_S1x128x128_S128x128 (0 : Fin 3) 128 rfl rfl rfl k q (k256 128 (by omega) k) rfl
/-- Layer 0's node bias, at (0, q). -/
theorem l0_nb (q : Fin 128) : (W3 m ρ c (Proc.devRef .tc main_v48) : S1x128.Idx → EReal) (ix2 (0 : Fin 1) q) = (m ((c : Thread nD τ).loc main_arg11)) (ix2 (0 : Fin 3) q) := by
  have e : W3 m ρ c (Proc.devRef .tc main_v48) = shapeCast S1x128 (shapeCast S128 (extractStridedSlice S1x128 ![0, 0] (W2 m ρ c (Proc.devRef .tc main_arg11)) slices_S3x128_S1x128_0_0) shapeCasts_S1x128_S128) shapeCasts_S128_S1x128 := by
    show StableHlo.after hostOps1 (W2 m ρ c) (Proc.devRef .tc main_v48) = _
    after_results_simp
    rfl
  rw [e, W2_main_arg11 m ρ c]
  exact bslice (m ((c : Thread nD τ).loc main_arg11)) ![0, 0] slices_S3x128_S1x128_0_0 shapeCasts_S1x128_S128 shapeCasts_S128_S1x128 (0 : Fin 3) rfl rfl q

/-- The node call of layer 0 returns the reference's new node states. -/
theorem l0_Ho : W4 m ρ c (Proc.devRef .tc main_v49) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W4_arr m ρ c 5).trans ?_
  rw [Reg1.final5 (V3 m ρ) c]
  show mlp2 (W3 m ρ c (Proc.devRef .tc main_v9)) (W3 m ρ c (Proc.devRef .tc main_v39))
      (W3 m ρ c (Proc.devRef .tc main_v42)) (W3 m ρ c (Proc.devRef .tc main_v45)) (W3 m ρ c (Proc.devRef .tc main_v48)) = _
  rw [mlp2_eq_nodeL (0 : Fin 3) _ _ (m ((c : Thread nD τ).loc main_arg10)) (m ((c : Thread nD τ).loc main_arg11)) _ _ _ (l0_nw0 m ρ c) (l0_nw1 m ρ c) (l0_nb m ρ c),
    l0_Hn m ρ c, l0_G m ρ c]
  exact (Cert.RefLayers.ref_node0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

end Cert.KernelIdeal.Chain

end
-- ==== Proof.Reg2.lean ====
/-
  Pipelined edge call 1 of the program, as one function of the arrays it is entered with.

  The grid has 75 points; at point t the three row windows hold rows 8000·t … 8000·t + 7999 of their arrays, the three
  weight windows and the bias window hold their whole arrays, and the two output windows are written back to rows
  8000·t … of their arrays.  An entry of an output block depends on one row of the row blocks only, so the block
  written back at t is the block at t of the edge update of the WHOLE arrays; the 75 blocks cover the output.
-/
import proofs.«122216_j7713761264053_2_alg».proof.Proof.Gen.KernelIdeal.Frame
import proofs.«122216_j7713761264053_2_alg».proof.Proof.Payload

set_option maxRecDepth 16384

noncomputable section

namespace Cert.KernelIdeal.Reg2

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.GnSpec Cert.KernelIdeal.Pay

-- the TensorCore's buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is the point, every other window sits at block (0, 0). -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- Row 8000·t + p of a 600000-row array. -/
def rowOf (t : Fin 75) (p : Fin 8000) : Fin 600000 := ⟨8000 * t.val + p.val, by have := t.isLt; have := p.isLt; omega⟩

/-- Row window 0's block at point t holds rows 8000·t … of its array. -/
theorem read_row0 (c : Dev nD) (t : Fin cfg2.N) (p : Fin 8000) (k : Fin 128) :
    iblk2 V c 0 t (ix2 p k) = V c main_v57 (ix2 (rowOf t p) k) := by
  show V c main_v57 (((cfg2.win 0).blk t).view.emb (ix2 p k)) = _
  obtain ⟨e00, e01, e10, e11, e20, e21, -⟩ := idx_facts t
  refine congrArg _ (funext fun a => Fin.ext ?_)
  match a with
  | ⟨0, _⟩ => show win2_0.index t (0 : Fin 2) * 8000 + 1 * p.val = 8000 * t.val + p.val; omega
  | ⟨1, _⟩ => show win2_0.index t (1 : Fin 2) * 128 + 1 * k.val = k.val; omega

/-- Row window 1's block at point t holds rows 8000·t … of its array. -/
theorem read_row1 (c : Dev nD) (t : Fin cfg2.N) (p : Fin 8000) (k : Fin 128) :
    iblk2 V c 1 t (ix2 p k) = V c main_v64 (ix2 (rowOf t p) k) := by
  show V c main_v64 (((cfg2.win 1).blk t).view.emb (ix2 p k)) = _
  obtain ⟨e00, e01, e10, e11, e20, e21, -⟩ := idx_facts t
  refine congrArg _ (funext fun a => Fin.ext ?_)
  match a with
  | ⟨0, _⟩ => show win2_1.index t (0 : Fin 2) * 8000 + 1 * p.val = 8000 * t.val + p.val; omega
  | ⟨1, _⟩ => show win2_1.index t (1 : Fin 2) * 128 + 1 * k.val = k.val; omega

/-- Row window 2's block at point t holds rows 8000·t … of its array. -/
theorem read_row2 (c : Dev nD) (t : Fin cfg2.N) (p : Fin 8000) (k : Fin 128) :
    iblk2 V c 2 t (ix2 p k) = V c main_v36_1 (ix2 (rowOf t p) k) := by
  show V c main_v36_1 (((cfg2.win 2).blk t).view.emb (ix2 p k)) = _
  obtain ⟨e00, e01, e10, e11, e20, e21, -⟩ := idx_facts t
  refine congrArg _ (funext fun a => Fin.ext ?_)
  match a with
  | ⟨0, _⟩ => show win2_2.index t (0 : Fin 2) * 8000 + 1 * p.val = 8000 * t.val + p.val; omega
  | ⟨1, _⟩ => show win2_2.index t (1 : Fin 2) * 128 + 1 * k.val = k.val; omega

/-- Weight window 3's block is its whole array. -/
theorem read_w3 (c : Dev nD) (t : Fin cfg2.N) (k : Fin 128) (q : Fin 128) :
    iblk2 V c 3 t (ix2 k q) = V c main_v67 (ix2 k q) := by
  show V c main_v67 (((cfg2.win 3).blk t).view.emb (ix2 k q)) = _
  obtain ⟨-, -, -, -, -, -, e30, e31, e40, e41, e50, e51, -⟩ := idx_facts t
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-- Weight window 4's block is its whole array. -/
theorem read_w4 (c : Dev nD) (t : Fin cfg2.N) (k : Fin 128) (q : Fin 128) :
    iblk2 V c 4 t (ix2 k q) = V c main_v70 (ix2 k q) := by
  show V c main_v70 (((cfg2.win 4).blk t).view.emb (ix2 k q)) = _
  obtain ⟨-, -, -, -, -, -, e30, e31, e40, e41, e50, e51, -⟩ := idx_facts t
  refine congrArg _ (funext fun a => Fin.ext ?_)
  match a with
  | ⟨0, _⟩ => show win2_4.index t (0 : Fin 2) * 128 + 1 * k.val = k.val; omega
  | ⟨1, _⟩ => show win2_4.index t (1 : Fin 2) * 128 + 1 * q.val = q.val; omega

/-- Weight window 5's block is its whole array. -/
theorem read_w5 (c : Dev nD) (t : Fin cfg2.N) (k : Fin 128) (q : Fin 128) :
    iblk2 V c 5 t (ix2 k q) = V c main_v73 (ix2 k q) := by
  show V c main_v73 (((cfg2.win 5).blk t).view.emb (ix2 k q)) = _
  obtain ⟨-, -, -, -, -, -, e30, e31, e40, e41, e50, e51, -⟩ := idx_facts t
  refine congrArg _ (funext fun a => Fin.ext ?_)
  match a with
  | ⟨0, _⟩ => show win2_5.index t (0 : Fin 2) * 128 + 1 * k.val = k.val; omega
  | ⟨1, _⟩ => show win2_5.index t (1 : Fin 2) * 128 + 1 * q.val = q.val; omega

/-- The bias window's block is its whole array. -/
theorem read_b (c : Dev nD) (t : Fin cfg2.N) (q : Fin 128) :
    iblk2 V c 6 t (ix2 (0 : Fin 1) q) = V c main_v76 (ix2 (0 : Fin 1) q) := by
  show V c main_v76 (((cfg2.win 6).blk t).view.emb (ix2 (0 : Fin 1) q)) = _
  obtain ⟨-, -, -, -, -, -, -, -, -, -, -, -, e60, e61, -⟩ := idx_facts t
  refine congrArg _ (funext fun a => Fin.ext ?_)
  match a with
  | ⟨0, _⟩ => show win2_6.index t (0 : Fin 2) * 1 + 1 * 0 = 0; omega
  | ⟨1, _⟩ => show win2_6.index t (1 : Fin 2) * 128 + 1 * q.val = q.val; omega

/-- The edge update of the arrays the call is entered with. -/
abbrev G (c : Dev nD) : Arr2 600000 128 :=
  mlp3 (V c main_v57) (V c main_v64) (V c main_v36_1) (V c main_v67) (V c main_v70) (V c main_v73) (V c main_v76)

/-- The edge body of the blocks at point t, at (p, q), is the edge update of the whole arrays at row 8000·t + p. -/
theorem body_at (c : Dev nD) (t : Fin cfg2.N) (p : Fin 8000) (q : Fin 128) :
    k2_pay1 (F := Ideal) (iblk2 V c 0 t) (iblk2 V c 1 t) (iblk2 V c 2 t) (iblk2 V c 3 t) (iblk2 V c 4 t) (iblk2 V c 5 t) (iblk2 V c 6 t) (ix2 p q)
      = G V c (ix2 (rowOf t p) q) := by
  rw [k2_pay1_eq]
  refine (edge_pay (iblk2 V c 0 t) (iblk2 V c 1 t) (iblk2 V c 2 t) (iblk2 V c 3 t) (iblk2 V c 4 t) (iblk2 V c 5 t) (iblk2 V c 6 t) p q).trans ?_
  show _ = mlp3At (V c main_v57) (V c main_v64) (V c main_v36_1) (V c main_v67) (V c main_v70) (V c main_v73) (V c main_v76) (rowOf t p) q
  unfold mlp3At
  simp only [read_row0 V c t, read_row1 V c t, read_row2 V c t, read_w3 V c t, read_w4 V c t, read_w5 V c t, read_b V c t]

/-- Where output window 7's block at point t sits in its array. -/
theorem emb7 (t : Fin cfg2.N) (p : Fin 8000) (q : Fin 128) :
    ((cfg2.win 7).blk t).view.emb (ix2 p q) = ix2 (rowOf t p) q := by
  obtain ⟨-, -, -, -, -, -, -, -, -, -, -, -, -, -, e70, e71, e80, e81⟩ := idx_facts t
  refine funext fun a => Fin.ext ?_
  match a with
  | ⟨0, _⟩ => show win2_7.index t (0 : Fin 2) * 8000 + 1 * p.val = 8000 * t.val + p.val; omega
  | ⟨1, _⟩ => show win2_7.index t (1 : Fin 2) * 128 + 1 * q.val = q.val; omega

/-- What point t writes back through output window 7 is the block at t of the edge update of the whole arrays. -/
theorem flushed7 (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (iblk2 V c 6 t) (ix2 p q)
    = G V c (((cfg2.win 7).blk t).view.emb (ix2 p q))
  rw [emb7 t p q]
  exact body_at V c t p q

/-- An index of the array is in point t's block iff each coordinate is in the block's range on its axis. -/
theorem mem_blk7 (t : Fin cfg2.N) (i : S600000x128.Idx) :
    i ∈ ((cfg2.win 7).blk t).view.set ↔ ∀ a : Fin 2, win2_7.index t a * S8000x128.size a ≤ (i a).val ∧ (i a).val < win2_7.index t a * S8000x128.size a + S8000x128.size a := by
  show i ∈ ((View.whole main_v77_0).slice (win2_7.rect t)).set ↔ _
  rw [View.set_slice_whole, Rect.mem_set_unit]
  exact Iff.rfl

/-- Every index of the output array is in the block of the point its row falls in. -/
theorem cover7 (i : S600000x128.Idx) : ∃ t : Fin cfg2.N, (cfg2.win 7).flush t = true ∧ i ∈ ((cfg2.win 7).blk t).view.set := by
  have hi0 : (i 0).val < 600000 := (i 0).isLt
  have hi1 : (i 1).val < 128 := (i 1).isLt
  let t : Fin cfg2.N := ⟨(i 0).val / 8000, by show (i 0).val / 8000 < 75; omega⟩
  have htv : t.val = (i 0).val / 8000 := rfl
  obtain ⟨-, -, -, -, -, -, -, -, -, -, -, -, -, -, e70, e71, e80, e81⟩ := idx_facts t
  refine ⟨t, flush2_7 t, ?_⟩
  rw [mem_blk7]
  intro a
  match a with
  | ⟨0, _⟩ => show win2_7.index t (0 : Fin 2) * 8000 ≤ (i 0).val ∧ (i 0).val < win2_7.index t (0 : Fin 2) * 8000 + 8000; omega
  | ⟨1, _⟩ => show win2_7.index t (1 : Fin 2) * 128 ≤ (i 1).val ∧ (i 1).val < win2_7.index t (1 : Fin 2) * 128 + 128; omega

/-- The output array after the call is the edge update of the arrays the call is entered with. -/
theorem final7 (c : Dev nD) : (dat2 V c).arrAt 7 cfg2.N = G V c :=
  (dat2 V c).arrAt_eq_of_cover 7 (G V c) (fun t _ => flushed7 V c t) (fun i => cover7 i)

/-- Where output window 8's block at point t sits in its array. -/
theorem emb8 (t : Fin cfg2.N) (p : Fin 8000) (q : Fin 128) :
    ((cfg2.win 8).blk t).view.emb (ix2 p q) = ix2 (rowOf t p) q := by
  obtain ⟨-, -, -, -, -, -, -, -, -, -, -, -, -, -, e70, e71, e80, e81⟩ := idx_facts t
  refine funext fun a => Fin.ext ?_
  match a with
  | ⟨0, _⟩ => show win2_8.index t (0 : Fin 2) * 8000 + 1 * p.val = 8000 * t.val + p.val; omega
  | ⟨1, _⟩ => show win2_8.index t (1 : Fin 2) * 128 + 1 * q.val = q.val; omega

/-- What point t writes back through output window 8 is the block at t of the edge update of the whole arrays. -/
theorem flushed8 (c : Dev nD) (t : Fin cfg2.N) :
    (dat2 V c).flushed 8 t = ((cfg2.win 8).blk t).view.read (Elt Ideal) (G V c) := by
  show (cfg2.win 8).cut (grid2.coords t) ((dat2 V c).after 8 t) = _
  rw [after2_8]
  unfold out2_8
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k2_pay2 (F := Ideal) (iblk2 V c 0 t) (iblk2 V c 1 t) (iblk2 V c 2 t) (iblk2 V c 3 t) (iblk2 V c 4 t) (iblk2 V c 5 t) (iblk2 V c 6 t) (ix2 p q)
    = G V c (((cfg2.win 8).blk t).view.emb (ix2 p q))
  rw [k2_pay2_eq]
  rw [emb8 t p q]
  exact body_at V c t p q

/-- An index of the array is in point t's block iff each coordinate is in the block's range on its axis. -/
theorem mem_blk8 (t : Fin cfg2.N) (i : S600000x128.Idx) :
    i ∈ ((cfg2.win 8).blk t).view.set ↔ ∀ a : Fin 2, win2_8.index t a * S8000x128.size a ≤ (i a).val ∧ (i a).val < win2_8.index t a * S8000x128.size a + S8000x128.size a := by
  show i ∈ ((View.whole main_v77_1).slice (win2_8.rect t)).set ↔ _
  rw [View.set_slice_whole, Rect.mem_set_unit]
  exact Iff.rfl

/-- Every index of the output array is in the block of the point its row falls in. -/
theorem cover8 (i : S600000x128.Idx) : ∃ t : Fin cfg2.N, (cfg2.win 8).flush t = true ∧ i ∈ ((cfg2.win 8).blk t).view.set := by
  have hi0 : (i 0).val < 600000 := (i 0).isLt
  have hi1 : (i 1).val < 128 := (i 1).isLt
  let t : Fin cfg2.N := ⟨(i 0).val / 8000, by show (i 0).val / 8000 < 75; omega⟩
  have htv : t.val = (i 0).val / 8000 := rfl
  obtain ⟨-, -, -, -, -, -, -, -, -, -, -, -, -, -, e70, e71, e80, e81⟩ := idx_facts t
  refine ⟨t, flush2_8 t, ?_⟩
  rw [mem_blk8]
  intro a
  match a with
  | ⟨0, _⟩ => show win2_8.index t (0 : Fin 2) * 8000 ≤ (i 0).val ∧ (i 0).val < win2_8.index t (0 : Fin 2) * 8000 + 8000; omega
  | ⟨1, _⟩ => show win2_8.index t (1 : Fin 2) * 128 ≤ (i 1).val ∧ (i 1).val < win2_8.index t (1 : Fin 2) * 128 + 128; omega

/-- The output array after the call is the edge update of the arrays the call is entered with. -/
theorem final8 (c : Dev nD) : (dat2 V c).arrAt 8 cfg2.N = G V c :=
  (dat2 V c).arrAt_eq_of_cover 8 (G V c) (fun t _ => flushed8 V c t) (fun i => cover8 i)

end Cert.KernelIdeal.Reg2

end
-- ==== Proof.Reg3.lean ====
/-
  Pipelined node call 1 of the program, as one function of the arrays it is entered with.

  The grid has 25 points; at point t the two row windows hold rows 2000·t … 2000·t + 1999 of their arrays, the two
  weight windows and the bias window hold their whole arrays, and the output window is written back to rows 2000·t …
  of its array.  An entry of the output block depends on one row of the row blocks only, so the block written back at
  t is the block at t of the node update of the WHOLE arrays; the 25 blocks cover the output.
-/
import proofs.«122216_j7713761264053_2_alg».proof.Proof.Gen.KernelIdeal.Frame
import proofs.«122216_j7713761264053_2_alg».proof.Proof.Payload

set_option maxRecDepth 16384

noncomputable section

namespace Cert.KernelIdeal.Reg3

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.GnSpec Cert.KernelIdeal.Pay

-- the TensorCore's buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is the point, every other window sits at block (0, 0). -/
theorem idx_facts : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row 2000·t + p of a 50000-row array. -/
def rowOf (t : Fin 25) (p : Fin 2000) : Fin 50000 := ⟨2000 * t.val + p.val, by have := t.isLt; have := p.isLt; omega⟩

/-- Row window 0's block at point t holds rows 2000·t … of its array. -/
theorem read_row0 (c : Dev nD) (t : Fin cfg3.N) (p : Fin 2000) (k : Fin 128) :
    iblk3 V c 0 t (ix2 p k) = V c main_v50 (ix2 (rowOf t p) k) := by
  show V c main_v50 (((cfg3.win 0).blk t).view.emb (ix2 p k)) = _
  obtain ⟨e00, e01, e10, e11, -⟩ := idx_facts t
  refine congrArg _ (funext fun a => Fin.ext ?_)
  match a with
  | ⟨0, _⟩ => show win3_0.index t (0 : Fin 2) * 2000 + 1 * p.val = 2000 * t.val + p.val; omega
  | ⟨1, _⟩ => show win3_0.index t (1 : Fin 2) * 128 + 1 * k.val = k.val; omega

/-- Row window 1's block at point t holds rows 2000·t … of its array. -/
theorem read_row1 (c : Dev nD) (t : Fin cfg3.N) (p : Fin 2000) (k : Fin 128) :
    iblk3 V c 1 t (ix2 p k) = V c main_v80 (ix2 (rowOf t p) k) := by
  show V c main_v80 (((cfg3.win 1).blk t).view.emb (ix2 p k)) = _
  obtain ⟨e00, e01, e10, e11, -⟩ := idx_facts t
  refine congrArg _ (funext fun a => Fin.ext ?_)
  match a with
  | ⟨0, _⟩ => show win3_1.index t (0 : Fin 2) * 2000 + 1 * p.val = 2000 * t.val + p.val; omega
  | ⟨1, _⟩ => show win3_1.index t (1 : Fin 2) * 128 + 1 * k.val = k.val; omega

/-- Weight window 2's block is its whole array. -/
theorem read_w2 (c : Dev nD) (t : Fin cfg3.N) (k : Fin 128) (q : Fin 128) :
    iblk3 V c 2 t (ix2 k q) = V c main_v83 (ix2 k q) := by
  show V c main_v83 (((cfg3.win 2).blk t).view.emb (ix2 k q)) = _
  obtain ⟨-, -, -, -, e20, e21, e30, e31, -⟩ := idx_facts t
  refine congrArg _ (funext fun a => Fin.ext ?_)
  match a with
  | ⟨0, _⟩ => show win3_2.index t (0 : Fin 2) * 128 + 1 * k.val = k.val; omega
  | ⟨1, _⟩ => show win3_2.index t (1 : Fin 2) * 128 + 1 * q.val = q.val; omega

/-- Weight window 3's block is its whole array. -/
theorem read_w3 (c : Dev nD) (t : Fin cfg3.N) (k : Fin 128) (q : Fin 128) :
    iblk3 V c 3 t (ix2 k q) = V c main_v86 (ix2 k q) := by
  show V c main_v86 (((cfg3.win 3).blk t).view.emb (ix2 k q)) = _
  obtain ⟨-, -, -, -, e20, e21, e30, e31, -⟩ := idx_facts t
  refine congrArg _ (funext fun a => Fin.ext ?_)
  match a with
  | ⟨0, _⟩ => show win3_3.index t (0 : Fin 2) * 128 + 1 * k.val = k.val; omega
  | ⟨1, _⟩ => show win3_3.index t (1 : Fin 2) * 128 + 1 * q.val = q.val; omega

/-- The bias window's block is its whole array. -/
theorem read_b (c : Dev nD) (t : Fin cfg3.N) (q : Fin 128) :
    iblk3 V c 4 t (ix2 (0 : Fin 1) q) = V c main_v89 (ix2 (0 : Fin 1) q) := by
  show V c main_v89 (((cfg3.win 4).blk t).view.emb (ix2 (0 : Fin 1) q)) = _
  obtain ⟨-, -, -, -, -, -, -, -, e40, e41, -⟩ := idx_facts t
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

/-- The node update of the arrays the call is entered with. -/
abbrev G (c : Dev nD) : Arr2 50000 128 :=
  mlp2 (V c main_v50) (V c main_v80) (V c main_v83) (V c main_v86) (V c main_v89)

/-- The node body of the blocks at point t, at (p, q), is the node update of the whole arrays at row 2000·t + p. -/
theorem body_at (c : Dev nD) (t : Fin cfg3.N) (p : Fin 2000) (q : Fin 128) :
    k3_pay1 (F := Ideal) (iblk3 V c 0 t) (iblk3 V c 1 t) (iblk3 V c 2 t) (iblk3 V c 3 t) (iblk3 V c 4 t) (ix2 p q)
      = G V c (ix2 (rowOf t p) q) := by
  rw [k3_pay1_eq]
  refine (node_pay (iblk3 V c 0 t) (iblk3 V c 1 t) (iblk3 V c 2 t) (iblk3 V c 3 t) (iblk3 V c 4 t) p q).trans ?_
  show _ = mlp2At (V c main_v50) (V c main_v80) (V c main_v83) (V c main_v86) (V c main_v89) (rowOf t p) q
  unfold mlp2At
  simp only [read_row0 V c t, read_row1 V c t, read_w2 V c t, read_w3 V c t, read_b V c t]

/-- Where the output window's block at point t sits in its array. -/
theorem emb5 (t : Fin cfg3.N) (p : Fin 2000) (q : Fin 128) :
    ((cfg3.win 5).blk t).view.emb (ix2 p q) = ix2 (rowOf t p) q := by
  obtain ⟨-, -, -, -, -, -, -, -, -, -, e50, e51⟩ := idx_facts t
  refine funext fun a => Fin.ext ?_
  match a with
  | ⟨0, _⟩ => show win3_5.index t (0 : Fin 2) * 2000 + 1 * p.val = 2000 * t.val + p.val; omega
  | ⟨1, _⟩ => show win3_5.index t (1 : Fin 2) * 128 + 1 * q.val = q.val; omega

/-- What point t writes back is the block at t of the node update of the whole arrays. -/
theorem flushed5 (c : Dev nD) (t : Fin cfg3.N) :
    (dat3 V c).flushed 5 t = ((cfg3.win 5).blk t).view.read (Elt Ideal) (G V c) := by
  show (cfg3.win 5).cut (grid3.coords t) ((dat3 V c).after 5 t) = _
  rw [after3_5]
  unfold out3_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = G V c (((cfg3.win 5).blk t).view.emb (ix2 p q))
  rw [emb5 t p q]
  exact body_at V c t p q

/-- An index of the array is in point t's block iff each coordinate is in the block's range on its axis. -/
theorem mem_blk5 (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v90).slice (win3_5.rect t)).set ↔ _
  rw [View.set_slice_whole, Rect.mem_set_unit]
  exact Iff.rfl

/-- Every index of the output array is in the block of the point its row falls in. -/
theorem cover5 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  let t : Fin cfg3.N := ⟨(i 0).val / 2000, by show (i 0).val / 2000 < 25; omega⟩
  have htv : t.val = (i 0).val / 2000 := rfl
  obtain ⟨-, -, -, -, -, -, -, -, -, -, e50, e51⟩ := idx_facts t
  refine ⟨t, flush3_5 t, ?_⟩
  rw [mem_blk5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The output array after the call is the node update of the arrays the call is entered with. -/
theorem final5 (c : Dev nD) : (dat3 V c).arrAt 5 cfg3.N = G V c :=
  (dat3 V c).arrAt_eq_of_cover 5 (G V c) (fun t _ => flushed5 V c t) (fun i => cover5 i)

end Cert.KernelIdeal.Reg3

end
-- ==== Proof.Chain1.lean ====
/-
  Layer 1 of the kernel program, value by value, against the reference program's stages.

  Entering the layer, the node states and the edge states the kernel program holds are the reference's (the narrowed
  copies are the same arrays: a change of float format is the identity on the extended reals).  The host gathers the
  node states at the sources and at the destinations with the very operations of the reference, so the gathered
  arrays are the reference's; the edge call returns the edge update of what it is given, which is the reference's
  rectified product of the three arrays joined along the columns with the layer's whole [384, 128] weight, because a
  sum over 384 columns is the sum of the sums over its three blocks; the host scatter-adds the new edge states by
  destination with the reference's operation; and the node call returns the node update, likewise the reference's.
-/
import proofs.«122216_j7713761264053_2_alg».proof.Proof.Chain0
import proofs.«122216_j7713761264053_2_alg».proof.Proof.Reg2
import proofs.«122216_j7713761264053_2_alg».proof.Proof.Reg3
import Idealize.ShloMosaic.Lib.StableHlo.Run

set_option maxRecDepth 16384

noncomputable section

namespace Cert.KernelIdeal.Chain

open Idealize.ShloMosaic Idealize.ShloMosaic.TcCoe Idealize.ShloMosaic.StableHlo
open Idealize.SL Idealize.SL.Sem Idealize.ShloMosaic.ValueIdx
open Cert.KernelIdeal Cert.KernelIdeal.Gen Cert.KernelIdeal.Keep Cert.GnSpec Cert.GnSlices

variable (m : (ℓ : Loc nD τ sig) → Buf (Elt Ideal) ℓ) (ρ : Dev nD → PrngReg) (c : Dev nD)

/-- The node states entering layer 1, narrowed. -/
theorem l1_H : W5 m ρ c (Proc.devRef .tc main_v50) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v50) = _
  after_results_simp
  rw [l0_Ho m ρ c]
  generalize Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- The edge states entering layer 1, narrowed by the previous edge call, reach this one unchanged. -/
theorem l1_E : W5 m ρ c (Proc.devRef .tc main_v36_1) = Cert.ReferenceIdeal.ReadP.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W5_main_v36_1 m ρ c).trans (l0_Eo16 m ρ c)
/-- The node states gathered at the sources. -/
theorem l1_A : W5 m ρ c (Proc.devRef .tc main_v57) = Cert.ReferenceIdeal.ReadP.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v57) = _
  after_results_simp
  rw [l0_Ho m ρ c, W4_main_arg2 m ρ c]
  unfold Cert.ReferenceIdeal.ReadP.val_main_v51
  generalize Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- The node states gathered at the destinations. -/
theorem l1_B : W5 m ρ c (Proc.devRef .tc main_v64) = Cert.ReferenceIdeal.ReadP.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps2 (W4 m ρ c) (Proc.devRef .tc main_v64) = _
  after_results_simp
  rw [l0_Ho m ρ c, W4_main_arg3 m ρ c]
  unfold Cert.ReferenceIdeal.ReadP.val_main_v58
  generalize Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- Block 0 of layer 1's edge weight, at (k, q). -/
theorem l1_ew0 (k q : Fin 128) : (W5 m ρ c (Proc.devRef .tc main_v67) : S128x128.Idx → EReal) (ix2 k q) = (m ((c : Thread nD τ).loc main_arg8)) (ix3 (1 : Fin 3) (k384 0 (by omega) k) q) := by
  have e : W5 m ρ c (Proc.devRef .tc main_v67) = shapeCast S128x128 (extractStridedSlice S1x128x128 ![1, 0, 0] (W4 m ρ c (Proc.devRef .tc main_arg8)) slices_S3x384x128_S1x128x128_1_0_0) shapeCasts_S1x128x128_S128x128 := by
    show StableHlo.after hostOps2 (W4 m ρ c) (Proc.devRef .tc main_v67) = _
    after_results_simp
    rfl
  rw [e, W4_main_arg8 m ρ c]
  exact wslice (m ((c : Thread nD τ).loc main_arg8)) ![1, 0, 0] slices_S3x384x128_S1x128x128_1_0_0 shapeCasts_S1x128x128_S128x128 (1 : Fin 3) 0 rfl rfl rfl k q (k384 0 (by omega) k) rfl
/-- Block 1 of layer 1's edge weight, at (k, q). -/
theorem l1_ew1 (k q : Fin 128) : (W5 m ρ c (Proc.devRef .tc main_v70) : S128x128.Idx → EReal) (ix2 k q) = (m ((c : Thread nD τ).loc main_arg8)) (ix3 (1 : Fin 3) (k384 128 (by omega) k) q) := by
  have e : W5 m ρ c (Proc.devRef .tc main_v70) = shapeCast S128x128 (extractStridedSlice S1x128x128 ![1, 128, 0] (W4 m ρ c (Proc.devRef .tc main_arg8)) slices_S3x384x128_S1x128x128_1_128_0) shapeCasts_S1x128x128_S128x128 := by
    show StableHlo.after hostOps2 (W4 m ρ c) (Proc.devRef .tc main_v70) = _
    after_results_simp
    rfl
  rw [e, W4_main_arg8 m ρ c]
  exact wslice (m ((c : Thread nD τ).loc main_arg8)) ![1, 128, 0] slices_S3x384x128_S1x128x128_1_128_0 shapeCasts_S1x128x128_S128x128 (1 : Fin 3) 128 rfl rfl rfl k q (k384 128 (by omega) k) rfl
/-- Block 2 of layer 1's edge weight, at (k, q). -/
theorem l1_ew2 (k q : Fin 128) : (W5 m ρ c (Proc.devRef .tc main_v73) : S128x128.Idx → EReal) (ix2 k q) = (m ((c : Thread nD τ).loc main_arg8)) (ix3 (1 : Fin 3) (k384 256 (by omega) k) q) := by
  have e : W5 m ρ c (Proc.devRef .tc main_v73) = shapeCast S128x128 (extractStridedSlice S1x128x128 ![1, 256, 0] (W4 m ρ c (Proc.devRef .tc main_arg8)) slices_S3x384x128_S1x128x128_1_256_0) shapeCasts_S1x128x128_S128x128 := by
    show StableHlo.after hostOps2 (W4 m ρ c) (Proc.devRef .tc main_v73) = _
    after_results_simp
    rfl
  rw [e, W4_main_arg8 m ρ c]
  exact wslice (m ((c : Thread nD τ).loc main_arg8)) ![1, 256, 0] slices_S3x384x128_S1x128x128_1_256_0 shapeCasts_S1x128x128_S128x128 (1 : Fin 3) 256 rfl rfl rfl k q (k384 256 (by omega) k) rfl
/-- Layer 1's edge bias, at (0, q). -/
theorem l1_eb (q : Fin 128) : (W5 m ρ c (Proc.devRef .tc main_v76) : S1x128.Idx → EReal) (ix2 (0 : Fin 1) q) = (m ((c : Thread nD τ).loc main_arg9)) (ix2 (1 : Fin 3) q) := by
  have e : W5 m ρ c (Proc.devRef .tc main_v76) = shapeCast S1x128 (shapeCast S128 (extractStridedSlice S1x128 ![1, 0] (W4 m ρ c (Proc.devRef .tc main_arg9)) slices_S3x128_S1x128_1_0) shapeCasts_S1x128_S128) shapeCasts_S128_S1x128 := by
    show StableHlo.after hostOps2 (W4 m ρ c) (Proc.devRef .tc main_v76) = _
    after_results_simp
    rfl
  rw [e, W4_main_arg9 m ρ c]
  exact bslice (m ((c : Thread nD τ).loc main_arg9)) ![1, 0] slices_S3x128_S1x128_1_0 shapeCasts_S1x128_S128 shapeCasts_S128_S1x128 (1 : Fin 3) rfl rfl q

/-- The edge call of layer 1 returns the reference's new edge states. -/
theorem l1_Eo : W6 m ρ c (Proc.devRef .tc main_v77_0) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 7).trans ?_
  rw [Reg2.final7 (V5 m ρ) c]
  show mlp3 (W5 m ρ c (Proc.devRef .tc main_v57)) (W5 m ρ c (Proc.devRef .tc main_v64)) (W5 m ρ c (Proc.devRef .tc main_v36_1))
      (W5 m ρ c (Proc.devRef .tc main_v67)) (W5 m ρ c (Proc.devRef .tc main_v70)) (W5 m ρ c (Proc.devRef .tc main_v73)) (W5 m ρ c (Proc.devRef .tc main_v76)) = _
  rw [mlp3_eq_edgeL (1 : Fin 3) _ _ _ (m ((c : Thread nD τ).loc main_arg8)) (m ((c : Thread nD τ).loc main_arg9)) _ _ _ _ (l1_ew0 m ρ c) (l1_ew1 m ρ c) (l1_ew2 m ρ c) (l1_eb m ρ c),
    l1_A m ρ c, l1_B m ρ c, l1_E m ρ c]
  exact (Cert.RefLayers.ref_edge1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm
/-- The narrowed copy is the same array. -/
theorem l1_Eo16 : W6 m ρ c (Proc.devRef .tc main_v77_1) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W6_arr m ρ c 8).trans ?_
  rw [Reg2.final8 (V5 m ρ) c]
  exact ((Reg2.final7 (V5 m ρ) c).symm.trans (W6_arr m ρ c 7).symm).trans (l1_Eo m ρ c)

/-- The new edge states summed by destination. -/
theorem l1_G : W7 m ρ c (Proc.devRef .tc main_v80) = Cert.ReferenceIdeal.ReadP.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v80) = _
  after_results_simp
  rw [l1_Eo m ρ c, W6_main_arg3 m ρ c]
  unfold Cert.ReferenceIdeal.ReadP.val_main_v71
  generalize Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- The narrowed node states reach the node call unchanged. -/
theorem l1_Hn : W7 m ρ c (Proc.devRef .tc main_v50) = Cert.ReferenceIdeal.ReadP.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W7_main_v50 m ρ c).trans (l1_H m ρ c)
/-- Block 0 of layer 1's node weight, at (k, q). -/
theorem l1_nw0 (k q : Fin 128) : (W7 m ρ c (Proc.devRef .tc main_v83) : S128x128.Idx → EReal) (ix2 k q) = (m ((c : Thread nD τ).loc main_arg10)) (ix3 (1 : Fin 3) (k256 0 (by omega) k) q) := by
  have e : W7 m ρ c (Proc.devRef .tc main_v83) = shapeCast S128x128 (extractStridedSlice S1x128x128 ![1, 0, 0] (W6 m ρ c (Proc.devRef .tc main_arg10)) slices_S3x256x128_S1x128x128_1_0_0) shapeCasts_S1x128x128_S128x128 := by
    show StableHlo.after hostOps3 (W6 m ρ c) (Proc.devRef .tc main_v83) = _
    after_results_simp
    rfl
  rw [e, W6_main_arg10 m ρ c]
  exact wslice (m ((c : Thread nD τ).loc main_arg10)) ![1, 0, 0] slices_S3x256x128_S1x128x128_1_0_0 shapeCasts_S1x128x128_S128x128 (1 : Fin 3) 0 rfl rfl rfl k q (k256 0 (by omega) k) rfl
/-- Block 1 of layer 1's node weight, at (k, q). -/
theorem l1_nw1 (k q : Fin 128) : (W7 m ρ c (Proc.devRef .tc main_v86) : S128x128.Idx → EReal) (ix2 k q) = (m ((c : Thread nD τ).loc main_arg10)) (ix3 (1 : Fin 3) (k256 128 (by omega) k) q) := by
  have e : W7 m ρ c (Proc.devRef .tc main_v86) = shapeCast S128x128 (extractStridedSlice S1x128x128 ![1, 128, 0] (W6 m ρ c (Proc.devRef .tc main_arg10)) slices_S3x256x128_S1x128x128_1_128_0) shapeCasts_S1x128x128_S128x128 := by
    show StableHlo.after hostOps3 (W6 m ρ c) (Proc.devRef .tc main_v86) = _
    after_results_simp
    rfl
  rw [e, W6_main_arg10 m ρ c]
  exact wslice (m ((c : Thread nD τ).loc main_arg10)) ![1, 128, 0] slices_S3x256x128_S1x128x128_1_128_0 shapeCasts_S1x128x128_S128x128 (1 : Fin 3) 128 rfl rfl rfl k q (k256 128 (by omega) k) rfl
/-- Layer 1's node bias, at (0, q). -/
theorem l1_nb (q : Fin 128) : (W7 m ρ c (Proc.devRef .tc main_v89) : S1x128.Idx → EReal) (ix2 (0 : Fin 1) q) = (m ((c : Thread nD τ).loc main_arg11)) (ix2 (1 : Fin 3) q) := by
  have e : W7 m ρ c (Proc.devRef .tc main_v89) = shapeCast S1x128 (shapeCast S128 (extractStridedSlice S1x128 ![1, 0] (W6 m ρ c (Proc.devRef .tc main_arg11)) slices_S3x128_S1x128_1_0) shapeCasts_S1x128_S128) shapeCasts_S128_S1x128 := by
    show StableHlo.after hostOps3 (W6 m ρ c) (Proc.devRef .tc main_v89) = _
    after_results_simp
    rfl
  rw [e, W6_main_arg11 m ρ c]
  exact bslice (m ((c : Thread nD τ).loc main_arg11)) ![1, 0] slices_S3x128_S1x128_1_0 shapeCasts_S1x128_S128 shapeCasts_S128_S1x128 (1 : Fin 3) rfl rfl q

/-- The node call of layer 1 returns the reference's new node states. -/
theorem l1_Ho : W8 m ρ c (Proc.devRef .tc main_v90) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ?_
  rw [Reg3.final5 (V7 m ρ) c]
  show mlp2 (W7 m ρ c (Proc.devRef .tc main_v50)) (W7 m ρ c (Proc.devRef .tc main_v80))
      (W7 m ρ c (Proc.devRef .tc main_v83)) (W7 m ρ c (Proc.devRef .tc main_v86)) (W7 m ρ c (Proc.devRef .tc main_v89)) = _
  rw [mlp2_eq_nodeL (1 : Fin 3) _ _ (m ((c : Thread nD τ).loc main_arg10)) (m ((c : Thread nD τ).loc main_arg11)) _ _ _ (l1_nw0 m ρ c) (l1_nw1 m ρ c) (l1_nb m ρ c),
    l1_Hn m ρ c, l1_G m ρ c]
  exact (Cert.RefLayers.ref_node1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

end Cert.KernelIdeal.Chain

end
-- ==== Proof.Reg4.lean ====
/-
  Pipelined edge call 2 of the program, as one function of the arrays it is entered with.

  The grid has 75 points; at point t the three row windows hold rows 8000·t … 8000·t + 7999 of their arrays, the three
  weight windows and the bias window hold their whole arrays, and the two output windows are written back to rows
  8000·t … of their arrays.  An entry of an output block depends on one row of the row blocks only, so the block
  written back at t is the block at t of the edge update of the WHOLE arrays; the 75 blocks cover the output.
-/
import proofs.«122216_j7713761264053_2_alg».proof.Proof.Gen.KernelIdeal.Frame
import proofs.«122216_j7713761264053_2_alg».proof.Proof.Payload

set_option maxRecDepth 16384

noncomputable section

namespace Cert.KernelIdeal.Reg4

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.GnSpec Cert.KernelIdeal.Pay

-- the TensorCore's buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is the point, every other window sits at block (0, 0). -/
theorem idx_facts : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- Row 8000·t + p of a 600000-row array. -/
def rowOf (t : Fin 75) (p : Fin 8000) : Fin 600000 := ⟨8000 * t.val + p.val, by have := t.isLt; have := p.isLt; omega⟩

/-- Row window 0's block at point t holds rows 8000·t … of its array. -/
theorem read_row0 (c : Dev nD) (t : Fin cfg4.N) (p : Fin 8000) (k : Fin 128) :
    iblk4 V c 0 t (ix2 p k) = V c main_v98 (ix2 (rowOf t p) k) := by
  show V c main_v98 (((cfg4.win 0).blk t).view.emb (ix2 p k)) = _
  obtain ⟨e00, e01, e10, e11, e20, e21, -⟩ := idx_facts t
  refine congrArg _ (funext fun a => Fin.ext ?_)
  match a with
  | ⟨0, _⟩ => show win4_0.index t (0 : Fin 2) * 8000 + 1 * p.val = 8000 * t.val + p.val; omega
  | ⟨1, _⟩ => show win4_0.index t (1 : Fin 2) * 128 + 1 * k.val = k.val; omega

/-- Row window 1's block at point t holds rows 8000·t … of its array. -/
theorem read_row1 (c : Dev nD) (t : Fin cfg4.N) (p : Fin 8000) (k : Fin 128) :
    iblk4 V c 1 t (ix2 p k) = V c main_v105 (ix2 (rowOf t p) k) := by
  show V c main_v105 (((cfg4.win 1).blk t).view.emb (ix2 p k)) = _
  obtain ⟨e00, e01, e10, e11, e20, e21, -⟩ := idx_facts t
  refine congrArg _ (funext fun a => Fin.ext ?_)
  match a with
  | ⟨0, _⟩ => show win4_1.index t (0 : Fin 2) * 8000 + 1 * p.val = 8000 * t.val + p.val; omega
  | ⟨1, _⟩ => show win4_1.index t (1 : Fin 2) * 128 + 1 * k.val = k.val; omega

/-- Row window 2's block at point t holds rows 8000·t … of its array. -/
theorem read_row2 (c : Dev nD) (t : Fin cfg4.N) (p : Fin 8000) (k : Fin 128) :
    iblk4 V c 2 t (ix2 p k) = V c main_v77_1 (ix2 (rowOf t p) k) := by
  show V c main_v77_1 (((cfg4.win 2).blk t).view.emb (ix2 p k)) = _
  obtain ⟨e00, e01, e10, e11, e20, e21, -⟩ := idx_facts t
  refine congrArg _ (funext fun a => Fin.ext ?_)
  match a with
  | ⟨0, _⟩ => show win4_2.index t (0 : Fin 2) * 8000 + 1 * p.val = 8000 * t.val + p.val; omega
  | ⟨1, _⟩ => show win4_2.index t (1 : Fin 2) * 128 + 1 * k.val = k.val; omega

/-- Weight window 3's block is its whole array. -/
theorem read_w3 (c : Dev nD) (t : Fin cfg4.N) (k : Fin 128) (q : Fin 128) :
    iblk4 V c 3 t (ix2 k q) = V c main_v108 (ix2 k q) := by
  show V c main_v108 (((cfg4.win 3).blk t).view.emb (ix2 k q)) = _
  obtain ⟨-, -, -, -, -, -, e30, e31, e40, e41, e50, e51, -⟩ := idx_facts t
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

/-- Weight window 4's block is its whole array. -/
theorem read_w4 (c : Dev nD) (t : Fin cfg4.N) (k : Fin 128) (q : Fin 128) :
    iblk4 V c 4 t (ix2 k q) = V c main_v111 (ix2 k q) := by
  show V c main_v111 (((cfg4.win 4).blk t).view.emb (ix2 k q)) = _
  obtain ⟨-, -, -, -, -, -, e30, e31, e40, e41, e50, e51, -⟩ := idx_facts t
  refine congrArg _ (funext fun a => Fin.ext ?_)
  match a with
  | ⟨0, _⟩ => show win4_4.index t (0 : Fin 2) * 128 + 1 * k.val = k.val; omega
  | ⟨1, _⟩ => show win4_4.index t (1 : Fin 2) * 128 + 1 * q.val = q.val; omega

/-- Weight window 5's block is its whole array. -/
theorem read_w5 (c : Dev nD) (t : Fin cfg4.N) (k : Fin 128) (q : Fin 128) :
    iblk4 V c 5 t (ix2 k q) = V c main_v114 (ix2 k q) := by
  show V c main_v114 (((cfg4.win 5).blk t).view.emb (ix2 k q)) = _
  obtain ⟨-, -, -, -, -, -, e30, e31, e40, e41, e50, e51, -⟩ := idx_facts t
  refine congrArg _ (funext fun a => Fin.ext ?_)
  match a with
  | ⟨0, _⟩ => show win4_5.index t (0 : Fin 2) * 128 + 1 * k.val = k.val; omega
  | ⟨1, _⟩ => show win4_5.index t (1 : Fin 2) * 128 + 1 * q.val = q.val; omega

/-- The bias window's block is its whole array. -/
theorem read_b (c : Dev nD) (t : Fin cfg4.N) (q : Fin 128) :
    iblk4 V c 6 t (ix2 (0 : Fin 1) q) = V c main_v117 (ix2 (0 : Fin 1) q) := by
  show V c main_v117 (((cfg4.win 6).blk t).view.emb (ix2 (0 : Fin 1) q)) = _
  obtain ⟨-, -, -, -, -, -, -, -, -, -, -, -, e60, e61, -⟩ := idx_facts t
  refine congrArg _ (funext fun a => Fin.ext ?_)
  match a with
  | ⟨0, _⟩ => show win4_6.index t (0 : Fin 2) * 1 + 1 * 0 = 0; omega
  | ⟨1, _⟩ => show win4_6.index t (1 : Fin 2) * 128 + 1 * q.val = q.val; omega

/-- The edge update of the arrays the call is entered with. -/
abbrev G (c : Dev nD) : Arr2 600000 128 :=
  mlp3 (V c main_v98) (V c main_v105) (V c main_v77_1) (V c main_v108) (V c main_v111) (V c main_v114) (V c main_v117)

/-- The edge body of the blocks at point t, at (p, q), is the edge update of the whole arrays at row 8000·t + p. -/
theorem body_at (c : Dev nD) (t : Fin cfg4.N) (p : Fin 8000) (q : Fin 128) :
    k4_pay1 (F := Ideal) (iblk4 V c 0 t) (iblk4 V c 1 t) (iblk4 V c 2 t) (iblk4 V c 3 t) (iblk4 V c 4 t) (iblk4 V c 5 t) (iblk4 V c 6 t) (ix2 p q)
      = G V c (ix2 (rowOf t p) q) := by
  rw [k4_pay1_eq]
  refine (edge_pay (iblk4 V c 0 t) (iblk4 V c 1 t) (iblk4 V c 2 t) (iblk4 V c 3 t) (iblk4 V c 4 t) (iblk4 V c 5 t) (iblk4 V c 6 t) p q).trans ?_
  show _ = mlp3At (V c main_v98) (V c main_v105) (V c main_v77_1) (V c main_v108) (V c main_v111) (V c main_v114) (V c main_v117) (rowOf t p) q
  unfold mlp3At
  simp only [read_row0 V c t, read_row1 V c t, read_row2 V c t, read_w3 V c t, read_w4 V c t, read_w5 V c t, read_b V c t]

/-- Where output window 7's block at point t sits in its array. -/
theorem emb7 (t : Fin cfg4.N) (p : Fin 8000) (q : Fin 128) :
    ((cfg4.win 7).blk t).view.emb (ix2 p q) = ix2 (rowOf t p) q := by
  obtain ⟨-, -, -, -, -, -, -, -, -, -, -, -, -, -, e70, e71, e80, e81⟩ := idx_facts t
  refine funext fun a => Fin.ext ?_
  match a with
  | ⟨0, _⟩ => show win4_7.index t (0 : Fin 2) * 8000 + 1 * p.val = 8000 * t.val + p.val; omega
  | ⟨1, _⟩ => show win4_7.index t (1 : Fin 2) * 128 + 1 * q.val = q.val; omega

/-- What point t writes back through output window 7 is the block at t of the edge update of the whole arrays. -/
theorem flushed7 (c : Dev nD) (t : Fin cfg4.N) :
    (dat4 V c).flushed 7 t = ((cfg4.win 7).blk t).view.read (Elt Ideal) (G V c) := by
  show (cfg4.win 7).cut (grid4.coords t) ((dat4 V c).after 7 t) = _
  rw [after4_7]
  unfold out4_7
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t) (iblk4 V c 6 t) (ix2 p q)
    = G V c (((cfg4.win 7).blk t).view.emb (ix2 p q))
  rw [emb7 t p q]
  exact body_at V c t p q

/-- An index of the array is in point t's block iff each coordinate is in the block's range on its axis. -/
theorem mem_blk7 (t : Fin cfg4.N) (i : S600000x128.Idx) :
    i ∈ ((cfg4.win 7).blk t).view.set ↔ ∀ a : Fin 2, win4_7.index t a * S8000x128.size a ≤ (i a).val ∧ (i a).val < win4_7.index t a * S8000x128.size a + S8000x128.size a := by
  show i ∈ ((View.whole main_v118_0).slice (win4_7.rect t)).set ↔ _
  rw [View.set_slice_whole, Rect.mem_set_unit]
  exact Iff.rfl

/-- Every index of the output array is in the block of the point its row falls in. -/
theorem cover7 (i : S600000x128.Idx) : ∃ t : Fin cfg4.N, (cfg4.win 7).flush t = true ∧ i ∈ ((cfg4.win 7).blk t).view.set := by
  have hi0 : (i 0).val < 600000 := (i 0).isLt
  have hi1 : (i 1).val < 128 := (i 1).isLt
  let t : Fin cfg4.N := ⟨(i 0).val / 8000, by show (i 0).val / 8000 < 75; omega⟩
  have htv : t.val = (i 0).val / 8000 := rfl
  obtain ⟨-, -, -, -, -, -, -, -, -, -, -, -, -, -, e70, e71, e80, e81⟩ := idx_facts t
  refine ⟨t, flush4_7 t, ?_⟩
  rw [mem_blk7]
  intro a
  match a with
  | ⟨0, _⟩ => show win4_7.index t (0 : Fin 2) * 8000 ≤ (i 0).val ∧ (i 0).val < win4_7.index t (0 : Fin 2) * 8000 + 8000; omega
  | ⟨1, _⟩ => show win4_7.index t (1 : Fin 2) * 128 ≤ (i 1).val ∧ (i 1).val < win4_7.index t (1 : Fin 2) * 128 + 128; omega

/-- The output array after the call is the edge update of the arrays the call is entered with. -/
theorem final7 (c : Dev nD) : (dat4 V c).arrAt 7 cfg4.N = G V c :=
  (dat4 V c).arrAt_eq_of_cover 7 (G V c) (fun t _ => flushed7 V c t) (fun i => cover7 i)

/-- Where output window 8's block at point t sits in its array. -/
theorem emb8 (t : Fin cfg4.N) (p : Fin 8000) (q : Fin 128) :
    ((cfg4.win 8).blk t).view.emb (ix2 p q) = ix2 (rowOf t p) q := by
  obtain ⟨-, -, -, -, -, -, -, -, -, -, -, -, -, -, e70, e71, e80, e81⟩ := idx_facts t
  refine funext fun a => Fin.ext ?_
  match a with
  | ⟨0, _⟩ => show win4_8.index t (0 : Fin 2) * 8000 + 1 * p.val = 8000 * t.val + p.val; omega
  | ⟨1, _⟩ => show win4_8.index t (1 : Fin 2) * 128 + 1 * q.val = q.val; omega

/-- What point t writes back through output window 8 is the block at t of the edge update of the whole arrays. -/
theorem flushed8 (c : Dev nD) (t : Fin cfg4.N) :
    (dat4 V c).flushed 8 t = ((cfg4.win 8).blk t).view.read (Elt Ideal) (G V c) := by
  show (cfg4.win 8).cut (grid4.coords t) ((dat4 V c).after 8 t) = _
  rw [after4_8]
  unfold out4_8
  rw [View.canon_unit_zero hz]
  simp only [View.ld_unit_zero (S := S8000x128) hz, View.ld_unit_zero (S := S128x128) hz, View.ld_unit_zero (S := S1x128) hz]
  funext j
  obtain ⟨p, q, rfl⟩ : ∃ (p : Fin 8000) (q : Fin 128), j = ix2 p q := ⟨j 0, j 1, eq_ix2 j⟩
  show k4_pay2 (F := Ideal) (iblk4 V c 0 t) (iblk4 V c 1 t) (iblk4 V c 2 t) (iblk4 V c 3 t) (iblk4 V c 4 t) (iblk4 V c 5 t) (iblk4 V c 6 t) (ix2 p q)
    = G V c (((cfg4.win 8).blk t).view.emb (ix2 p q))
  rw [k4_pay2_eq]
  rw [emb8 t p q]
  exact body_at V c t p q

/-- An index of the array is in point t's block iff each coordinate is in the block's range on its axis. -/
theorem mem_blk8 (t : Fin cfg4.N) (i : S600000x128.Idx) :
    i ∈ ((cfg4.win 8).blk t).view.set ↔ ∀ a : Fin 2, win4_8.index t a * S8000x128.size a ≤ (i a).val ∧ (i a).val < win4_8.index t a * S8000x128.size a + S8000x128.size a := by
  show i ∈ ((View.whole main_v118_1).slice (win4_8.rect t)).set ↔ _
  rw [View.set_slice_whole, Rect.mem_set_unit]
  exact Iff.rfl

/-- Every index of the output array is in the block of the point its row falls in. -/
theorem cover8 (i : S600000x128.Idx) : ∃ t : Fin cfg4.N, (cfg4.win 8).flush t = true ∧ i ∈ ((cfg4.win 8).blk t).view.set := by
  have hi0 : (i 0).val < 600000 := (i 0).isLt
  have hi1 : (i 1).val < 128 := (i 1).isLt
  let t : Fin cfg4.N := ⟨(i 0).val / 8000, by show (i 0).val / 8000 < 75; omega⟩
  have htv : t.val = (i 0).val / 8000 := rfl
  obtain ⟨-, -, -, -, -, -, -, -, -, -, -, -, -, -, e70, e71, e80, e81⟩ := idx_facts t
  refine ⟨t, flush4_8 t, ?_⟩
  rw [mem_blk8]
  intro a
  match a with
  | ⟨0, _⟩ => show win4_8.index t (0 : Fin 2) * 8000 ≤ (i 0).val ∧ (i 0).val < win4_8.index t (0 : Fin 2) * 8000 + 8000; omega
  | ⟨1, _⟩ => show win4_8.index t (1 : Fin 2) * 128 ≤ (i 1).val ∧ (i 1).val < win4_8.index t (1 : Fin 2) * 128 + 128; omega

/-- The output array after the call is the edge update of the arrays the call is entered with. -/
theorem final8 (c : Dev nD) : (dat4 V c).arrAt 8 cfg4.N = G V c :=
  (dat4 V c).arrAt_eq_of_cover 8 (G V c) (fun t _ => flushed8 V c t) (fun i => cover8 i)

end Cert.KernelIdeal.Reg4

end
-- ==== Proof.Reg5.lean ====
/-
  Pipelined node call 2 of the program, as one function of the arrays it is entered with.

  The grid has 25 points; at point t the two row windows hold rows 2000·t … 2000·t + 1999 of their arrays, the two
  weight windows and the bias window hold their whole arrays, and the output window is written back to rows 2000·t …
  of its array.  An entry of the output block depends on one row of the row blocks only, so the block written back at
  t is the block at t of the node update of the WHOLE arrays; the 25 blocks cover the output.
-/
import proofs.«122216_j7713761264053_2_alg».proof.Proof.Gen.KernelIdeal.Frame
import proofs.«122216_j7713761264053_2_alg».proof.Proof.Payload

set_option maxRecDepth 16384

noncomputable section

namespace Cert.KernelIdeal.Reg5

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.GnSpec Cert.KernelIdeal.Pay

-- the TensorCore's buffer contents when the call is entered
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window's block index is the point, every other window sits at block (0, 0). -/
theorem idx_facts : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row 2000·t + p of a 50000-row array. -/
def rowOf (t : Fin 25) (p : Fin 2000) : Fin 50000 := ⟨2000 * t.val + p.val, by have := t.isLt; have := p.isLt; omega⟩

/-- Row window 0's block at point t holds rows 2000·t … of its array. -/
theorem read_row0 (c : Dev nD) (t : Fin cfg5.N) (p : Fin 2000) (k : Fin 128) :
    iblk5 V c 0 t (ix2 p k) = V c main_v91 (ix2 (rowOf t p) k) := by
  show V c main_v91 (((cfg5.win 0).blk t).view.emb (ix2 p k)) = _
  obtain ⟨e00, e01, e10, e11, -⟩ := idx_facts t
  refine congrArg _ (funext fun a => Fin.ext ?_)
  match a with
  | ⟨0, _⟩ => show win5_0.index t (0 : Fin 2) * 2000 + 1 * p.val = 2000 * t.val + p.val; omega
  | ⟨1, _⟩ => show win5_0.index t (1 : Fin 2) * 128 + 1 * k.val = k.val; omega

/-- Row window 1's block at point t holds rows 2000·t … of its array. -/
theorem read_row1 (c : Dev nD) (t : Fin cfg5.N) (p : Fin 2000) (k : Fin 128) :
    iblk5 V c 1 t (ix2 p k) = V c main_v121 (ix2 (rowOf t p) k) := by
  show V c main_v121 (((cfg5.win 1).blk t).view.emb (ix2 p k)) = _
  obtain ⟨e00, e01, e10, e11, -⟩ := idx_facts t
  refine congrArg _ (funext fun a => Fin.ext ?_)
  match a with
  | ⟨0, _⟩ => show win5_1.index t (0 : Fin 2) * 2000 + 1 * p.val = 2000 * t.val + p.val; omega
  | ⟨1, _⟩ => show win5_1.index t (1 : Fin 2) * 128 + 1 * k.val = k.val; omega

/-- Weight window 2's block is its whole array. -/
theorem read_w2 (c : Dev nD) (t : Fin cfg5.N) (k : Fin 128) (q : Fin 128) :
    iblk5 V c 2 t (ix2 k q) = V c main_v124 (ix2 k q) := by
  show V c main_v124 (((cfg5.win 2).blk t).view.emb (ix2 k q)) = _
  obtain ⟨-, -, -, -, e20, e21, e30, e31, -⟩ := idx_facts t
  refine congrArg _ (funext fun a => Fin.ext ?_)
  match a with
  | ⟨0, _⟩ => show win5_2.index t (0 : Fin 2) * 128 + 1 * k.val = k.val; omega
  | ⟨1, _⟩ => show win5_2.index t (1 : Fin 2) * 128 + 1 * q.val = q.val; omega

/-- Weight window 3's block is its whole array. -/
theorem read_w3 (c : Dev nD) (t : Fin cfg5.N) (k : Fin 128) (q : Fin 128) :
    iblk5 V c 3 t (ix2 k q) = V c main_v127 (ix2 k q) := by
  show V c main_v127 (((cfg5.win 3).blk t).view.emb (ix2 k q)) = _
  obtain ⟨-, -, -, -, e20, e21, e30, e31, -⟩ := idx_facts t
  refine congrArg _ (funext fun a => Fin.ext ?_)
  match a with
  | ⟨0, _⟩ => show win5_3.index t (0 : Fin 2) * 128 + 1 * k.val = k.val; omega
  | ⟨1, _⟩ => show win5_3.index t (1 : Fin 2) * 128 + 1 * q.val = q.val; omega

/-- The bias window's block is its whole array. -/
theorem read_b (c : Dev nD) (t : Fin cfg5.N) (q : Fin 128) :
    iblk5 V c 4 t (ix2 (0 : Fin 1) q) = V c main_v130 (ix2 (0 : Fin 1) q) := by
  show V c main_v130 (((cfg5.win 4).blk t).view.emb (ix2 (0 : Fin 1) q)) = _
  obtain ⟨-, -, -, -, -, -, -, -, e40, e41, -⟩ := idx_facts t
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

/-- The node update of the arrays the call is entered with. -/
abbrev G (c : Dev nD) : Arr2 50000 128 :=
  mlp2 (V c main_v91) (V c main_v121) (V c main_v124) (V c main_v127) (V c main_v130)

/-- The node body of the blocks at point t, at (p, q), is the node update of the whole arrays at row 2000·t + p. -/
theorem body_at (c : Dev nD) (t : Fin cfg5.N) (p : Fin 2000) (q : Fin 128) :
    k5_pay1 (F := Ideal) (iblk5 V c 0 t) (iblk5 V c 1 t) (iblk5 V c 2 t) (iblk5 V c 3 t) (iblk5 V c 4 t) (ix2 p q)
      = G V c (ix2 (rowOf t p) q) := by
  rw [k5_pay1_eq]
  refine (node_pay (iblk5 V c 0 t) (iblk5 V c 1 t) (iblk5 V c 2 t) (iblk5 V c 3 t) (iblk5 V c 4 t) p q).trans ?_
  show _ = mlp2At (V c main_v91) (V c main_v121) (V c main_v124) (V c main_v127) (V c main_v130) (rowOf t p) q
  unfold mlp2At
  simp only [read_row0 V c t, read_row1 V c t, read_w2 V c t, read_w3 V c t, read_b V c t]

/-- Where the output window's block at point t sits in its array. -/
theorem emb5 (t : Fin cfg5.N) (p : Fin 2000) (q : Fin 128) :
    ((cfg5.win 5).blk t).view.emb (ix2 p q) = ix2 (rowOf t p) q := by
  obtain ⟨-, -, -, -, -, -, -, -, -, -, e50, e51⟩ := idx_facts t
  refine funext fun a => Fin.ext ?_
  match a with
  | ⟨0, _⟩ => show win5_5.index t (0 : Fin 2) * 2000 + 1 * p.val = 2000 * t.val + p.val; omega
  | ⟨1, _⟩ => show win5_5.index t (1 : Fin 2) * 128 + 1 * q.val = q.val; omega

/-- What point t writes back is the block at t of the node update of the whole arrays. -/
theorem flushed5 (c : Dev nD) (t : Fin cfg5.N) :
    (dat5 V c).flushed 5 t = ((cfg5.win 5).blk t).view.read (Elt Ideal) (G V c) := by
  show (cfg5.win 5).cut (grid5.coords t) ((dat5 V c).after 5 t) = _
  rw [after5_5]
  unfold out5_5
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k5_pay1 (F := Ideal) (iblk5 V c 0 t) (iblk5 V c 1 t) (iblk5 V c 2 t) (iblk5 V c 3 t) (iblk5 V c 4 t) (ix2 p q)
    = G V c (((cfg5.win 5).blk t).view.emb (ix2 p q))
  rw [emb5 t p q]
  exact body_at V c t p q

/-- An index of the array is in point t's block iff each coordinate is in the block's range on its axis. -/
theorem mem_blk5 (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole main_v131).slice (win5_5.rect t)).set ↔ _
  rw [View.set_slice_whole, Rect.mem_set_unit]
  exact Iff.rfl

/-- Every index of the output array is in the block of the point its row falls in. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  let t : Fin cfg5.N := ⟨(i 0).val / 2000, by show (i 0).val / 2000 < 25; omega⟩
  have htv : t.val = (i 0).val / 2000 := rfl
  obtain ⟨-, -, -, -, -, -, -, -, -, -, e50, e51⟩ := idx_facts t
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 128 ≤ (i 1).val ∧ (i 1).val < win5_5.index t (1 : Fin 2) * 128 + 128; omega

/-- The output array after the call is the node update of the arrays the call is entered with. -/
theorem final5 (c : Dev nD) : (dat5 V c).arrAt 5 cfg5.N = G V c :=
  (dat5 V c).arrAt_eq_of_cover 5 (G V c) (fun t _ => flushed5 V c t) (fun i => cover5 i)

end Cert.KernelIdeal.Reg5

end
-- ==== Proof.Chain2.lean ====
/-
  Layer 2 of the kernel program, value by value, against the reference program's stages.

  Entering the layer, the node states and the edge states the kernel program holds are the reference's (the narrowed
  copies are the same arrays: a change of float format is the identity on the extended reals).  The host gathers the
  node states at the sources and at the destinations with the very operations of the reference, so the gathered
  arrays are the reference's; the edge call returns the edge update of what it is given, which is the reference's
  rectified product of the three arrays joined along the columns with the layer's whole [384, 128] weight, because a
  sum over 384 columns is the sum of the sums over its three blocks; the host scatter-adds the new edge states by
  destination with the reference's operation; and the node call returns the node update, likewise the reference's.
-/
import proofs.«122216_j7713761264053_2_alg».proof.Proof.Chain1
import proofs.«122216_j7713761264053_2_alg».proof.Proof.Reg4
import proofs.«122216_j7713761264053_2_alg».proof.Proof.Reg5
import Idealize.ShloMosaic.Lib.StableHlo.Run

set_option maxRecDepth 16384

noncomputable section

namespace Cert.KernelIdeal.Chain

open Idealize.ShloMosaic Idealize.ShloMosaic.TcCoe Idealize.ShloMosaic.StableHlo
open Idealize.SL Idealize.SL.Sem Idealize.ShloMosaic.ValueIdx
open Cert.KernelIdeal Cert.KernelIdeal.Gen Cert.KernelIdeal.Keep Cert.GnSpec Cert.GnSlices

variable (m : (ℓ : Loc nD τ sig) → Buf (Elt Ideal) ℓ) (ρ : Dev nD → PrngReg) (c : Dev nD)

/-- The node states entering layer 2, narrowed. -/
theorem l2_H : W9 m ρ c (Proc.devRef .tc main_v91) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W8 m ρ c) (Proc.devRef .tc main_v91) = _
  after_results_simp
  rw [l1_Ho m ρ c]
  generalize Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- The edge states entering layer 2, narrowed by the previous edge call, reach this one unchanged. -/
theorem l2_E : W9 m ρ c (Proc.devRef .tc main_v77_1) = Cert.ReferenceIdeal.ReadP.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W9_main_v77_1 m ρ c).trans (l1_Eo16 m ρ c)
/-- The node states gathered at the sources. -/
theorem l2_A : W9 m ρ c (Proc.devRef .tc main_v98) = Cert.ReferenceIdeal.ReadP.val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W8 m ρ c) (Proc.devRef .tc main_v98) = _
  after_results_simp
  rw [l1_Ho m ρ c, W8_main_arg2 m ρ c]
  unfold Cert.ReferenceIdeal.ReadP.val_main_v88
  generalize Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- The node states gathered at the destinations. -/
theorem l2_B : W9 m ρ c (Proc.devRef .tc main_v105) = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps4 (W8 m ρ c) (Proc.devRef .tc main_v105) = _
  after_results_simp
  rw [l1_Ho m ρ c, W8_main_arg3 m ρ c]
  unfold Cert.ReferenceIdeal.ReadP.val_main_v95
  generalize Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- Block 0 of layer 2's edge weight, at (k, q). -/
theorem l2_ew0 (k q : Fin 128) : (W9 m ρ c (Proc.devRef .tc main_v108) : S128x128.Idx → EReal) (ix2 k q) = (m ((c : Thread nD τ).loc main_arg8)) (ix3 (2 : Fin 3) (k384 0 (by omega) k) q) := by
  have e : W9 m ρ c (Proc.devRef .tc main_v108) = shapeCast S128x128 (extractStridedSlice S1x128x128 ![2, 0, 0] (W8 m ρ c (Proc.devRef .tc main_arg8)) slices_S3x384x128_S1x128x128_2_0_0) shapeCasts_S1x128x128_S128x128 := by
    show StableHlo.after hostOps4 (W8 m ρ c) (Proc.devRef .tc main_v108) = _
    after_results_simp
    rfl
  rw [e, W8_main_arg8 m ρ c]
  exact wslice (m ((c : Thread nD τ).loc main_arg8)) ![2, 0, 0] slices_S3x384x128_S1x128x128_2_0_0 shapeCasts_S1x128x128_S128x128 (2 : Fin 3) 0 rfl rfl rfl k q (k384 0 (by omega) k) rfl
/-- Block 1 of layer 2's edge weight, at (k, q). -/
theorem l2_ew1 (k q : Fin 128) : (W9 m ρ c (Proc.devRef .tc main_v111) : S128x128.Idx → EReal) (ix2 k q) = (m ((c : Thread nD τ).loc main_arg8)) (ix3 (2 : Fin 3) (k384 128 (by omega) k) q) := by
  have e : W9 m ρ c (Proc.devRef .tc main_v111) = shapeCast S128x128 (extractStridedSlice S1x128x128 ![2, 128, 0] (W8 m ρ c (Proc.devRef .tc main_arg8)) slices_S3x384x128_S1x128x128_2_128_0) shapeCasts_S1x128x128_S128x128 := by
    show StableHlo.after hostOps4 (W8 m ρ c) (Proc.devRef .tc main_v111) = _
    after_results_simp
    rfl
  rw [e, W8_main_arg8 m ρ c]
  exact wslice (m ((c : Thread nD τ).loc main_arg8)) ![2, 128, 0] slices_S3x384x128_S1x128x128_2_128_0 shapeCasts_S1x128x128_S128x128 (2 : Fin 3) 128 rfl rfl rfl k q (k384 128 (by omega) k) rfl
/-- Block 2 of layer 2's edge weight, at (k, q). -/
theorem l2_ew2 (k q : Fin 128) : (W9 m ρ c (Proc.devRef .tc main_v114) : S128x128.Idx → EReal) (ix2 k q) = (m ((c : Thread nD τ).loc main_arg8)) (ix3 (2 : Fin 3) (k384 256 (by omega) k) q) := by
  have e : W9 m ρ c (Proc.devRef .tc main_v114) = shapeCast S128x128 (extractStridedSlice S1x128x128 ![2, 256, 0] (W8 m ρ c (Proc.devRef .tc main_arg8)) slices_S3x384x128_S1x128x128_2_256_0) shapeCasts_S1x128x128_S128x128 := by
    show StableHlo.after hostOps4 (W8 m ρ c) (Proc.devRef .tc main_v114) = _
    after_results_simp
    rfl
  rw [e, W8_main_arg8 m ρ c]
  exact wslice (m ((c : Thread nD τ).loc main_arg8)) ![2, 256, 0] slices_S3x384x128_S1x128x128_2_256_0 shapeCasts_S1x128x128_S128x128 (2 : Fin 3) 256 rfl rfl rfl k q (k384 256 (by omega) k) rfl
/-- Layer 2's edge bias, at (0, q). -/
theorem l2_eb (q : Fin 128) : (W9 m ρ c (Proc.devRef .tc main_v117) : S1x128.Idx → EReal) (ix2 (0 : Fin 1) q) = (m ((c : Thread nD τ).loc main_arg9)) (ix2 (2 : Fin 3) q) := by
  have e : W9 m ρ c (Proc.devRef .tc main_v117) = shapeCast S1x128 (shapeCast S128 (extractStridedSlice S1x128 ![2, 0] (W8 m ρ c (Proc.devRef .tc main_arg9)) slices_S3x128_S1x128_2_0) shapeCasts_S1x128_S128) shapeCasts_S128_S1x128 := by
    show StableHlo.after hostOps4 (W8 m ρ c) (Proc.devRef .tc main_v117) = _
    after_results_simp
    rfl
  rw [e, W8_main_arg9 m ρ c]
  exact bslice (m ((c : Thread nD τ).loc main_arg9)) ![2, 0] slices_S3x128_S1x128_2_0 shapeCasts_S1x128_S128 shapeCasts_S128_S1x128 (2 : Fin 3) rfl rfl q

/-- The edge call of layer 2 returns the reference's new edge states. -/
theorem l2_Eo : W10 m ρ c (Proc.devRef .tc main_v118_0) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 7).trans ?_
  rw [Reg4.final7 (V9 m ρ) c]
  show mlp3 (W9 m ρ c (Proc.devRef .tc main_v98)) (W9 m ρ c (Proc.devRef .tc main_v105)) (W9 m ρ c (Proc.devRef .tc main_v77_1))
      (W9 m ρ c (Proc.devRef .tc main_v108)) (W9 m ρ c (Proc.devRef .tc main_v111)) (W9 m ρ c (Proc.devRef .tc main_v114)) (W9 m ρ c (Proc.devRef .tc main_v117)) = _
  rw [mlp3_eq_edgeL (2 : Fin 3) _ _ _ (m ((c : Thread nD τ).loc main_arg8)) (m ((c : Thread nD τ).loc main_arg9)) _ _ _ _ (l2_ew0 m ρ c) (l2_ew1 m ρ c) (l2_ew2 m ρ c) (l2_eb m ρ c),
    l2_A m ρ c, l2_B m ρ c, l2_E m ρ c]
  exact (Cert.RefLayers.ref_edge2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm
/-- The narrowed copy is the same array. -/
theorem l2_Eo16 : W10 m ρ c (Proc.devRef .tc main_v118_1) = Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 8).trans ?_
  rw [Reg4.final8 (V9 m ρ) c]
  exact ((Reg4.final7 (V9 m ρ) c).symm.trans (W10_arr m ρ c 7).symm).trans (l2_Eo m ρ c)

/-- The new edge states summed by destination. -/
theorem l2_G : W11 m ρ c (Proc.devRef .tc main_v121) = Cert.ReferenceIdeal.ReadP.val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps5 (W10 m ρ c) (Proc.devRef .tc main_v121) = _
  after_results_simp
  rw [l2_Eo m ρ c, W10_main_arg3 m ρ c]
  unfold Cert.ReferenceIdeal.ReadP.val_main_v108
  generalize Cert.ReferenceIdeal.ReadP.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) = Y
  rfl
/-- The narrowed node states reach the node call unchanged. -/
theorem l2_Hn : W11 m ρ c (Proc.devRef .tc main_v91) = Cert.ReferenceIdeal.ReadP.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W11_main_v91 m ρ c).trans (l2_H m ρ c)
/-- Block 0 of layer 2's node weight, at (k, q). -/
theorem l2_nw0 (k q : Fin 128) : (W11 m ρ c (Proc.devRef .tc main_v124) : S128x128.Idx → EReal) (ix2 k q) = (m ((c : Thread nD τ).loc main_arg10)) (ix3 (2 : Fin 3) (k256 0 (by omega) k) q) := by
  have e : W11 m ρ c (Proc.devRef .tc main_v124) = shapeCast S128x128 (extractStridedSlice S1x128x128 ![2, 0, 0] (W10 m ρ c (Proc.devRef .tc main_arg10)) slices_S3x256x128_S1x128x128_2_0_0) shapeCasts_S1x128x128_S128x128 := by
    show StableHlo.after hostOps5 (W10 m ρ c) (Proc.devRef .tc main_v124) = _
    after_results_simp
    rfl
  rw [e, W10_main_arg10 m ρ c]
  exact wslice (m ((c : Thread nD τ).loc main_arg10)) ![2, 0, 0] slices_S3x256x128_S1x128x128_2_0_0 shapeCasts_S1x128x128_S128x128 (2 : Fin 3) 0 rfl rfl rfl k q (k256 0 (by omega) k) rfl
/-- Block 1 of layer 2's node weight, at (k, q). -/
theorem l2_nw1 (k q : Fin 128) : (W11 m ρ c (Proc.devRef .tc main_v127) : S128x128.Idx → EReal) (ix2 k q) = (m ((c : Thread nD τ).loc main_arg10)) (ix3 (2 : Fin 3) (k256 128 (by omega) k) q) := by
  have e : W11 m ρ c (Proc.devRef .tc main_v127) = shapeCast S128x128 (extractStridedSlice S1x128x128 ![2, 128, 0] (W10 m ρ c (Proc.devRef .tc main_arg10)) slices_S3x256x128_S1x128x128_2_128_0) shapeCasts_S1x128x128_S128x128 := by
    show StableHlo.after hostOps5 (W10 m ρ c) (Proc.devRef .tc main_v127) = _
    after_results_simp
    rfl
  rw [e, W10_main_arg10 m ρ c]
  exact wslice (m ((c : Thread nD τ).loc main_arg10)) ![2, 128, 0] slices_S3x256x128_S1x128x128_2_128_0 shapeCasts_S1x128x128_S128x128 (2 : Fin 3) 128 rfl rfl rfl k q (k256 128 (by omega) k) rfl
/-- Layer 2's node bias, at (0, q). -/
theorem l2_nb (q : Fin 128) : (W11 m ρ c (Proc.devRef .tc main_v130) : S1x128.Idx → EReal) (ix2 (0 : Fin 1) q) = (m ((c : Thread nD τ).loc main_arg11)) (ix2 (2 : Fin 3) q) := by
  have e : W11 m ρ c (Proc.devRef .tc main_v130) = shapeCast S1x128 (shapeCast S128 (extractStridedSlice S1x128 ![2, 0] (W10 m ρ c (Proc.devRef .tc main_arg11)) slices_S3x128_S1x128_2_0) shapeCasts_S1x128_S128) shapeCasts_S128_S1x128 := by
    show StableHlo.after hostOps5 (W10 m ρ c) (Proc.devRef .tc main_v130) = _
    after_results_simp
    rfl
  rw [e, W10_main_arg11 m ρ c]
  exact bslice (m ((c : Thread nD τ).loc main_arg11)) ![2, 0] slices_S3x128_S1x128_2_0 shapeCasts_S1x128_S128 shapeCasts_S128_S1x128 (2 : Fin 3) rfl rfl q

/-- The node call of layer 2 returns the reference's new node states. -/
theorem l2_Ho : W12 m ρ c (Proc.devRef .tc main_v131) = Cert.ReferenceIdeal.ReadP.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 5).trans ?_
  rw [Reg5.final5 (V11 m ρ) c]
  show mlp2 (W11 m ρ c (Proc.devRef .tc main_v91)) (W11 m ρ c (Proc.devRef .tc main_v121))
      (W11 m ρ c (Proc.devRef .tc main_v124)) (W11 m ρ c (Proc.devRef .tc main_v127)) (W11 m ρ c (Proc.devRef .tc main_v130)) = _
  rw [mlp2_eq_nodeL (2 : Fin 3) _ _ (m ((c : Thread nD τ).loc main_arg10)) (m ((c : Thread nD τ).loc main_arg11)) _ _ _ (l2_nw0 m ρ c) (l2_nw1 m ρ c) (l2_nb m ρ c),
    l2_Hn m ρ c, l2_G m ρ c]
  exact (Cert.RefLayers.ref_node2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))).symm

end Cert.KernelIdeal.Chain

end
-- ==== Proof.lean ====
/-
  A three-layer message-passing network: a Pallas implementation against its plain jnp reference, equal on the
  extended reals.

  Both programs encode the node and the edge features with the same two host products.  In each layer the reference
  joins the node states gathered at the sources, those gathered at the destinations and the edge states along the
  columns, multiplies by the layer's [384, 128] weight, adds the bias and rectifies; the kernel program multiplies the
  three arrays by the three 128-row blocks of that weight in one pipelined call over 75 blocks of 8000 edges and adds
  the products.  A sum over 384 columns is the sum of the sums over its three 128-column blocks, whatever the extended
  reals summed, so the two edge updates are one function; the node update (two blocks of a [256, 128] weight, 25
  blocks of 2000 nodes) likewise.  The gathers, the scatter-add by destination and the encoders are the same host
  operations in both programs, applied to equal arrays; the kernel program's narrowings to bfloat16 are the identity
  on the extended reals.  No step needs the inputs to be finite.

  The frames of the two kernel programs are the generated ones; the reference's frame is its run with the results
  dropped; the ideal pass rewrote nothing, so there is nothing to preserve.
-/
import proofs.«122216_j7713761264053_2_alg».proof.Defs
import proofs.«122216_j7713761264053_2_alg».proof.Proof.Gen.Kernel
import proofs.«122216_j7713761264053_2_alg».proof.Proof.Gen.Kernel.Skeleton
import proofs.«122216_j7713761264053_2_alg».proof.Proof.Gen.Kernel.Launch
import proofs.«122216_j7713761264053_2_alg».proof.Proof.Gen.Kernel.Points
import proofs.«122216_j7713761264053_2_alg».proof.Proof.Gen.Kernel.Frame
import proofs.«122216_j7713761264053_2_alg».proof.Proof.Gen.KernelIdeal
import proofs.«122216_j7713761264053_2_alg».proof.Proof.Gen.KernelIdeal.Skeleton
import proofs.«122216_j7713761264053_2_alg».proof.Proof.Gen.KernelIdeal.Launch
import proofs.«122216_j7713761264053_2_alg».proof.Proof.Gen.KernelIdeal.Points
import proofs.«122216_j7713761264053_2_alg».proof.Proof.Gen.KernelIdeal.Frame
import proofs.«122216_j7713761264053_2_alg».proof.Proof.Gen.ReferenceIdeal
import proofs.«122216_j7713761264053_2_alg».proof.Proof.Gen.Pre_finite_inputs
import proofs.«122216_j7713761264053_2_alg».proof.Proof.RefRun
import proofs.«122216_j7713761264053_2_alg».proof.Proof.KRun
import proofs.«122216_j7713761264053_2_alg».proof.Proof.Chain2
import Idealize.ShloMosaic.Adequacy
import Idealize.ShloMosaic.Init

noncomputable section

namespace Cert.Proof

open Idealize.ShloMosaic Idealize.SL.Sem

/-- The kernel program as printed runs and leaves its arguments unchanged. -/
theorem frame_k : Cert.frame_Kernel := fun m ρ _ => Cert.Kernel.Gen.frame m ρ
/-- The idealized kernel program runs and leaves its arguments unchanged. -/
theorem frame_ki : Cert.frame_KernelIdeal := fun m ρ _ => Cert.KernelIdeal.Gen.frame m ρ
/-- The reference runs and leaves its arguments unchanged: its run, the two results dropped. -/
theorem frame_ri : Cert.frame_ReferenceIdeal := fun m ρ _ =>
  (θ_run Cert.ReferenceIdeal.defs _ _).mono (fun _ h c => (h c).2.2) (Cert.ReferenceIdeal.RefRun.ref_run m ρ)

/-- Both programs end with the final node states and the final edge states of the reference's stages. -/
theorem algebraic : Cert.algebraic_KernelIdeal_ReferenceIdeal := by
  intro m ρ m' ρ' _ hagree
  refine ⟨fun c => Cert.ReferenceIdeal.ReadP.val_main_v118 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.ReferenceIdeal.ReadP.val_main_v105 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c).1.trans (Cert.KernelIdeal.Chain.l2_Ho m ρ c),
       (h c).2.1.trans ((Cert.KernelIdeal.Keep.W12_main_v118_0 m ρ c).trans (Cert.KernelIdeal.Chain.l2_Eo m ρ c)),
       (h c).2.2⟩) (Cert.KernelIdeal.KRun.run_named m ρ)
  · refine (θ_run Cert.ReferenceIdeal.defs _ _).mono (fun r h c => ?_) (Cert.ReferenceIdeal.RefRun.ref_run m' ρ')
    obtain ⟨e0, e1, e2, e3, e4, e5, e6, e7, e8, e9, e10, e11⟩ := hagree c
    refine ⟨(h c).1.trans ?_, (h c).2.1.trans ?_, (h c).2.2⟩
    · rw [e0, e1, e2, e3, e4, e5, e6, e7, e8, e9, e10, e11]
    · rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
